-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1536x64 : Shape := ⟨2, ![1536, 64]⟩
abbrev S1536x1536 : Shape := ⟨2, ![1536, 1536]⟩
abbrev S64x64 : Shape := ⟨2, ![64, 64]⟩
abbrev S64 : Shape := ⟨1, ![64]⟩
abbrev S_ : Shape := ⟨0, ![]⟩

class Facts : Prop where
  bcast_S_S1536x64 : S_.BroadcastsInDim S1536x64 (![] : Fin 0 → Fin S1536x64.rank)
  reducesTo_S1536x64_S_d0_1 : S1536x64.ReducesTo [0, 1] S_
  h_S_ : 0 < S_.numel
  bcast_S_S1536x1536 : S_.BroadcastsInDim S1536x1536 (![] : Fin 0 → Fin S1536x1536.rank)
  reducesTo_S1536x1536_S_d0_1 : S1536x1536.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_arg1 : FVec F S1536x1536 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_cst_20 : FVec F S_ .f32 := constant S_ .f32 0x00000000#32
  let main_v54 : FVec F S1536x1536 .f32 := broadcastInDim S1536x1536 ![] bcast_S_S1536x1536 main_cst_20
  let main_v55 : IVec S1536x1536 1 := cmpf .oeq main_arg1 main_v54
  let main_cst_21 : FVec F S_ .f32 := constant S_ .f32 0x3F800000#32
  let main_v56 : FVec F S1536x1536 .f32 := broadcastInDim S1536x1536 ![] bcast_S_S1536x1536 main_cst_21
  let main_v57 : IVec S1536x1536 1 := cmpf .oeq main_arg1 main_v56
  let main_v58 : IVec S1536x1536 1 := ori main_v55 main_v57
  let main_c_22 : IVec S_ 1 := constantI S_ 1 1#1
  let main_v59 : IVec S_ 1 := (fun x v => Host.reduce IntOp.andi x v reducesTo_S1536x1536_S_d0_1 h_S_) main_v58 main_c_22
  let main_v60 : IVec S_ 1 := andi main_v53 main_v59
  main_v60

def fn_part2 {F : FTy → Type} [FloatOps F] (main_arg1 : FVec F S1536x1536 .f32) (main_arg7 : FVec F S64x64 .f32) (main_arg8 : FVec F S64x64 .f32) (main_arg9 : FVec F S64 .f32) (main_arg10 : FVec F S64x64 .f32) (main_v33 : IVec S_ 1) : IVec S_ 1 :=
  let main_v34 : FVec F S64x64 .f32 := Host.absf main_arg7
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64x64 .f32 := Host.absf main_arg8
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x64 .f32 := Host.absf main_arg10
  let main_cst_18 : FVec F S_ .f32 := constant S_ .f32 0x7F800000#32
  let main_v50 : FVec F S64x64 .f32 := broadcastInDim S64x64 ![] bcast_S_S64x64 main_cst_18
  fn_part3 (F := F) main_arg1 main_v48 main_v49 main_v50

def fn_part1 {F : FTy → Type} [FloatOps F] (main_arg1 : FVec F S1536x1536 .f32) (main_arg4 : FVec F S64x64 .f32) (main_arg5 : FVec F S64x64 .f32) (main_arg6 : FVec F S64 .f32) (main_arg7 : FVec F S64x64 .f32) (main_arg8 : FVec F S64x64 .f32) (main_arg9 : FVec F S64 .f32) (main_arg10 : FVec F S64x64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg1 main_arg7 main_arg8 main_arg9 main_arg10 main_v33

def fn {F : FTy → Type} [FloatOps F] (main_arg0 : FVec F S1536x64 .f32) (main_arg1 : FVec F S1536x1536 .f32) (main_arg2 : FVec F S64x64 .f32) (main_arg3 : FVec F S64 .f32) (main_arg4 : FVec F S64x64 .f32) (main_arg5 : FVec F S64x64 .f32) (main_arg6 : FVec F S64 .f32) (main_arg7 : FVec F S64x64 .f32) (main_arg8 : FVec F S64x64 .f32) (main_arg9 : FVec F S64 .f32) (main_arg10 : FVec F S64x64 .f32) : IVec S_ 1 :=
  let main_v0 : FVec F S1536x64 .f32 := Host.absf main_arg0
  let main_cst : FVec F S_ .f32 := constant S_ .f32 0x7F800000#32
  let main_v1 : FVec F S1536x64 .f32 := broadcastInDim S1536x64 ![] bcast_S_S1536x64 main_cst
  let main_v2 : IVec S1536x64 1 := cmpf .olt main_v0 main_v1
  let main_c : IVec S_ 1 := constantI S_ 1 1#1
  let main_v3 : IVec S_ 1 := (fun x v => Host.reduce IntOp.andi x v reducesTo_S1536x64_S_d0_1 h_S_) main_v2 main_c
  let main_v4 : FVec F S1536x1536 .f32 := Host.absf main_arg1
  let main_cst_0 : FVec F S_ .f32 := constant S_ .f32 0x7F800000#32
  let main_v5 : FVec F S1536x1536 .f32 := broadcastInDim S1536x1536 ![] bcast_S_S1536x1536 main_cst_0
  let main_v6 : IVec S1536x1536 1 := cmpf .olt main_v4 main_v5
  let main_c_1 : IVec S_ 1 := constantI S_ 1 1#1
  let main_v7 : IVec S_ 1 := (fun x v => Host.reduce IntOp.andi x v reducesTo_S1536x1536_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg1 main_arg4 main_arg5 main_arg6 main_arg7 main_arg8 main_arg9 main_arg10 main_v13 main_v16
-- ==== Kernel.lean ====
abbrev S1536x64 : Shape := ⟨2, ![1536, 64]⟩
abbrev S1536x1536 : Shape := ⟨2, ![1536, 1536]⟩
abbrev S64x64 : Shape := ⟨2, ![64, 64]⟩
abbrev S64 : Shape := ⟨1, ![64]⟩
abbrev S1x64 : Shape := ⟨2, ![1, 64]⟩
abbrev S64x1536 : Shape := ⟨2, ![64, 1536]⟩
abbrev S1x1536 : Shape := ⟨2, ![1, 1536]⟩
abbrev S65x1536 : Shape := ⟨2, ![65, 1536]⟩
abbrev S128x1536 : Shape := ⟨2, ![128, 1536]⟩
abbrev S64x128 : Shape := ⟨2, ![64, 128]⟩
abbrev S64x1 : Shape := ⟨2, ![64, 1]⟩

abbrev nBuf : Space → Nat
  | .hbm => 15
  | .vmem => 12
  | .smem => 0
  | _ => 0

abbrev bufTy : (tb : Table) → Fin (tcTables nBuf tb) → BufTy
  | .hbm, ⟨0, _⟩ => ⟨S1536x64, .f32⟩
  | .hbm, ⟨1, _⟩ => ⟨S1536x1536, .f32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S1x64, .f32⟩
  | .hbm, ⟨12, _⟩ => ⟨S1x64, .f32⟩
  | .hbm, ⟨13, _⟩ => ⟨S1x64, .f32⟩
  | .hbm, ⟨14, _⟩ => ⟨S1536x64, .f32⟩
  | .local _ .vmem, ⟨0, _⟩ => ⟨S1536x1536, .f32⟩
  | .local _ .vmem, ⟨1, _⟩ => ⟨S1536x64, .f32⟩
  | .local _ .vmem, ⟨2, _⟩ => ⟨S64x64, .f32⟩
  | .local _ .vmem, ⟨3, _⟩ => ⟨S1x64, .f32⟩
  | .local _ .vmem, ⟨4, _⟩ => ⟨S64x64, .f32⟩
  | .local _ .vmem, ⟨5, _⟩ => ⟨S64x64, .f32⟩
  | .local _ .vmem, ⟨6, _⟩ => ⟨S1x64, .f32⟩
  | .local _ .vmem, ⟨7, _⟩ => ⟨S64x64, .f32⟩
  | .local _ .vmem, ⟨8, _⟩ => ⟨S64x64, .f32⟩
  | .local _ .vmem, ⟨9, _⟩ => ⟨S1x64, .f32⟩
  | .local _ .vmem, ⟨10, _⟩ => ⟨S64x64, .f32⟩
  | .local _ .vmem, ⟨11, _⟩ => ⟨S1536x64, .f32⟩
  | _, _ => ⟨S1536x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S1536x1536 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S64x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S64x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1536x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

class Facts₀ : Prop where
  shapeCasts_S64_S1x64 : S64.ShapeCasts S1x64
  inb_S1536x1536_S1536x1536_0_0 : ∀ a, (![0, 0] : Fin 2 → Nat) a + S1536x1536.size a ≤ S1536x1536.size a
  h_S1536x1536 : 0 < S1536x1536.numel
  inb_S1536x64_S1536x64_0_0 : ∀ a, (![0, 0] : Fin 2 → Nat) a + S1536x64.size a ≤ S1536x64.size a
  h_S1536x64 : 0 < S1536x64.numel
  transposes_S1536x64_p1_0_S64x1536 : S1536x64.Transposes [1, 0] S64x1536
  concatenates_S64x1536_S1x1536_S65x1536_d0 : Shape.Concatenates [S64x1536, S1x1536] S65x1536 0
  slices_S65x1536_o64_0_S1x1536 : S65x1536.Slices ![64, 0] S1x1536
  slices_S65x1536_o0_0_S64x1536 : S65x1536.Slices ![0, 0] S64x1536
  broadcasts_S1x1536_S64x1536 : S1x1536.Broadcasts S64x1536
  concatenates_S64x1536_S64x1536_S128x1536_d0 : Shape.Concatenates [S64x1536, S64x1536] S128x1536 0
  inb_S64x64_S64x64_0_0 : ∀ a, (![0, 0] : Fin 2 → Nat) a + S64x64.size a ≤ S64x64.size a
  h_S64x64 : 0 < S64x64.numel
  transposes_S64x64_p1_0_S64x64 : S64x64.Transposes [1, 0] S64x64
  concatenates_S64x64_S64x64_S64x128_d1 : Shape.Concatenates [S64x64, S64x64] S64x128 1
  inb_S1x64_S1x64_0_0 : ∀ a, (![0, 0] : Fin 2 → Nat) a + S1x64.size a ≤ S1x64.size a
  h_S1x64 : 0 < S1x64.numel
  shapeCasts_S1x64_S1x64 : S1x64.ShapeCasts S1x64
  transposes_S1x64_p1_0_S64x1 : S1x64.Transposes [1, 0] S64x1
  broadcasts_S64x1_S64x1536 : S64x1.Broadcasts S64x1536
  transposes_S64x1536_p1_0_S1536x64 : S64x1536.Transposes [1, 0] S1536x64
  dot_S65x1536_S1536x1536_S65x1536_1_0_0_1_n_n_wf : DotDims.WF S65x1536 S1536x1536 S65x1536 [1] [0] [0] [1] [] []
  dot_S64x128_S128x1536_S64x1536_1_0_0_1_n_n_wf : DotDims.WF S64x128 S128x1536 S64x1536 [1] [0] [0] [1] [] []
  dot_S64x1536_S1536x1536_S64x1536_1_0_0_1_n_n_wf : DotDims.WF S64x1536 S1536x1536 S64x1536 [1] [0] [0] [1] [] []
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole
  hstage0_5 : ∀ j, (stage0_5 j).IsWhole
  hstage0_6 : ∀ j, (stage0_6 j).IsWhole
  hstage0_7 : ∀ j, (stage0_7 j).IsWhole
  hstage0_8 : ∀ j, (stage0_8 j).IsWhole
  hstage0_9 : ∀ j, (stage0_9 j).IsWhole
  hstage0_10 : ∀ j, (stage0_10 j).IsWhole
  hstage0_11 : ∀ j, (stage0_11 j).IsWhole

variable [Facts₀]

def dot_S65x1536_S1536x1536_S65x1536_1_0_0_1_n_n : DotDims S65x1536 S1536x1536 S65x1536 where
  lhsContracting := [1]
  rhsContracting := [0]
  lhsNonContracting := [0]
  rhsNonContracting := [1]
  lhsBatch := []
  rhsBatch := []
  wf := dot_S65x1536_S1536x1536_S65x1536_1_0_0_1_n_n_wf
def dot_S64x128_S128x1536_S64x1536_1_0_0_1_n_n : DotDims S64x128 S128x1536 S64x1536 where
  lhsContracting := [1]
  rhsContracting := [0]
  lhsNonContracting := [0]
  rhsNonContracting := [1]
  lhsBatch := []
  rhsBatch := []
  wf := dot_S64x128_S128x1536_S64x1536_1_0_0_1_n_n_wf
def dot_S64x1536_S1536x1536_S64x1536_1_0_0_1_n_n : DotDims S64x1536 S1536x1536 S64x1536 where
  lhsContracting := [1]
  rhsContracting := [0]
  lhsNonContracting := [0]
  rhsNonContracting := [1]
  lhsBatch := []
  rhsBatch := []
  wf := dot_S64x1536_S1536x1536_S64x1536_1_0_0_1_n_n_wf

abbrev win0_0 : Pipeline.Window sig grid0 :=
  Pipeline.Window.whole (Memref.whole main_arg1) false false (stage0_0 0) (sem0_0 0) (Memref.isWhole_whole _) (hstage0_0 0)

abbrev win0_1 : Pipeline.Window sig grid0 :=
  Pipeline.Window.whole (Memref.whole main_arg0) false false (stage0_1 0) (sem0_1 0) (Memref.isWhole_whole _) (hstage0_1 0)

abbrev win0_2 : Pipeline.Window sig grid0 :=
  Pipeline.Window.whole (Memref.whole main_arg2) false false (stage0_2 0) (sem0_2 0) (Memref.isWhole_whole _) (hstage0_2 0)

abbrev win0_3 : Pipeline.Window sig grid0 :=
  Pipeline.Window.whole (Memref.whole main_v0) false false (stage0_3 0) (sem0_3 0) (Memref.isWhole_whole _) (hstage0_3 0)

abbrev win0_4 : Pipeline.Window sig grid0 :=
  Pipeline.Window.whole (Memref.whole main_arg4) false false (stage0_4 0) (sem0_4 0) (Memref.isWhole_whole _) (hstage0_4 0)

abbrev win0_5 : Pipeline.Window sig grid0 :=
  Pipeline.Window.whole (Memref.whole main_arg5) false false (stage0_5 0) (sem0_5 0) (Memref.isWhole_whole _) (hstage0_5 0)

abbrev win0_6 : Pipeline.Window sig grid0 :=
  Pipeline.Window.whole (Memref.whole main_v1) false false (stage0_6 0) (sem0_6 0) (Memref.isWhole_whole _) (hstage0_6 0)

abbrev win0_7 : Pipeline.Window sig grid0 :=
  Pipeline.Window.whole (Memref.whole main_arg7) false false (stage0_7 0) (sem0_7 0) (Memref.isWhole_whole _) (hstage0_7 0)

abbrev win0_8 : Pipeline.Window sig grid0 :=
  Pipeline.Window.whole (Memref.whole main_arg8) false false (stage0_8 0) (sem0_8 0) (Memref.isWhole_whole _) (hstage0_8 0)

abbrev win0_9 : Pipeline.Window sig grid0 :=
  Pipeline.Window.whole (Memref.whole main_v2) false false (stage0_9 0) (sem0_9 0) (Memref.isWhole_whole _) (hstage0_9 0)

abbrev win0_10 : Pipeline.Window sig grid0 :=
  Pipeline.Window.whole (Memref.whole main_arg10) false false (stage0_10 0) (sem0_10 0) (Memref.isWhole_whole _) (hstage0_10 0)

abbrev win0_11 : Pipeline.Window sig grid0 :=
  Pipeline.Window.whole (Memref.whole main_v3) true false (stage0_11 0) (sem0_11 0) (Memref.isWhole_whole _) (hstage0_11 0)

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S1536x64 : Shape := ⟨2, ![1536, 64]⟩
abbrev S1536x1536 : Shape := ⟨2, ![1536, 1536]⟩
abbrev S64x64 : Shape := ⟨2, ![64, 64]⟩
abbrev S64 : Shape := ⟨1, ![64]⟩
abbrev S_ : Shape := ⟨0, ![]⟩
abbrev S2359296 : Shape := ⟨1, ![2359296]⟩
abbrev S2359296x1 : Shape := ⟨2, ![2359296, 1]⟩
abbrev S1 : Shape := ⟨1, ![1]⟩
abbrev S1x1 : Shape := ⟨2, ![1, 1]⟩
abbrev S2359296x64 : Shape := ⟨2, ![2359296, 64]⟩
abbrev S1536 : Shape := ⟨1, ![1536]⟩
abbrev S1536x1 : Shape := ⟨2, ![1536, 1]⟩
abbrev S1x64 : Shape := ⟨2, ![1, 64]⟩

abbrev nBuf : Space → Nat
  | .hbm => 275
  | .vmem => 0
  | .smem => 0
  | _ => 0

abbrev hbmTy0_0 (i : Nat) : BufTy := match i % 128 with
  | 0 => ⟨S1536x64, .f32⟩
  | 1 => ⟨S1536x1536, .f32⟩
  | 2 => ⟨S64x64, .f32⟩
  | 3 => ⟨S64, .f32⟩
  | 4 => ⟨S64x64, .f32⟩
  | 5 => ⟨S64x64, .f32⟩
  | 6 => ⟨S64, .f32⟩
  | 7 => ⟨S64x64, .f32⟩
  | 8 => ⟨S64x64, .f32⟩
  | 9 => ⟨S64, .f32⟩
  | 10 => ⟨S64x64, .f32⟩
  | 11 => ⟨S_, .f32⟩
  | 12 => ⟨S1536x1536, .f32⟩
  | 13 => ⟨S1536x1536, .i1⟩
  | 14 => ⟨S2359296, .i1⟩
  | 15 => ⟨S2359296, .i32⟩
  | 16 => ⟨S_, .i32⟩
  | 17 => ⟨S_, .i32⟩
  | 18 => ⟨S2359296, .i32⟩
  | 19 => ⟨S_, .i32⟩
  | 20 => ⟨S2359296, .i32⟩
  | 21 => ⟨S_, .i32⟩
  | 22 => ⟨S_, .i32⟩
  | 23 => ⟨S2359296, .i32⟩
  | 24 => ⟨S2359296, .i32⟩
  | 25 => ⟨S_, .i32⟩
  | 26 => ⟨S2359296, .i32⟩
  | 27 => ⟨S2359296, .i1⟩
  | 28 => ⟨S_, .i32⟩
  | 29 => ⟨S2359296, .i32⟩
  | 30 => ⟨S2359296, .i32⟩
  | 31 => ⟨S2359296, .i32⟩
  | 32 => ⟨S2359296x1, .i32⟩
  | 33 => ⟨S_, .i32⟩
  | 34 => ⟨S2359296, .i32⟩
  | 35 => ⟨S2359296, .i32⟩
  | 36 => ⟨S_, .i32⟩
  | 37 => ⟨S_, .i32⟩
  | 38 => ⟨S2359296, .i32⟩
  | 39 => ⟨S_, .i32⟩
  | 40 => ⟨S2359296, .i32⟩
  | 41 => ⟨S2359296, .i32⟩
  | 42 => ⟨S2359296, .i32⟩
  | 43 => ⟨S_, .i32⟩
  | 44 => ⟨S2359296, .i32⟩
  | 45 => ⟨S2359296, .i1⟩
  | 46 => ⟨S2359296, .i32⟩
  | 47 => ⟨S2359296, .i32⟩
  | 48 => ⟨S_, .i32⟩
  | 49 => ⟨S2359296, .i32⟩
  | 50 => ⟨S2359296, .i1⟩
  | 51 => ⟨S2359296, .i1⟩
  | 52 => ⟨S_, .i32⟩
  | 53 => ⟨S2359296, .i32⟩
  | 54 => ⟨S2359296, .i32⟩
  | 55 => ⟨S2359296, .i32⟩
  | 56 => ⟨S_, .i32⟩
  | 57 => ⟨S_, .i32⟩
  | 58 => ⟨S_, .i32⟩
  | 59 => ⟨S_, .i1⟩
  | 60 => ⟨S_, .i32⟩
  | 61 => ⟨S_, .i32⟩
  | 62 => ⟨S2359296, .i32⟩
  | 63 => ⟨S2359296, .i32⟩
  | 64 => ⟨S_, .i32⟩
  | 65 => ⟨S2359296, .i32⟩
  | 66 => ⟨S2359296, .i1⟩
  | 67 => ⟨S_, .i32⟩
  | 68 => ⟨S2359296, .i32⟩
  | 69 => ⟨S2359296, .i1⟩
  | 70 => ⟨S_, .i32⟩
  | 71 => ⟨S_, .i1⟩
  | 72 => ⟨S2359296, .i1⟩
  | 73 => ⟨S2359296, .i1⟩
  | 74 => ⟨S2359296, .i1⟩
  | 75 => ⟨S2359296, .i32⟩
  | 76 => ⟨S2359296, .i32⟩
  | 77 => ⟨S2359296, .i32⟩
  | 78 => ⟨S_, .i32⟩
  | 79 => ⟨S2359296, .i32⟩
  | 80 => ⟨S2359296, .i32⟩
  | 81 => ⟨S2359296, .i32⟩
  | 82 => ⟨S_, .i32⟩
  | 83 => ⟨S2359296, .i32⟩
  | 84 => ⟨S2359296, .i1⟩
  | 85 => ⟨S2359296, .i32⟩
  | 86 => ⟨S2359296, .i32⟩
  | 87 => ⟨S_, .i32⟩
  | 88 => ⟨S2359296, .i32⟩
  | 89 => ⟨S2359296, .i1⟩
  | 90 => ⟨S2359296, .i1⟩
  | 91 => ⟨S_, .i32⟩
  | 92 => ⟨S2359296, .i32⟩
  | 93 => ⟨S2359296, .i32⟩
  | 94 => ⟨S2359296, .i32⟩
  | 95 => ⟨S_, .i32⟩
  | 96 => ⟨S_, .i32⟩
  | 97 => ⟨S_, .i32⟩
  | 98 => ⟨S_, .i1⟩
  | 99 => ⟨S_, .i32⟩
  | 100 => ⟨S_, .i32⟩
  | 101 => ⟨S2359296, .i32⟩
  | 102 => ⟨S2359296, .i32⟩
  | 103 => ⟨S_, .i32⟩
  | 104 => ⟨S2359296, .i32⟩
  | 105 => ⟨S2359296, .i1⟩
  | 106 => ⟨S_, .i32⟩
  | 107 => ⟨S2359296, .i32⟩
  | 108 => ⟨S2359296, .i1⟩
  | 109 => ⟨S_, .i32⟩
  | 110 => ⟨S_, .i1⟩
  | 111 => ⟨S2359296, .i1⟩
  | 112 => ⟨S2359296, .i1⟩
  | 113 => ⟨S2359296, .i1⟩
  | 114 => ⟨S2359296, .i32⟩
  | 115 => ⟨S2359296, .i32⟩
  | 116 => ⟨S2359296, .i32⟩
  | 117 => ⟨S2359296, .i32⟩
  | 118 => ⟨S1536x1536, .i32⟩
  | 119 => ⟨S_, .i32⟩
  | 120 => ⟨S_, .i32⟩
  | 121 => ⟨S2359296, .i32⟩
  | 122 => ⟨S2359296, .i1⟩
  | 123 => ⟨S_, .i32⟩
  | 124 => ⟨S_, .i32⟩
  | 125 => ⟨S2359296, .i32⟩
  | 126 => ⟨S2359296, .i32⟩
  | 127 => ⟨S_, .i32⟩
  | _ => ⟨S1536x64, .f32⟩

abbrev hbmTy0_1 (i : Nat) : BufTy := match i % 128 with
  | 0 => ⟨S_, .i32⟩
  | 1 => ⟨S2359296, .i32⟩
  | 2 => ⟨S2359296, .i32⟩
  | 3 => ⟨S_, .i32⟩
  | 4 => ⟨S2359296, .i32⟩
  | 5 => ⟨S2359296, .i1⟩
  | 6 => ⟨S_, .i32⟩
  | 7 => ⟨S2359296, .i32⟩
  | 8 => ⟨S2359296, .i32⟩
  | 9 => ⟨S2359296, .i32⟩
  | 10 => ⟨S2359296x1, .i32⟩
  | 11 => ⟨S1, .i32⟩
  | 12 => ⟨S_, .i32⟩
  | 13 => ⟨S2359296x1, .i32⟩
  | 14 => ⟨S2359296x1, .i1⟩
  | 15 => ⟨S1x1, .i32⟩
  | 16 => ⟨S2359296x1, .i32⟩
  | 17 => ⟨S2359296x1, .i1⟩
  | 18 => ⟨S2359296x1, .i1⟩
  | 19 => ⟨S_, .i1⟩
  | 20 => ⟨S2359296, .i1⟩
  | 21 => ⟨S2359296x64, .f32⟩
  | 22 => ⟨S2359296x64, .i1⟩
  | 23 => ⟨S_, .f32⟩
  | 24 => ⟨S2359296x64, .f32⟩
  | 25 => ⟨S2359296x64, .f32⟩
  | 26 => ⟨S_, .f32⟩
  | 27 => ⟨S1536x64, .f32⟩
  | 28 => ⟨S2359296x1, .i32⟩
  | 29 => ⟨S1536x64, .f32⟩
  | 30 => ⟨S_, .f32⟩
  | 31 => ⟨S2359296, .f32⟩
  | 32 => ⟨S_, .f32⟩
  | 33 => ⟨S1536, .f32⟩
  | 34 => ⟨S2359296x1, .i32⟩
  | 35 => ⟨S1536, .f32⟩
  | 36 => ⟨S_, .f32⟩
  | 37 => ⟨S_, .f32⟩
  | 38 => ⟨S1536, .f32⟩
  | 39 => ⟨S1536, .f32⟩
  | 40 => ⟨S1536x1, .f32⟩
  | 41 => ⟨S1536x64, .f32⟩
  | 42 => ⟨S1536x64, .f32⟩
  | 43 => ⟨S1536x64, .f32⟩
  | 44 => ⟨S1x64, .f32⟩
  | 45 => ⟨S1536x64, .f32⟩
  | 46 => ⟨S1536x64, .f32⟩
  | 47 => ⟨S1536x64, .f32⟩
  | 48 => ⟨S1536x64, .f32⟩
  | 49 => ⟨S_, .f32⟩
  | 50 => ⟨S1536x64, .f32⟩
  | 51 => ⟨S1536x64, .f32⟩
  | 52 => ⟨S_, .i32⟩
  | 53 => ⟨S2359296, .i32⟩
  | 54 => ⟨S2359296, .i1⟩
  | 55 => ⟨S_, .i32⟩
  | 56 => ⟨S2359296, .i32⟩
  | 57 => ⟨S2359296, .i32⟩
  | 58 => ⟨S2359296, .i32⟩
  | 59 => ⟨S2359296x1, .i32⟩
  | 60 => ⟨S1, .i32⟩
  | 61 => ⟨S_, .i32⟩
  | 62 => ⟨S2359296x1, .i32⟩
  | 63 => ⟨S2359296x1, .i1⟩
  | 64 => ⟨S1x1, .i32⟩
  | 65 => ⟨S2359296x1, .i32⟩
  | 66 => ⟨S2359296x1, .i1⟩
  | 67 => ⟨S2359296x1, .i1⟩
  | 68 => ⟨S_, .i1⟩
  | 69 => ⟨S2359296, .i1⟩
  | 70 => ⟨S2359296x64, .f32⟩
  | 71 => ⟨S2359296x64, .i1⟩
  | 72 => ⟨S_, .f32⟩
  | 73 => ⟨S2359296x64, .f32⟩
  | 74 => ⟨S2359296x64, .f32⟩
  | 75 => ⟨S_, .f32⟩
  | 76 => ⟨S1536x64, .f32⟩
  | 77 => ⟨S2359296x1, .i32⟩
  | 78 => ⟨S1536x64, .f32⟩
  | 79 => ⟨S_, .f32⟩
  | 80 => ⟨S2359296, .f32⟩
  | 81 => ⟨S_, .f32⟩
  | 82 => ⟨S1536, .f32⟩
  | 83 => ⟨S2359296x1, .i32⟩
  | 84 => ⟨S1536, .f32⟩
  | 85 => ⟨S_, .f32⟩
  | 86 => ⟨S_, .f32⟩
  | 87 => ⟨S1536, .f32⟩
  | 88 => ⟨S1536, .f32⟩
  | 89 => ⟨S1536x1, .f32⟩
  | 90 => ⟨S1536x64, .f32⟩
  | 91 => ⟨S1536x64, .f32⟩
  | 92 => ⟨S1536x64, .f32⟩
  | 93 => ⟨S1x64, .f32⟩
  | 94 => ⟨S1536x64, .f32⟩
  | 95 => ⟨S1536x64, .f32⟩
  | 96 => ⟨S1536x64, .f32⟩
  | 97 => ⟨S1536x64, .f32⟩
  | 98 => ⟨S_, .f32⟩
  | 99 => ⟨S1536x64, .f32⟩
  | 100 => ⟨S1536x64, .f32⟩
  | 101 => ⟨S_, .i32⟩
  | 102 => ⟨S2359296, .i32⟩
  | 103 => ⟨S2359296, .i1⟩
  | 104 => ⟨S_, .i32⟩
  | 105 => ⟨S2359296, .i32⟩
  | 106 => ⟨S2359296, .i32⟩
  | 107 => ⟨S2359296, .i32⟩
  | 108 => ⟨S2359296x1, .i32⟩
  | 109 => ⟨S1, .i32⟩
  | 110 => ⟨S_, .i32⟩
  | 111 => ⟨S2359296x1, .i32⟩
  | 112 => ⟨S2359296x1, .i1⟩
  | 113 => ⟨S1x1, .i32⟩
  | 114 => ⟨S2359296x1, .i32⟩
  | 115 => ⟨S2359296x1, .i1⟩
  | 116 => ⟨S2359296x1, .i1⟩
  | 117 => ⟨S_, .i1⟩
  | 118 => ⟨S2359296, .i1⟩
  | 119 => ⟨S2359296x64, .f32⟩
  | 120 => ⟨S2359296x64, .i1⟩
  | 121 => ⟨S_, .f32⟩
  | 122 => ⟨S2359296x64, .f32⟩
  | 123 => ⟨S2359296x64, .f32⟩
  | 124 => ⟨S_, .f32⟩
  | 125 => ⟨S1536x64, .f32⟩
  | 126 => ⟨S2359296x1, .i32⟩
  | 127 => ⟨S1536x64, .f32⟩
  | _ => ⟨S1536x64, .f32⟩

abbrev hbmTy0_2 (i : Nat) : BufTy := match i % 128 with
  | 0 => ⟨S_, .f32⟩
  | 1 => ⟨S2359296, .f32⟩
  | 2 => ⟨S_, .f32⟩
  | 3 => ⟨S1536, .f32⟩
  | 4 => ⟨S2359296x1, .i32⟩
  | 5 => ⟨S1536, .f32⟩
  | 6 => ⟨S_, .f32⟩
  | 7 => ⟨S_, .f32⟩
  | 8 => ⟨S1536, .f32⟩
  | 9 => ⟨S1536, .f32⟩
  | 10 => ⟨S1536x1, .f32⟩
  | 11 => ⟨S1536x64, .f32⟩
  | 12 => ⟨S1536x64, .f32⟩
  | 13 => ⟨S1536x64, .f32⟩
  | 14 => ⟨S1x64, .f32⟩
  | 15 => ⟨S1536x64, .f32⟩
  | 16 => ⟨S1536x64, .f32⟩
  | 17 => ⟨S1536x64, .f32⟩
  | 18 => ⟨S1536x64, .f32⟩
  | _ => ⟨S1536x64, .f32⟩

abbrev hbmTy (i : Nat) : BufTy := match i / 128 with
  | 0 => hbmTy0_0 i
  | 1 => hbmTy0_1 i
  | 2 => hbmTy0_2 i
  | _ => ⟨S1536x64, .f32⟩

abbrev bufTy : (tb : Table) → Fin (tcTables nBuf tb) → BufTy
  | .hbm, ⟨i, _⟩ => hbmTy i
  | _, _ => ⟨S1536x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_call0_v0 : Ref sig .tc := ⟨.hbm, 14, rfl⟩
abbrev main_call0_v1 : Ref sig .tc := ⟨.hbm, 15, rfl⟩
abbrev main_call0_call0_c : Ref sig .tc := ⟨.hbm, 16, rfl⟩
abbrev main_call0_call0_v0 : Ref sig .tc := ⟨.hbm, 17, rfl⟩
abbrev main_v2 : Ref sig .tc := ⟨.hbm, 18, rfl⟩
abbrev main_c : Ref sig .tc := ⟨.hbm, 19, rfl⟩
abbrev main_v3 : Ref sig .tc := ⟨.hbm, 20, rfl⟩
abbrev main_c_0 : Ref sig .tc := ⟨.hbm, 21, rfl⟩
abbrev main_call1_v0 : Ref sig .tc := ⟨.hbm, 22, rfl⟩
abbrev main_call1_v1 : Ref sig .tc := ⟨.hbm, 23, rfl⟩
abbrev main_v4 : Ref sig .tc := ⟨.hbm, 24, rfl⟩
abbrev main_c_1 : Ref sig .tc := ⟨.hbm, 25, rfl⟩
abbrev main_v5 : Ref sig .tc := ⟨.hbm, 26, rfl⟩
abbrev main_v6 : Ref sig .tc := ⟨.hbm, 27, rfl⟩
abbrev main_c_2 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_c_3 : Ref sig .tc := ⟨.hbm, 33, rfl⟩
abbrev main_v11 : Ref sig .tc := ⟨.hbm, 34, rfl⟩
abbrev main_v12 : Ref sig .tc := ⟨.hbm, 35, rfl⟩
abbrev main_call2_call0_c : Ref sig .tc := ⟨.hbm, 36, rfl⟩
abbrev main_call2_call0_v0 : Ref sig .tc := ⟨.hbm, 37, rfl⟩
abbrev main_v13 : Ref sig .tc := ⟨.hbm, 38, rfl⟩
abbrev main_c_4 : Ref sig .tc := ⟨.hbm, 39, rfl⟩
abbrev main_call3_v0 : Ref sig .tc := ⟨.hbm, 40, rfl⟩
abbrev main_call3_v1 : Ref sig .tc := ⟨.hbm, 41, rfl⟩
abbrev main_call3_v2 : Ref sig .tc := ⟨.hbm, 42, rfl⟩
abbrev main_call3_v3 : Ref sig .tc := ⟨.hbm, 43, rfl⟩
abbrev main_call3_v4 : Ref sig .tc := ⟨.hbm, 44, rfl⟩
abbrev main_call3_v5 : Ref sig .tc := ⟨.hbm, 45, rfl⟩
abbrev main_call3_v6 : Ref sig .tc := ⟨.hbm, 46, rfl⟩
abbrev main_call3_v7 : Ref sig .tc := ⟨.hbm, 47, rfl⟩
abbrev main_call3_c : Ref sig .tc := ⟨.hbm, 48, rfl⟩
abbrev main_call3_v8 : Ref sig .tc := ⟨.hbm, 49, rfl⟩
abbrev main_call3_v9 : Ref sig .tc := ⟨.hbm, 50, rfl⟩
abbrev main_call3_v10 : Ref sig .tc := ⟨.hbm, 51, rfl⟩
abbrev main_call3_c_0 : Ref sig .tc := ⟨.hbm, 52, rfl⟩
abbrev main_call3_v11 : Ref sig .tc := ⟨.hbm, 53, rfl⟩
abbrev main_call3_v12 : Ref sig .tc := ⟨.hbm, 54, rfl⟩
abbrev main_v14 : Ref sig .tc := ⟨.hbm, 55, rfl⟩
abbrev main_c_5 : Ref sig .tc := ⟨.hbm, 56, rfl⟩
abbrev main_call4_v0 : Ref sig .tc := ⟨.hbm, 57, rfl⟩
abbrev main_call4_c : Ref sig .tc := ⟨.hbm, 58, rfl⟩
abbrev main_call4_v1 : Ref sig .tc := ⟨.hbm, 59, rfl⟩
abbrev main_call4_c_0 : Ref sig .tc := ⟨.hbm, 60, rfl⟩
abbrev main_call4_v2 : Ref sig .tc := ⟨.hbm, 61, rfl⟩
abbrev main_call4_v3 : Ref sig .tc := ⟨.hbm, 62, rfl⟩
abbrev main_call4_v4 : Ref sig .tc := ⟨.hbm, 63, rfl⟩
abbrev main_call4_c_1 : Ref sig .tc := ⟨.hbm, 64, rfl⟩
abbrev main_call4_v5 : Ref sig .tc := ⟨.hbm, 65, rfl⟩
abbrev main_call4_v6 : Ref sig .tc := ⟨.hbm, 66, rfl⟩
abbrev main_call4_c_2 : Ref sig .tc := ⟨.hbm, 67, rfl⟩
abbrev main_call4_v7 : Ref sig .tc := ⟨.hbm, 68, rfl⟩
abbrev main_call4_v8 : Ref sig .tc := ⟨.hbm, 69, rfl⟩
abbrev main_call4_c_3 : Ref sig .tc := ⟨.hbm, 70, rfl⟩
abbrev main_call4_v9 : Ref sig .tc := ⟨.hbm, 71, rfl⟩
abbrev main_call4_v10 : Ref sig .tc := ⟨.hbm, 72, rfl⟩
abbrev main_call4_v11 : Ref sig .tc := ⟨.hbm, 73, rfl⟩
abbrev main_call4_v12 : Ref sig .tc := ⟨.hbm, 74, rfl⟩
abbrev main_call4_v13 : Ref sig .tc := ⟨.hbm, 75, rfl⟩
abbrev main_call4_v14 : Ref sig .tc := ⟨.hbm, 76, rfl⟩
abbrev main_v15 : Ref sig .tc := ⟨.hbm, 77, rfl⟩
abbrev main_c_6 : Ref sig .tc := ⟨.hbm, 78, rfl⟩
abbrev main_call5_v0 : Ref sig .tc := ⟨.hbm, 79, rfl⟩
abbrev main_call5_v1 : Ref sig .tc := ⟨.hbm, 80, rfl⟩
abbrev main_call5_v2 : Ref sig .tc := ⟨.hbm, 81, rfl⟩
abbrev main_call5_v3 : Ref sig .tc := ⟨.hbm, 82, rfl⟩
abbrev main_call5_v4 : Ref sig .tc := ⟨.hbm, 83, rfl⟩
abbrev main_call5_v5 : Ref sig .tc := ⟨.hbm, 84, rfl⟩
abbrev main_call5_v6 : Ref sig .tc := ⟨.hbm, 85, rfl⟩
abbrev main_call5_v7 : Ref sig .tc := ⟨.hbm, 86, rfl⟩
abbrev main_call5_c : Ref sig .tc := ⟨.hbm, 87, rfl⟩
abbrev main_call5_v8 : Ref sig .tc := ⟨.hbm, 88, rfl⟩
abbrev main_call5_v9 : Ref sig .tc := ⟨.hbm, 89, rfl⟩
abbrev main_call5_v10 : Ref sig .tc := ⟨.hbm, 90, rfl⟩
abbrev main_call5_c_0 : Ref sig .tc := ⟨.hbm, 91, rfl⟩
abbrev main_call5_v11 : Ref sig .tc := ⟨.hbm, 92, rfl⟩
abbrev main_call5_v12 : Ref sig .tc := ⟨.hbm, 93, rfl⟩
abbrev main_v16 : Ref sig .tc := ⟨.hbm, 94, rfl⟩
abbrev main_c_7 : Ref sig .tc := ⟨.hbm, 95, rfl⟩
abbrev main_call6_v0 : Ref sig .tc := ⟨.hbm, 96, rfl⟩
abbrev main_call6_c : Ref sig .tc := ⟨.hbm, 97, rfl⟩
abbrev main_call6_v1 : Ref sig .tc := ⟨.hbm, 98, rfl⟩
abbrev main_call6_c_0 : Ref sig .tc := ⟨.hbm, 99, rfl⟩
abbrev main_call6_v2 : Ref sig .tc := ⟨.hbm, 100, rfl⟩
abbrev main_call6_v3 : Ref sig .tc := ⟨.hbm, 101, rfl⟩
abbrev main_call6_v4 : Ref sig .tc := ⟨.hbm, 102, rfl⟩
abbrev main_call6_c_1 : Ref sig .tc := ⟨.hbm, 103, rfl⟩
abbrev main_call6_v5 : Ref sig .tc := ⟨.hbm, 104, rfl⟩
abbrev main_call6_v6 : Ref sig .tc := ⟨.hbm, 105, rfl⟩
abbrev main_call6_c_2 : Ref sig .tc := ⟨.hbm, 106, rfl⟩
abbrev main_call6_v7 : Ref sig .tc := ⟨.hbm, 107, rfl⟩
abbrev main_call6_v8 : Ref sig .tc := ⟨.hbm, 108, rfl⟩
abbrev main_call6_c_3 : Ref sig .tc := ⟨.hbm, 109, rfl⟩
abbrev main_call6_v9 : Ref sig .tc := ⟨.hbm, 110, rfl⟩
abbrev main_call6_v10 : Ref sig .tc := ⟨.hbm, 111, rfl⟩
abbrev main_call6_v11 : Ref sig .tc := ⟨.hbm, 112, rfl⟩
abbrev main_call6_v12 : Ref sig .tc := ⟨.hbm, 113, rfl⟩
abbrev main_call6_v13 : Ref sig .tc := ⟨.hbm, 114, rfl⟩
abbrev main_call6_v14 : Ref sig .tc := ⟨.hbm, 115, rfl⟩
abbrev main_v17 : Ref sig .tc := ⟨.hbm, 116, rfl⟩
abbrev main_v18 : Ref sig .tc := ⟨.hbm, 117, rfl⟩
abbrev main_v19 : Ref sig .tc := ⟨.hbm, 118, rfl⟩
abbrev main_c_8 : Ref sig .tc := ⟨.hbm, 119, rfl⟩
abbrev main_v20 : Ref sig .tc := ⟨.hbm, 120, rfl⟩
abbrev main_v21 : Ref sig .tc := ⟨.hbm, 121, rfl⟩
abbrev main_v22 : Ref sig .tc := ⟨.hbm, 122, rfl⟩
abbrev main_c_9 : Ref sig .tc := ⟨.hbm, 123, rfl⟩
abbrev main_call7_v0 : Ref sig .tc := ⟨.hbm, 124, rfl⟩
abbrev main_call7_v1 : Ref sig .tc := ⟨.hbm, 125, rfl⟩
abbrev main_v23 : Ref sig .tc := ⟨.hbm, 126, rfl⟩
abbrev main_c_10 : Ref sig .tc := ⟨.hbm, 127, rfl⟩
abbrev main_call8_v0 : Ref sig .tc := ⟨.hbm, 128, rfl⟩
abbrev main_call8_v1 : Ref sig .tc := ⟨.hbm, 129, rfl⟩
abbrev main_v24 : Ref sig .tc := ⟨.hbm, 130, rfl⟩
abbrev main_call9_c : Ref sig .tc := ⟨.hbm, 131, rfl⟩
abbrev main_call9_v0 : Ref sig .tc := ⟨.hbm, 132, rfl⟩
abbrev main_call9_v1 : Ref sig .tc := ⟨.hbm, 133, rfl⟩
abbrev main_call9_c_0 : Ref sig .tc := ⟨.hbm, 134, rfl⟩
abbrev main_call9_v2 : Ref sig .tc := ⟨.hbm, 135, rfl⟩
abbrev main_call9_v3 : Ref sig .tc := ⟨.hbm, 136, rfl⟩
abbrev main_call9_v4 : Ref sig .tc := ⟨.hbm, 137, rfl⟩
abbrev main_call9_v5 : Ref sig .tc := ⟨.hbm, 138, rfl⟩
abbrev main_call9_c_1 : Ref sig .tc := ⟨.hbm, 139, rfl⟩
abbrev main_call9_c_2 : Ref sig .tc := ⟨.hbm, 140, rfl⟩
abbrev main_call9_v6 : Ref sig .tc := ⟨.hbm, 141, rfl⟩
abbrev main_call9_v7 : Ref sig .tc := ⟨.hbm, 142, rfl⟩
abbrev main_call9_v8 : Ref sig .tc := ⟨.hbm, 143, rfl⟩
abbrev main_call9_v9 : Ref sig .tc := ⟨.hbm, 144, rfl⟩
abbrev main_call9_v10 : Ref sig .tc := ⟨.hbm, 145, rfl⟩
abbrev main_call9_v11 : Ref sig .tc := ⟨.hbm, 146, rfl⟩
abbrev main_call9_c_3 : Ref sig .tc := ⟨.hbm, 147, rfl⟩
abbrev main_call9_v12 : Ref sig .tc := ⟨.hbm, 148, rfl⟩
abbrev main_call9_v13 : Ref sig .tc := ⟨.hbm, 149, rfl⟩
abbrev main_call9_v14 : Ref sig .tc := ⟨.hbm, 150, rfl⟩
abbrev main_call9_cst : Ref sig .tc := ⟨.hbm, 151, rfl⟩
abbrev main_call9_v15 : Ref sig .tc := ⟨.hbm, 152, rfl⟩
abbrev main_v25 : Ref sig .tc := ⟨.hbm, 153, rfl⟩
abbrev main_cst_11 : Ref sig .tc := ⟨.hbm, 154, rfl⟩
abbrev main_v26 : Ref sig .tc := ⟨.hbm, 155, rfl⟩
abbrev main_v27 : Ref sig .tc := ⟨.hbm, 156, rfl⟩
abbrev main_v28 : Ref sig .tc := ⟨.hbm, 157, rfl⟩
abbrev main_cst_12 : Ref sig .tc := ⟨.hbm, 158, rfl⟩
abbrev main_v29 : Ref sig .tc := ⟨.hbm, 159, rfl⟩
abbrev main_cst_13 : Ref sig .tc := ⟨.hbm, 160, rfl⟩
abbrev main_v30 : Ref sig .tc := ⟨.hbm, 161, rfl⟩
abbrev main_v31 : Ref sig .tc := ⟨.hbm, 162, rfl⟩
abbrev main_v32 : Ref sig .tc := ⟨.hbm, 163, rfl⟩
abbrev main_cst_14 : Ref sig .tc := ⟨.hbm, 164, rfl⟩
abbrev main_call10_v0 : Ref sig .tc := ⟨.hbm, 165, rfl⟩
abbrev main_call10_v1 : Ref sig .tc := ⟨.hbm, 166, rfl⟩
abbrev main_v33 : Ref sig .tc := ⟨.hbm, 167, rfl⟩
abbrev main_v34 : Ref sig .tc := ⟨.hbm, 168, rfl⟩
abbrev main_v35 : Ref sig .tc := ⟨.hbm, 169, rfl⟩
abbrev main_v36 : Ref sig .tc := ⟨.hbm, 170, rfl⟩
abbrev main_v37 : Ref sig .tc := ⟨.hbm, 171, rfl⟩
abbrev main_v38 : Ref sig .tc := ⟨.hbm, 172, rfl⟩
abbrev main_v39 : Ref sig .tc := ⟨.hbm, 173, rfl⟩
abbrev main_v40 : Ref sig .tc := ⟨.hbm, 174, rfl⟩
abbrev main_v41 : Ref sig .tc := ⟨.hbm, 175, rfl⟩
abbrev main_v42 : Ref sig .tc := ⟨.hbm, 176, rfl⟩
abbrev main_call11_cst : Ref sig .tc := ⟨.hbm, 177, rfl⟩
abbrev main_call11_v0 : Ref sig .tc := ⟨.hbm, 178, rfl⟩
abbrev main_v43 : Ref sig .tc := ⟨.hbm, 179, rfl⟩
abbrev main_call12_c : Ref sig .tc := ⟨.hbm, 180, rfl⟩
abbrev main_call12_v0 : Ref sig .tc := ⟨.hbm, 181, rfl⟩
abbrev main_call12_v1 : Ref sig .tc := ⟨.hbm, 182, rfl⟩
abbrev main_call12_c_0 : Ref sig .tc := ⟨.hbm, 183, rfl⟩
abbrev main_call12_v2 : Ref sig .tc := ⟨.hbm, 184, rfl⟩
abbrev main_call12_v3 : Ref sig .tc := ⟨.hbm, 185, rfl⟩
abbrev main_call12_v4 : Ref sig .tc := ⟨.hbm, 186, rfl⟩
abbrev main_call12_v5 : Ref sig .tc := ⟨.hbm, 187, rfl⟩
abbrev main_call12_c_1 : Ref sig .tc := ⟨.hbm, 188, rfl⟩
abbrev main_call12_c_2 : Ref sig .tc := ⟨.hbm, 189, rfl⟩
abbrev main_call12_v6 : Ref sig .tc := ⟨.hbm, 190, rfl⟩
abbrev main_call12_v7 : Ref sig .tc := ⟨.hbm, 191, rfl⟩
abbrev main_call12_v8 : Ref sig .tc := ⟨.hbm, 192, rfl⟩
abbrev main_call12_v9 : Ref sig .tc := ⟨.hbm, 193, rfl⟩
abbrev main_call12_v10 : Ref sig .tc := ⟨.hbm, 194, rfl⟩
abbrev main_call12_v11 : Ref sig .tc := ⟨.hbm, 195, rfl⟩
abbrev main_call12_c_3 : Ref sig .tc := ⟨.hbm, 196, rfl⟩
abbrev main_call12_v12 : Ref sig .tc := ⟨.hbm, 197, rfl⟩
abbrev main_call12_v13 : Ref sig .tc := ⟨.hbm, 198, rfl⟩
abbrev main_call12_v14 : Ref sig .tc := ⟨.hbm, 199, rfl⟩
abbrev main_call12_cst : Ref sig .tc := ⟨.hbm, 200, rfl⟩
abbrev main_call12_v15 : Ref sig .tc := ⟨.hbm, 201, rfl⟩
abbrev main_v44 : Ref sig .tc := ⟨.hbm, 202, rfl⟩
abbrev main_cst_15 : Ref sig .tc := ⟨.hbm, 203, rfl⟩
abbrev main_v45 : Ref sig .tc := ⟨.hbm, 204, rfl⟩
abbrev main_v46 : Ref sig .tc := ⟨.hbm, 205, rfl⟩
abbrev main_v47 : Ref sig .tc := ⟨.hbm, 206, rfl⟩
abbrev main_cst_16 : Ref sig .tc := ⟨.hbm, 207, rfl⟩
abbrev main_v48 : Ref sig .tc := ⟨.hbm, 208, rfl⟩
abbrev main_cst_17 : Ref sig .tc := ⟨.hbm, 209, rfl⟩
abbrev main_v49 : Ref sig .tc := ⟨.hbm, 210, rfl⟩
abbrev main_v50 : Ref sig .tc := ⟨.hbm, 211, rfl⟩
abbrev main_v51 : Ref sig .tc := ⟨.hbm, 212, rfl⟩
abbrev main_cst_18 : Ref sig .tc := ⟨.hbm, 213, rfl⟩
abbrev main_call13_v0 : Ref sig .tc := ⟨.hbm, 214, rfl⟩
abbrev main_call13_v1 : Ref sig .tc := ⟨.hbm, 215, rfl⟩
abbrev main_v52 : Ref sig .tc := ⟨.hbm, 216, rfl⟩
abbrev main_v53 : Ref sig .tc := ⟨.hbm, 217, rfl⟩
abbrev main_v54 : Ref sig .tc := ⟨.hbm, 218, rfl⟩
abbrev main_v55 : Ref sig .tc := ⟨.hbm, 219, rfl⟩
abbrev main_v56 : Ref sig .tc := ⟨.hbm, 220, rfl⟩
abbrev main_v57 : Ref sig .tc := ⟨.hbm, 221, rfl⟩
abbrev main_v58 : Ref sig .tc := ⟨.hbm, 222, rfl⟩
abbrev main_v59 : Ref sig .tc := ⟨.hbm, 223, rfl⟩
abbrev main_v60 : Ref sig .tc := ⟨.hbm, 224, rfl⟩
abbrev main_v61 : Ref sig .tc := ⟨.hbm, 225, rfl⟩
abbrev main_call14_cst : Ref sig .tc := ⟨.hbm, 226, rfl⟩
abbrev main_call14_v0 : Ref sig .tc := ⟨.hbm, 227, rfl⟩
abbrev main_v62 : Ref sig .tc := ⟨.hbm, 228, rfl⟩
abbrev main_call15_c : Ref sig .tc := ⟨.hbm, 229, rfl⟩
abbrev main_call15_v0 : Ref sig .tc := ⟨.hbm, 230, rfl⟩
abbrev main_call15_v1 : Ref sig .tc := ⟨.hbm, 231, rfl⟩
abbrev main_call15_c_0 : Ref sig .tc := ⟨.hbm, 232, rfl⟩
abbrev main_call15_v2 : Ref sig .tc := ⟨.hbm, 233, rfl⟩
abbrev main_call15_v3 : Ref sig .tc := ⟨.hbm, 234, rfl⟩
abbrev main_call15_v4 : Ref sig .tc := ⟨.hbm, 235, rfl⟩
abbrev main_call15_v5 : Ref sig .tc := ⟨.hbm, 236, rfl⟩
abbrev main_call15_c_1 : Ref sig .tc := ⟨.hbm, 237, rfl⟩
abbrev main_call15_c_2 : Ref sig .tc := ⟨.hbm, 238, rfl⟩
abbrev main_call15_v6 : Ref sig .tc := ⟨.hbm, 239, rfl⟩
abbrev main_call15_v7 : Ref sig .tc := ⟨.hbm, 240, rfl⟩
abbrev main_call15_v8 : Ref sig .tc := ⟨.hbm, 241, rfl⟩
abbrev main_call15_v9 : Ref sig .tc := ⟨.hbm, 242, rfl⟩
abbrev main_call15_v10 : Ref sig .tc := ⟨.hbm, 243, rfl⟩
abbrev main_call15_v11 : Ref sig .tc := ⟨.hbm, 244, rfl⟩
abbrev main_call15_c_3 : Ref sig .tc := ⟨.hbm, 245, rfl⟩
abbrev main_call15_v12 : Ref sig .tc := ⟨.hbm, 246, rfl⟩
abbrev main_call15_v13 : Ref sig .tc := ⟨.hbm, 247, rfl⟩
abbrev main_call15_v14 : Ref sig .tc := ⟨.hbm, 248, rfl⟩
abbrev main_call15_cst : Ref sig .tc := ⟨.hbm, 249, rfl⟩
abbrev main_call15_v15 : Ref sig .tc := ⟨.hbm, 250, rfl⟩
abbrev main_v63 : Ref sig .tc := ⟨.hbm, 251, rfl⟩
abbrev main_cst_19 : Ref sig .tc := ⟨.hbm, 252, rfl⟩
abbrev main_v64 : Ref sig .tc := ⟨.hbm, 253, rfl⟩
abbrev main_v65 : Ref sig .tc := ⟨.hbm, 254, rfl⟩
abbrev main_v66 : Ref sig .tc := ⟨.hbm, 255, rfl⟩
abbrev main_cst_20 : Ref sig .tc := ⟨.hbm, 256, rfl⟩
abbrev main_v67 : Ref sig .tc := ⟨.hbm, 257, rfl⟩
abbrev main_cst_21 : Ref sig .tc := ⟨.hbm, 258, rfl⟩
abbrev main_v68 : Ref sig .tc := ⟨.hbm, 259, rfl⟩
abbrev main_v69 : Ref sig .tc := ⟨.hbm, 260, rfl⟩
abbrev main_v70 : Ref sig .tc := ⟨.hbm, 261, rfl⟩
abbrev main_cst_22 : Ref sig .tc := ⟨.hbm, 262, rfl⟩
abbrev main_call16_v0 : Ref sig .tc := ⟨.hbm, 263, rfl⟩
abbrev main_call16_v1 : Ref sig .tc := ⟨.hbm, 264, rfl⟩
abbrev main_v71 : Ref sig .tc := ⟨.hbm, 265, rfl⟩
abbrev main_v72 : Ref sig .tc := ⟨.hbm, 266, rfl⟩
abbrev main_v73 : Ref sig .tc := ⟨.hbm, 267, rfl⟩
abbrev main_v74 : Ref sig .tc := ⟨.hbm, 268, rfl⟩
abbrev main_v75 : Ref sig .tc := ⟨.hbm, 269, rfl⟩
abbrev main_v76 : Ref sig .tc := ⟨.hbm, 270, rfl⟩
abbrev main_v77 : Ref sig .tc := ⟨.hbm, 271, rfl⟩
abbrev main_v78 : Ref sig .tc := ⟨.hbm, 272, rfl⟩
abbrev main_v79 : Ref sig .tc := ⟨.hbm, 273, rfl⟩
abbrev main_v80 : Ref sig .tc := ⟨.hbm, 274, rfl⟩

abbrev nD : Nat := 1
abbrev τ : Topo := Topo.v7x

variable {F : FTy → Type} [FloatOps F]

class Facts₀ : Prop where
  bcast_S_S1536x1536 : S_.BroadcastsInDim S1536x1536 (![] : Fin 0 → Fin S1536x1536.rank)
  shapeCasts_S1536x1536_S2359296 : S1536x1536.ShapeCasts S2359296
  natLt_1_32 : 1 < 32
  bcast_S_S_ : S_.BroadcastsInDim S_ (![] : Fin 0 → Fin S_.rank)
  reduceWindows_S2359296_S2359296_w2359296s1p2359295_0 : S2359296.ReduceWindows (![2359296] : Fin 1 → Nat) ![1] ![2359295] ![0] S2359296
  h_S_ : 0 < S_.numel
  bcast_S_S2359296 : S_.BroadcastsInDim S2359296 (![] : Fin 0 → Fin S2359296.rank)
  bcast_S2359296_S2359296x1_0 : S2359296.BroadcastsInDim S2359296x1 (![0] : Fin 1 → Fin S2359296x1.rank)
  reducesTo_S1536x1536_S_d0_1 : S1536x1536.ReducesTo [0, 1] S_
  bcast_S_S2359296x1 : S_.BroadcastsInDim S2359296x1 (![] : Fin 0 → Fin S2359296x1.rank)
  bcast_S1_S1x1_1 : S1.BroadcastsInDim S1x1 (![1] : Fin 1 → Fin S1x1.rank)
  bcast_S1x1_S2359296x1_0_1 : S1x1.BroadcastsInDim S2359296x1 (![0, 1] : Fin 2 → Fin S2359296x1.rank)
  reducesTo_S2359296x1_S2359296_d1 : S2359296x1.ReducesTo [1] S2359296
  bcast_S2359296_S2359296x64_0 : S2359296.BroadcastsInDim S2359296x64 (![0] : Fin 1 → Fin S2359296x64.rank)
  bcast_S_S2359296x64 : S_.BroadcastsInDim S2359296x64 (![] : Fin 0 → Fin S2359296x64.rank)
  bcast_S_S1536x64 : S_.BroadcastsInDim S1536x64 (![] : Fin 0 → Fin S1536x64.rank)
  bcast_S_S1536 : S_.BroadcastsInDim S1536 (![] : Fin 0 → Fin S1536.rank)
  bcast_S1536_S1536x1_0 : S1536.BroadcastsInDim S1536x1 (![0] : Fin 1 → Fin S1536x1.rank)
  bcast_S1536x1_S1536x64_0_1 : S1536x1.BroadcastsInDim S1536x64 (![0, 1] : Fin 2 → Fin S1536x64.rank)
  bcast_S64_S1x64_1 : S64.BroadcastsInDim S1x64 (![1] : Fin 1 → Fin S1x64.rank)
  bcast_S1x64_S1536x64_0_1 : S1x64.BroadcastsInDim S1536x64 (![0, 1] : Fin 2 → Fin S1536x64.rank)
  scatter_S2359296_S2359296x1_S2359296_n_0_0_1_wf : ScatterDims.WF S2359296 S2359296x1 S2359296 [] [0] [0] 1
  gather_S1536x64_S2359296x1_S2359296x64_1_0_n_n_0_1_164_wf : GatherDims.WF S1536x64 S2359296x1 S2359296x64 [1] [0] [] [0] [] 1 ![1, 64]
  scatter_S1536x64_S2359296x1_S2359296x64_1_0_0_1_wf : ScatterDims.WF S1536x64 S2359296x1 S2359296x64 [1] [0] [0] 1
  scatter_S1536_S2359296x1_S2359296_n_0_0_1_wf : ScatterDims.WF S1536 S2359296x1 S2359296 [] [0] [0] 1
  dot_S1536x64_S64x64_S1536x64_1_0_0_1_n_n_wf : DotDims.WF S1536x64 S64x64 S1536x64 [1] [0] [0] [1] [] []

variable [Facts₀]

def scatter_S2359296_S2359296x1_S2359296_n_0_0_1 : ScatterDims S2359296 S2359296x1 S2359296 where
  updateWindowDims := []
  insertedWindowDims := [0]
  scatterDimsToOperandDims := [0]
  indexVectorDim := 1
  wf := scatter_S2359296_S2359296x1_S2359296_n_0_0_1_wf
def gather_S1536x64_S2359296x1_S2359296x64_1_0_n_n_0_1_164 : GatherDims S1536x64 S2359296x1 S2359296x64 where
  offsetDims := [1]
  collapsedSliceDims := [0]
  operandBatchingDims := []
  startIndicesBatchingDims := []
  startIndexMap := [0]
  indexVectorDim := 1
  sliceSizes := ![1, 64]
  wf := gather_S1536x64_S2359296x1_S2359296x64_1_0_n_n_0_1_164_wf
def scatter_S1536x64_S2359296x1_S2359296x64_1_0_0_1 : ScatterDims S1536x64 S2359296x1 S2359296x64 where
  updateWindowDims := [1]
  insertedWindowDims := [0]
  scatterDimsToOperandDims := [0]
  indexVectorDim := 1
  wf := scatter_S1536x64_S2359296x1_S2359296x64_1_0_0_1_wf
def scatter_S1536_S2359296x1_S2359296_n_0_0_1 : ScatterDims S1536 S2359296x1 S2359296 where
  updateWindowDims := []
  insertedWindowDims := [0]
  scatterDimsToOperandDims := [0]
  indexVectorDim := 1
  wf := scatter_S1536_S2359296x1_S2359296_n_0_0_1_wf
def dot_S1536x64_S64x64_S1536x64_1_0_0_1_n_n : DotDims S1536x64 S64x64 S1536x64 where
  lhsContracting := [1]
  rhsContracting := [0]
  lhsNonContracting := [0]
  rhsNonContracting := [1]
  lhsBatch := []
  rhsBatch := []
  wf := dot_S1536x64_S64x64_S1536x64_1_0_0_1_n_n_wf

class Facts : Prop extends Facts₀ where

variable [Facts]
-- ==== Proof.KernelSpec.lean ====
/-
  The closed form of the fused three-layer mean-aggregation network at the ideal values.

  A graph on 1536 nodes is given by a dense matrix `adj` whose entry `(i, n)` weighs the edge from node `i` to
  node `n`.  One layer sends node features `h` (1536 rows of 64) to

      (mean of the incoming neighbours' features) · W_l  +  h · W_r  +  b,

  where the mean at node `n` is the weighted column sum `∑ i, h i · adj (i, n)` scaled by the reciprocal of the
  in-degree `∑ i, 1 · adj (i, n)`, the degree clamped below at one.  The network is three such layers over the
  same `adj`, with `max (·, 0)` between them.  Everything is stated on the extended reals, entry by entry, over
  the literal extents 1536 and 64; the two float words are the patterns of `1.0` and `0.0`.
-/
import Idealize.ShloMosaic.PureOps.Ideal
import Idealize.ShloMosaic.Lib.ValueIdx

noncomputable section

open scoped BigOperators

namespace Cert.KernelSpec

open Idealize.ShloMosaic Idealize.ShloMosaic.ValueIdx

abbrev S1536x1536 : Shape := ⟨2, ![1536, 1536]⟩
abbrev S1536x64 : Shape := ⟨2, ![1536, 64]⟩
abbrev S64x64 : Shape := ⟨2, ![64, 64]⟩
abbrev S64 : Shape := ⟨1, ![64]⟩

/-- The float word of `1.0`, read at the ideal values. -/
abbrev one : EReal := Ideal.ofBits .f32 0x3F800000#32
/-- The float word of `0.0`, read at the ideal values. -/
abbrev zero : EReal := Ideal.ofBits .f32 0x00000000#32

/-- The in-degree of node `n`: column `n` of `adj` summed against a row of ones. -/
def deg (adj : S1536x1536.Idx → EReal) (n : Fin 1536) : EReal :=
  ∑ i : Fin 1536, one * adj (ix2 i n)

/-- The reciprocal of the in-degree clamped below at one. -/
def dinv (adj : S1536x1536.Idx → EReal) (n : Fin 1536) : EReal :=
  Ideal.div one (max (deg adj n) one)

/-- Feature `k` summed over the incoming neighbours of node `n`: entry `(n, k)` of `adjᵀ · h`. -/
def agg (adj : S1536x1536.Idx → EReal) (h : S1536x64.Idx → EReal) (n : Fin 1536) (k : Fin 64) : EReal :=
  ∑ i : Fin 1536, h (ix2 i k) * adj (ix2 i n)

/-- One layer at node `n` and output feature `o`: the neighbours' mean through `Wl`, the node's own features
    through `Wr`, and the bias. -/
def layerAt (adj : S1536x1536.Idx → EReal) (h : S1536x64.Idx → EReal) (Wl : S64x64.Idx → EReal)
    (b : S64.Idx → EReal) (Wr : S64x64.Idx → EReal) (n : Fin 1536) (o : Fin 64) : EReal :=
  (∑ k : Fin 64, Wl (ix2 k o) * (agg adj h n k * dinv adj n)) + (∑ k : Fin 64, Wr (ix2 k o) * h (ix2 n k))
    + b (ix1 o)

/-- One layer as an array of 1536 rows of 64. -/
def layer (adj : S1536x1536.Idx → EReal) (h : S1536x64.Idx → EReal) (Wl : S64x64.Idx → EReal)
    (b : S64.Idx → EReal) (Wr : S64x64.Idx → EReal) : S1536x64.Idx → EReal :=
  fun j => layerAt adj h Wl b Wr (j 0) (j 1)

theorem layer_apply (adj : S1536x1536.Idx → EReal) (h : S1536x64.Idx → EReal) (Wl : S64x64.Idx → EReal)
    (b : S64.Idx → EReal) (Wr : S64x64.Idx → EReal) (n : Fin 1536) (o : Fin 64) :
    layer adj h Wl b Wr (ix2 n o) = layerAt adj h Wl b Wr n o := rfl

/-- The rectifier between layers. -/
def relu (h : S1536x64.Idx → EReal) : S1536x64.Idx → EReal := fun i => max (h i) zero

theorem relu_apply (h : S1536x64.Idx → EReal) (i : S1536x64.Idx) : relu h i = max (h i) zero := rfl

/-- The network: three layers over one `adj`, rectified between. -/
def out (x : S1536x64.Idx → EReal) (adj : S1536x1536.Idx → EReal)
    (Wl0 : S64x64.Idx → EReal) (b0 : S64.Idx → EReal) (Wr0 : S64x64.Idx → EReal)
    (Wl1 : S64x64.Idx → EReal) (b1 : S64.Idx → EReal) (Wr1 : S64x64.Idx → EReal)
    (Wl2 : S64x64.Idx → EReal) (b2 : S64.Idx → EReal) (Wr2 : S64x64.Idx → EReal) : S1536x64.Idx → EReal :=
  layer adj (relu (layer adj (relu (layer adj x Wl0 b0 Wr0)) Wl1 b1 Wr1)) Wl2 b2 Wr2

end Cert.KernelSpec

end
-- ==== Proof.LibPlainDot.lean ====
/-
  A plain matrix product read at an index.

  For dimension numbers `D` of a product of an `M × K` operand with a `K × N` operand into `M × N` that contract
  ONE axis — the left operand's second against the right operand's first, no batch axis — the sum over `D`'s
  contraction index that the ideal instance gives for a `tpu.matmul` into a zero accumulator and for a host
  `dot_general` alike is the textbook one: entry `(r, c)` is the sum over `k : Fin K` of the left operand at `(r, k)`
  times the right operand at `(k, c)`.  What makes a given `D` plain is stated as four facts about the coordinates
  of its operand indices, which a concrete record proves by unfolding its lists of axes.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

/-- The contraction sum of a plain product, re-indexed by the contracted axis' coordinate: at the output index `j`
    the left operand is read along row `j 0` and the right operand along column `j 1`. -/
theorem sum_plain {M K N : Nat}
    (D : DotDims (⟨2, ![M, K]⟩ : Shape) (⟨2, ![K, N]⟩ : Shape) (⟨2, ![M, N]⟩ : Shape))
    (hr : D.contr.rank = 1) (hs : D.contr.size ⟨0, by omega⟩ = K)
    (l0 : ∀ (j : (⟨2, ![M, N]⟩ : Shape).Idx) (q : D.contr.Idx), (D.lhsIdx j q 0).val = (j 0).val)
    (l1 : ∀ (j : (⟨2, ![M, N]⟩ : Shape).Idx) (q : D.contr.Idx), (D.lhsIdx j q 1).val = (q ⟨0, by omega⟩).val)
    (r0 : ∀ (j : (⟨2, ![M, N]⟩ : Shape).Idx) (q : D.contr.Idx), (D.rhsIdx j q 0).val = (q ⟨0, by omega⟩).val)
    (r1 : ∀ (j : (⟨2, ![M, N]⟩ : Shape).Idx) (q : D.contr.Idx), (D.rhsIdx j q 1).val = (j 1).val)
    (l : (⟨2, ![M, K]⟩ : Shape).Idx → EReal) (r : (⟨2, ![K, N]⟩ : Shape).Idx → EReal)
    (j : (⟨2, ![M, N]⟩ : Shape).Idx) :
    ∑ q : D.contr.Idx, l (D.lhsIdx j q) * r (D.rhsIdx j q) = ∑ k : Fin K, l (ix2 (j 0) k) * r (ix2 k (j 1)) := by
  rw [← Equiv.sum_comp (contrEquiv1 D K hr hs).symm]
  refine Finset.sum_congr rfl fun k _ => ?_
  have hk := contrEquiv1_symm_val D K hr hs k
  have el : D.lhsIdx j ((contrEquiv1 D K hr hs).symm k) = ix2 (j 0) k := funext fun a => Fin.ext (by
    match a with
    | ⟨0, _⟩ => exact l0 _ _
    | ⟨1, _⟩ => exact (l1 _ _).trans hk)
  have er : D.rhsIdx j ((contrEquiv1 D K hr hs).symm k) = ix2 k (j 1) := funext fun a => Fin.ext (by
    match a with
    | ⟨0, _⟩ => exact (r0 _ _).trans hk
    | ⟨1, _⟩ => exact r1 _ _)
  exact congrArg₂ (fun a b : EReal => a * b) (congrArg l el) (congrArg r er)

/-- A `tpu.matmul` with plain dimension numbers into the zero accumulator, at the ideal instance, is that sum. -/
theorem matmul_zero_apply {M K N : Nat} {φ₁ φ₂ : FTy}
    (D : DotDims (⟨2, ![M, K]⟩ : Shape) (⟨2, ![K, N]⟩ : Shape) (⟨2, ![M, N]⟩ : Shape))
    (hr : D.contr.rank = 1) (hs : D.contr.size ⟨0, by omega⟩ = K)
    (l0 : ∀ (j : (⟨2, ![M, N]⟩ : Shape).Idx) (q : D.contr.Idx), (D.lhsIdx j q 0).val = (j 0).val)
    (l1 : ∀ (j : (⟨2, ![M, N]⟩ : Shape).Idx) (q : D.contr.Idx), (D.lhsIdx j q 1).val = (q ⟨0, by omega⟩).val)
    (r0 : ∀ (j : (⟨2, ![M, N]⟩ : Shape).Idx) (q : D.contr.Idx), (D.rhsIdx j q 0).val = (q ⟨0, by omega⟩).val)
    (r1 : ∀ (j : (⟨2, ![M, N]⟩ : Shape).Idx) (q : D.contr.Idx), (D.rhsIdx j q 1).val = (j 1).val)
    (prec : Option ContractPrecision)
    (l : FVec Ideal (⟨2, ![M, K]⟩ : Shape) φ₁) (r : FVec Ideal (⟨2, ![K, N]⟩ : Shape) φ₂)
    (j : (⟨2, ![M, N]⟩ : Shape).Idx) :
    FloatOps.matmul D prec l r (constant (⟨2, ![M, N]⟩ : Shape) .f32 0x00000000#32) j
      = ∑ k : Fin K, l (ix2 (j 0) k) * r (ix2 k (j 1)) := by
  rw [Ideal.matmul_constant_zero_apply]
  exact sum_plain D hr hs l0 l1 r0 r1 l r j

/-- A host `dot_general` with plain dimension numbers, at the ideal instance, is the same sum, whatever its
    precision and schedule keys. -/
theorem dotGeneral_apply {M K N : Nat} {φ₁ φ₂ : FTy}
    (D : DotDims (⟨2, ![M, K]⟩ : Shape) (⟨2, ![K, N]⟩ : Shape) (⟨2, ![M, N]⟩ : Shape))
    (hr : D.contr.rank = 1) (hs : D.contr.size ⟨0, by omega⟩ = K)
    (l0 : ∀ (j : (⟨2, ![M, N]⟩ : Shape).Idx) (q : D.contr.Idx), (D.lhsIdx j q 0).val = (j 0).val)
    (l1 : ∀ (j : (⟨2, ![M, N]⟩ : Shape).Idx) (q : D.contr.Idx), (D.lhsIdx j q 1).val = (q ⟨0, by omega⟩).val)
    (r0 : ∀ (j : (⟨2, ![M, N]⟩ : Shape).Idx) (q : D.contr.Idx), (D.rhsIdx j q 0).val = (q ⟨0, by omega⟩).val)
    (r1 : ∀ (j : (⟨2, ![M, N]⟩ : Shape).Idx) (q : D.contr.Idx), (D.rhsIdx j q 1).val = (j 1).val)
    (prec : Option ContractPrecision) (sched : HostSchedule)
    (l : FVec Ideal (⟨2, ![M, K]⟩ : Shape) φ₁) (r : FVec Ideal (⟨2, ![K, N]⟩ : Shape) φ₂)
    (j : (⟨2, ![M, N]⟩ : Shape).Idx) :
    FloatOps.dotGeneral D prec sched l r j = ∑ k : Fin K, l (ix2 (j 0) k) * r (ix2 k (j 1)) := by
  rw [Ideal.dotGeneral_apply]
  exact sum_plain D hr hs l0 l1 r0 r1 l r j

end Cert.Lib.PlainDot

end
-- ==== Proof.LibKeepdims.lean ====
/-
  General lemmas: the "keepdims" column forms of a rank-2 array read at an index.
  A vector of length `n` cast to an `[n, 1]` column, and an `[n, 1]` column broadcast along its unit axis to
  `[n, b]`, each read at an index built with `ix2`.
-/
import Idealize.ShloMosaic.Lib.ValueIdx
import Idealize.ShloMosaic.Lib.Pipeline.Value
import Idealize.ShloMosaic.Lib.ValueLayout

noncomputable section

namespace Keepdims

open Idealize.ShloMosaic Idealize.ShloMosaic.ValueIdx

variable {α : Type}

/-- An `[n, 1]` column broadcast to `[n, b]` reads, at `(p, j)`, the column at `p`. -/
theorem broadcastTo_a1_ab_apply {n b : ℕ} (v : (⟨2, ![n, 1]⟩ : Shape).Idx → α) (h : (⟨2, ![n, 1]⟩ : Shape).Broadcasts ⟨2, ![n, b]⟩)
    (p : Fin n) (j : Fin b) : broadcastTo ⟨2, ![n, b]⟩ v h (ix2 p j) = v (ix2 p (0 : Fin 1)) := by
  refine broadcastTo_apply v h (ix2 p j) (ix2 p (0 : Fin 1)) fun ax => ?_
  match ax with
  | ⟨0, _⟩ =>
    show p.val = if n = 1 then 0 else p.val
    split
    · have := p.isLt; omega
    · rfl
  | ⟨1, _⟩ => rfl

/-- A length-`n` vector cast to an `[n, 1]` column reads, at `(p, 0)`, the vector at `p`. -/
theorem shapeCast_a_a1_apply {n : ℕ} (v : (⟨1, ![n]⟩ : Shape).Idx → α) (h : (⟨1, ![n]⟩ : Shape).ShapeCasts ⟨2, ![n, 1]⟩)
    (p : Fin n) : shapeCast ⟨2, ![n, 1]⟩ v h (ix2 p (0 : Fin 1)) = v (ix1 p) := by
  refine shapeCast_apply v h (ix2 p (0 : Fin 1)) (ix1 p) ?_
  rw [Shape.rowMajor_val_one, Shape.rowMajor_val_two]
  show p.val = p.val * 1 + 0
  omega

end Keepdims

end
-- ==== Proof.KernelValue.lean ====
/-
  What the kernel's one result array holds after its run at the ideal values.

  The body carries the node features transposed (features × nodes).  Its first matrix product multiplies
  `[xᵀ ; 1]` (65 rows) by `adj`: rows 0–63 are the features summed over each node's incoming neighbours, row 64 —
  the row of ones — is each node's in-degree.  Each layer is then ONE product `[W_lᵀ , W_rᵀ] · [ (aggᵀ ⊙ 1/max(deg,1)) ; hᵀ ]`
  contracting a 128-long axis, plus the bias as a column; between layers `max (·, 0)`; the last layer is transposed
  back to nodes × features and stored.

  Read at an index, every product is a finite sum on the extended reals (no rounding, no order), the 128-long
  contraction splits into its two 64-long halves (addition on the extended reals is a commutative monoid, so no
  finiteness is needed), and transposes, concatenations, slices and broadcasts only re-index.  So the stored value
  at `(n, o)` is `Cert.KernelSpec.out` of the loaded arrays at `(n, o)` (`stored_apply`).  The kernel has no grid: the
  one point's blocks are the whole arrays, the three biases reach the region as the host reshape `[64] → [1, 64]`
  of the rank-1 arguments, and the one block written back covers the result array (`flushed_eq`, `final`, `run`).
-/
import proofs.«112055_g42752104464586_cont_sun_m_355_17_alg».proof.Proof.Gen.KernelIdeal.Value
import proofs.«112055_g42752104464586_cont_sun_m_355_17_alg».proof.Proof.KernelSpec
import proofs.«112055_g42752104464586_cont_sun_m_355_17_alg».proof.Proof.LibPlainDot
import proofs.«112055_g42752104464586_cont_sun_m_355_17_alg».proof.Proof.LibKeepdims
import Idealize.ShloMosaic.Lib.ValueLayout

noncomputable section

open scoped BigOperators

namespace Cert.KernelIdeal.KValue

open Cert.KernelIdeal Cert.KernelIdeal.Gen Idealize.ShloMosaic Idealize.ShloMosaic.TcCoe Idealize.SL.Sem
open Idealize.ShloMosaic.ValueIdx
open Idealize.ShloMosaic.Pipeline (Dat)

/-! ## The three matrix products' dimension records are plain: row of the left operand against column of the right -/

abbrev D128 := dot_S64x128_S128x1536_S64x1536_1_0_0_1_n_n
abbrev D64 := dot_S64x1536_S1536x1536_S64x1536_1_0_0_1_n_n
abbrev D65 := dot_S65x1536_S1536x1536_S65x1536_1_0_0_1_n_n

/-- A 64-row operand times the 1536 × 1536 matrix, into zeros, at `(k, n)`. -/
theorem mm64_apply (g : FVec Ideal S64x1536 .f32) (a : FVec Ideal S1536x1536 .f32) (k : Fin 64) (n : Fin 1536) :
    matmul D64 none g a (constant (F := Ideal) S64x1536 .f32 0x00000000#32) (ix2 k n)
      = ∑ i : Fin 1536, g (ix2 k i) * a (ix2 i n) :=
  Cert.Lib.PlainDot.matmul_zero_apply (M := 64) (K := 1536) (N := 1536) D64 rfl rfl (fun _ _ => rfl) (fun _ _ => rfl)
    (fun _ _ => rfl) (fun _ _ => rfl) none g a (ix2 k n)

/-- A 65-row operand times the 1536 × 1536 matrix, into zeros, at `(r, n)`. -/
theorem mm65_apply (g : FVec Ideal S65x1536 .f32) (a : FVec Ideal S1536x1536 .f32) (r : Fin 65) (n : Fin 1536) :
    matmul D65 none g a (constant (F := Ideal) S65x1536 .f32 0x00000000#32) (ix2 r n)
      = ∑ i : Fin 1536, g (ix2 r i) * a (ix2 i n) :=
  Cert.Lib.PlainDot.matmul_zero_apply (M := 65) (K := 1536) (N := 1536) D65 rfl rfl (fun _ _ => rfl) (fun _ _ => rfl)
    (fun _ _ => rfl) (fun _ _ => rfl) none g a (ix2 r n)

/-- A 64 × 128 operand times a 128 × 1536 operand, into zeros, at `(o, n)`. -/
theorem mm128_apply (w : FVec Ideal S64x128 .f32) (r : FVec Ideal S128x1536 .f32) (o : Fin 64) (n : Fin 1536) :
    matmul D128 none w r (constant (F := Ideal) S64x1536 .f32 0x00000000#32) (ix2 o n)
      = ∑ kk : Fin 128, w (ix2 o kk) * r (ix2 kk n) :=
  Cert.Lib.PlainDot.matmul_zero_apply (M := 64) (K := 128) (N := 1536) D128 rfl rfl (fun _ _ => rfl) (fun _ _ => rfl)
    (fun _ _ => rfl) (fun _ _ => rfl) none w r (ix2 o n)

/-! ## A sum over 128 is the sum over its first 64 plus the sum over its last 64 -/

/-- Position `k` of the first half. -/
def lo (k : Fin 64) : Fin 128 := ⟨k.val, by omega⟩
/-- Position `k` of the second half. -/
def hi (k : Fin 64) : Fin 128 := ⟨64 + k.val, by omega⟩

theorem sum_split128 {M : Type*} [AddCommMonoid M] (f : Fin 128 → M) :
    ∑ kk : Fin 128, f kk = ∑ k : Fin 64, f (lo k) + ∑ k : Fin 64, f (hi k) :=
  Fin.sum_univ_add (a := 64) (b := 64) f

/-! ## The two concatenated operands of a layer's product, read at an index -/

/-- `[W_lᵀ , W_rᵀ]` side by side. -/
abbrev wcat (wl wr : FVec Ideal S64x64 .f32) : FVec Ideal S64x128 .f32 :=
  concatenate S64x128 1 [⟨S64x64, transpose S64x64 [1, 0] wl transposes_S64x64_p1_0_S64x64⟩,
    ⟨S64x64, transpose S64x64 [1, 0] wr transposes_S64x64_p1_0_S64x64⟩] concatenates_S64x64_S64x64_S64x128_d1

theorem wcat_lo (wl wr : FVec Ideal S64x64 .f32) (o k : Fin 64) : wcat wl wr (ix2 o (lo k)) = wl (ix2 k o) := by
  refine (concatenate_pair_apply_left (t := S64x128) (s₁ := S64x64) (s₂ := S64x64) (1 : Fin 2)
    (transpose S64x64 [1, 0] wl transposes_S64x64_p1_0_S64x64) (transpose S64x64 [1, 0] wr transposes_S64x64_p1_0_S64x64)
    concatenates_S64x64_S64x64_S64x128_d1 (ix2 o (lo k)) rfl
    (ix2 o k) (fun b => ?_)).trans (transpose_ix2_apply wl _ o k)
  match b with
  | ⟨0, _⟩ => rfl
  | ⟨1, _⟩ => rfl

theorem wcat_hi (wl wr : FVec Ideal S64x64 .f32) (o k : Fin 64) : wcat wl wr (ix2 o (hi k)) = wr (ix2 k o) := by
  refine (concatenate_pair_apply_right (t := S64x128) (s₁ := S64x64) (s₂ := S64x64) (1 : Fin 2)
    (transpose S64x64 [1, 0] wl transposes_S64x64_p1_0_S64x64) (transpose S64x64 [1, 0] wr transposes_S64x64_p1_0_S64x64)
    concatenates_S64x64_S64x64_S64x128_d1 (ix2 o (hi k)) rfl rfl
    (ix2 o k) (fun b hb => ?_) ?_).trans (transpose_ix2_apply wr _ o k)
  · match b with
    | ⟨0, _⟩ => rfl
    | ⟨1, _⟩ => exact absurd rfl hb
  · show k.val + 64 = 64 + k.val
    omega

/-- `[meanᵀ ; hᵀ]` one above the other. -/
abbrev rcat (a g : FVec Ideal S64x1536 .f32) : FVec Ideal S128x1536 .f32 :=
  concatenate S128x1536 0 [⟨S64x1536, a⟩, ⟨S64x1536, g⟩] concatenates_S64x1536_S64x1536_S128x1536_d0

theorem rcat_lo (a g : FVec Ideal S64x1536 .f32) (k : Fin 64) (n : Fin 1536) : rcat a g (ix2 (lo k) n) = a (ix2 k n) := by
  refine concatenate_pair_apply_left (t := S128x1536) (s₁ := S64x1536) (s₂ := S64x1536) (0 : Fin 2) a g
    concatenates_S64x1536_S64x1536_S128x1536_d0 (ix2 (lo k) n) rfl
    (ix2 k n) (fun b => ?_)
  match b with
  | ⟨0, _⟩ => rfl
  | ⟨1, _⟩ => rfl

theorem rcat_hi (a g : FVec Ideal S64x1536 .f32) (k : Fin 64) (n : Fin 1536) : rcat a g (ix2 (hi k) n) = g (ix2 k n) := by
  refine concatenate_pair_apply_right (t := S128x1536) (s₁ := S64x1536) (s₂ := S64x1536) (0 : Fin 2) a g
    concatenates_S64x1536_S64x1536_S128x1536_d0 (ix2 (hi k) n) rfl rfl
    (ix2 k n) (fun b hb => ?_) ?_
  · match b with
    | ⟨0, _⟩ => exact absurd rfl hb
    | ⟨1, _⟩ => rfl
  · show k.val + 64 = 64 + k.val
    omega

/-! ## One layer in the transposed layout the body carries (features × nodes) -/

/-- The bias row turned into a column and repeated along the nodes. -/
abbrev biasT (bl : FVec Ideal S1x64 .f32) : FVec Ideal S64x1536 .f32 :=
  broadcastTo S64x1536 (transpose S64x1 [1, 0] (shapeCast S1x64 bl shapeCasts_S1x64_S1x64) transposes_S1x64_p1_0_S64x1)
    broadcasts_S64x1_S64x1536

theorem biasT_apply (bl : FVec Ideal S1x64 .f32) (o : Fin 64) (n : Fin 1536) : biasT bl (ix2 o n) = bl (ix2 (0 : Fin 1) o) := by
  refine (Keepdims.broadcastTo_a1_ab_apply _ broadcasts_S64x1_S64x1536 o n).trans ?_
  refine (transpose_ix2_apply _ transposes_S1x64_p1_0_S64x1 o (0 : Fin 1)).trans ?_
  rw [shapeCast_self]

/-- The layer's one product: `[W_lᵀ , W_rᵀ] · [ (aggᵀ ⊙ dinv) ; hᵀ ]`. -/
abbrev linT (gT aT : FVec Ideal S64x1536 .f32) (d : FVec Ideal S1x1536 .f32) (wl wr : FVec Ideal S64x64 .f32) :
    FVec Ideal S64x1536 .f32 :=
  matmul D128 none (wcat wl wr) (rcat (mulf aT (broadcastTo S64x1536 d broadcasts_S1x1536_S64x1536)) gT)
    (constant (F := Ideal) S64x1536 .f32 0x00000000#32)

/-- The product's one 128-long contraction is the two 64-long sums of the layer. -/
theorem linT_apply (gT aT : FVec Ideal S64x1536 .f32) (d : FVec Ideal S1x1536 .f32) (wl wr : FVec Ideal S64x64 .f32)
    (o : Fin 64) (n : Fin 1536) :
    linT gT aT d wl wr (ix2 o n)
      = (∑ k : Fin 64, wl (ix2 k o) * (aT (ix2 k n) * d (ix2 (0 : Fin 1) n))) + (∑ k : Fin 64, wr (ix2 k o) * gT (ix2 k n)) := by
  refine (mm128_apply _ _ o n).trans ?_
  rw [sum_split128]
  congr 1
  · refine Finset.sum_congr rfl fun k _ => ?_
    rw [wcat_lo, rcat_lo, mulf_apply, broadcastTo_1b_ab_apply]
  · refine Finset.sum_congr rfl fun k _ => ?_
    rw [wcat_hi, rcat_hi]

/-- The rectifier on the transposed layout. -/
abbrev reluT (v : FVec Ideal S64x1536 .f32) : FVec Ideal S64x1536 .f32 :=
  maximumf v (broadcast S64x1536 (Scalar.ofBits (F := Ideal) .f32 0x00000000#32))

theorem reluT_apply (v : FVec Ideal S64x1536 .f32) (j : S64x1536.Idx) : reluT v j = max (v j) Cert.KernelSpec.zero := rfl

/-! ## The stages against the closed form -/

/-- One layer, transposed: the product plus the bias column. -/
abbrev layerT (gT aT : FVec Ideal S64x1536 .f32) (d : FVec Ideal S1x1536 .f32) (wl wr : FVec Ideal S64x64 .f32)
    (bl : FVec Ideal S1x64 .f32) : FVec Ideal S64x1536 .f32 :=
  addf (linT gT aT d wl wr) (biasT bl)

/-- The aggregation product, transposed: features × nodes times `adj`. -/
abbrev aggT (gT : FVec Ideal S64x1536 .f32) (adj : FVec Ideal S1536x1536 .f32) : FVec Ideal S64x1536 .f32 :=
  matmul D64 none gT adj (constant (F := Ideal) S64x1536 .f32 0x00000000#32)

/-- If `hT` is `h` transposed, the aggregation product of `hT` is the neighbour sum of `h`, transposed. -/
theorem aggT_spec (adj : FVec Ideal S1536x1536 .f32) (h : FVec Ideal S1536x64 .f32) (hT : FVec Ideal S64x1536 .f32)
    (hh : ∀ (k : Fin 64) (n : Fin 1536), hT (ix2 k n) = h (ix2 n k)) (k : Fin 64) (n : Fin 1536) :
    aggT hT adj (ix2 k n) = Cert.KernelSpec.agg adj h n k := by
  refine (mm64_apply hT adj k n).trans ?_
  unfold Cert.KernelSpec.agg
  exact Finset.sum_congr rfl fun i _ => by rw [hh]

/-- If `hT`, `aT` are `h` and its neighbour sums transposed, `d` the reciprocal degrees as a row and `bl` the bias
    as a row, the transposed layer at `(o, n)` is the layer of `h` at `(n, o)`. -/
theorem layerT_spec (adj : FVec Ideal S1536x1536 .f32) (h : FVec Ideal S1536x64 .f32) (hT aT : FVec Ideal S64x1536 .f32)
    (d : FVec Ideal S1x1536 .f32) (wl wr : FVec Ideal S64x64 .f32) (bl : FVec Ideal S1x64 .f32) (b : FVec Ideal S64 .f32)
    (hh : ∀ (k : Fin 64) (n : Fin 1536), hT (ix2 k n) = h (ix2 n k))
    (ha : ∀ (k : Fin 64) (n : Fin 1536), aT (ix2 k n) = Cert.KernelSpec.agg adj h n k)
    (hd : ∀ n : Fin 1536, d (ix2 (0 : Fin 1) n) = Cert.KernelSpec.dinv adj n)
    (hb : ∀ o : Fin 64, bl (ix2 (0 : Fin 1) o) = b (ix1 o)) (o : Fin 64) (n : Fin 1536) :
    layerT hT aT d wl wr bl (ix2 o n) = Cert.KernelSpec.layer adj h wl b wr (ix2 n o) := by
  show linT hT aT d wl wr (ix2 o n) + biasT bl (ix2 o n) = Cert.KernelSpec.layerAt adj h wl b wr n o
  unfold Cert.KernelSpec.layerAt
  rw [linT_apply, biasT_apply, hb, hd]
  simp only [ha, hh]

/-- The rectifier commutes with the transposition. -/
theorem reluT_spec (H : FVec Ideal S1536x64 .f32) (v : FVec Ideal S64x1536 .f32)
    (hv : ∀ (k : Fin 64) (n : Fin 1536), v (ix2 k n) = H (ix2 n k)) (k : Fin 64) (n : Fin 1536) :
    reluT v (ix2 k n) = Cert.KernelSpec.relu H (ix2 n k) := by
  rw [reluT_apply, hv]; rfl

/-! ## The first product: the features' neighbour sums and, on its extra row of ones, the degrees -/

theorem pay2_apply (x : FVec Ideal S1536x64 .f32) (k : Fin 64) (n : Fin 1536) :
    k0_pay2 (F := Ideal) x (ix2 k n) = x (ix2 n k) :=
  transpose_ix2_apply x transposes_S1536x64_p1_0_S64x1536 k n

/-- Row `k < 64` of the first product is feature `k` summed over the incoming neighbours. -/
theorem pay3_lo (adj : FVec Ideal S1536x1536 .f32) (x : FVec Ideal S1536x64 .f32) (k : Fin 64) (n : Fin 1536) :
    k0_pay3 (F := Ideal) adj x (ix2 (⟨k.val, by omega⟩ : Fin 65) n) = Cert.KernelSpec.agg adj x n k := by
  unfold k0_pay3
  refine (mm65_apply _ adj _ n).trans ?_
  unfold Cert.KernelSpec.agg
  refine Finset.sum_congr rfl fun i _ => congrArg (· * adj (ix2 i n)) ?_
  refine (concatenate_pair_apply_left (t := S65x1536) (s₁ := S64x1536) (s₂ := S1x1536) (0 : Fin 2) (k0_pay2 x)
    (broadcast S1x1536 (Scalar.ofBits (F := Ideal) .f32 0x3F800000#32)) concatenates_S64x1536_S1x1536_S65x1536_d0
    (ix2 (⟨k.val, by omega⟩ : Fin 65) i) rfl (ix2 k i) (fun b => ?_)).trans (pay2_apply x k i)
  match b with
  | ⟨0, _⟩ => rfl
  | ⟨1, _⟩ => rfl

/-- Row 64 of the first product, the row of ones against `adj`, is the in-degree. -/
theorem pay3_hi (adj : FVec Ideal S1536x1536 .f32) (x : FVec Ideal S1536x64 .f32) (n : Fin 1536) :
    k0_pay3 (F := Ideal) adj x (ix2 (64 : Fin 65) n) = Cert.KernelSpec.deg adj n := by
  unfold k0_pay3
  refine (mm65_apply _ adj _ n).trans ?_
  unfold Cert.KernelSpec.deg
  refine Finset.sum_congr rfl fun i _ => congrArg (· * adj (ix2 i n)) ?_
  refine concatenate_pair_apply_right (t := S65x1536) (s₁ := S64x1536) (s₂ := S1x1536) (0 : Fin 2) (k0_pay2 x)
    (broadcast S1x1536 (Scalar.ofBits (F := Ideal) .f32 0x3F800000#32)) concatenates_S64x1536_S1x1536_S65x1536_d0
    (ix2 (64 : Fin 65) i) rfl rfl (ix2 (0 : Fin 1) i) (fun b hb => ?_) rfl
  match b with
  | ⟨0, _⟩ => exact absurd rfl hb
  | ⟨1, _⟩ => rfl

/-- The reciprocal of the clamped degree, as the body's row. -/
theorem pay4_apply (adj : FVec Ideal S1536x1536 .f32) (x : FVec Ideal S1536x64 .f32) (n : Fin 1536) :
    k0_pay4 (F := Ideal) adj x (ix2 (0 : Fin 1) n) = Cert.KernelSpec.dinv adj n := by
  unfold k0_pay4 Cert.KernelSpec.dinv
  show Ideal.div _ (max (extractStridedSlice (s := S65x1536) S1x1536 ![64, 0] (k0_pay3 (F := Ideal) adj x)
    slices_S65x1536_o64_0_S1x1536 (ix2 (0 : Fin 1) n)) _) = _
  rw [slice2_axis0_apply 64 (k0_pay3 (F := Ideal) adj x) slices_S65x1536_o64_0_S1x1536 (0 : Fin 1) n (64 : Fin 65) rfl,
    pay3_hi]
  rfl

/-- The first 64 rows of the first product. -/
abbrev first64 (adj : FVec Ideal S1536x1536 .f32) (x : FVec Ideal S1536x64 .f32) : FVec Ideal S64x1536 .f32 :=
  extractStridedSlice (s := S65x1536) S64x1536 ![0, 0] (k0_pay3 (F := Ideal) adj x) slices_S65x1536_o0_0_S64x1536

theorem first64_apply (adj : FVec Ideal S1536x1536 .f32) (x : FVec Ideal S1536x64 .f32) (k : Fin 64) (n : Fin 1536) :
    first64 adj x (ix2 k n) = Cert.KernelSpec.agg adj x n k := by
  exact (slice2_axis0_apply 0 (k0_pay3 (F := Ideal) adj x) slices_S65x1536_o0_0_S64x1536 k n (⟨k.val, by omega⟩ : Fin 65)
    (Nat.zero_add _).symm).trans (pay3_lo adj x k n)

/-! ## The stored value, entry by entry -/

/-- The first layer's rectified output, transposed, as the body computes it. -/
abbrev g1 (adj : FVec Ideal S1536x1536 .f32) (x : FVec Ideal S1536x64 .f32) (wl0 wr0 : FVec Ideal S64x64 .f32)
    (bl0 : FVec Ideal S1x64 .f32) : FVec Ideal S64x1536 .f32 :=
  reluT (layerT (k0_pay2 (F := Ideal) x) (first64 adj x) (k0_pay4 (F := Ideal) adj x) wl0 wr0 bl0)

/-- The value the body carries out of its first part: the second layer's product, before its bias. -/
theorem pay5_eq (adj : FVec Ideal S1536x1536 .f32) (x : FVec Ideal S1536x64 .f32) (wl0 wr0 wl1 wr1 : FVec Ideal S64x64 .f32)
    (bl0 : FVec Ideal S1x64 .f32) :
    k0_pay5 (F := Ideal) adj x wl0 wr0 bl0 wl1 wr1
      = linT (g1 adj x wl0 wr0 bl0) (aggT (g1 adj x wl0 wr0 bl0) adj) (k0_pay4 (F := Ideal) adj x) wl1 wr1 := rfl

/-- The stored value from the carried product: bias and rectifier of the second layer, the third layer, transposed back. -/
theorem pay1_eq (adj : FVec Ideal S1536x1536 .f32) (d : FVec Ideal S1x1536 .f32) (v : FVec Ideal S64x1536 .f32)
    (wl2 wr2 : FVec Ideal S64x64 .f32) (bl1 bl2 : FVec Ideal S1x64 .f32) :
    k0_pay1 (F := Ideal) adj d v bl1 wl2 wr2 bl2
      = transpose S1536x64 [1, 0] (layerT (reluT (addf v (biasT bl1))) (aggT (reluT (addf v (biasT bl1))) adj) d wl2 wr2 bl2)
          transposes_S64x1536_p1_0_S1536x64 := rfl

/-- What the body stores, at `(n, o)`: the three-layer network of the loaded arrays, the three bias rows being
    given rank-1 arrays laid out as rows. -/
theorem stored_apply (adj : FVec Ideal S1536x1536 .f32) (x : FVec Ideal S1536x64 .f32)
    (wl0 wr0 wl1 wr1 wl2 wr2 : FVec Ideal S64x64 .f32) (bl0 bl1 bl2 : FVec Ideal S1x64 .f32) (b0 b1 b2 : FVec Ideal S64 .f32)
    (hb0 : ∀ o : Fin 64, bl0 (ix2 (0 : Fin 1) o) = b0 (ix1 o))
    (hb1 : ∀ o : Fin 64, bl1 (ix2 (0 : Fin 1) o) = b1 (ix1 o))
    (hb2 : ∀ o : Fin 64, bl2 (ix2 (0 : Fin 1) o) = b2 (ix1 o)) (n : Fin 1536) (o : Fin 64) :
    k0_pay1 (F := Ideal) adj (k0_pay4 adj x) (k0_pay5 adj x wl0 wr0 bl0 wl1 wr1) bl1 wl2 wr2 bl2 (ix2 n o)
      = Cert.KernelSpec.out x adj wl0 b0 wr0 wl1 b1 wr1 wl2 b2 wr2 (ix2 n o) := by
  have e1 : ∀ (k : Fin 64) (n : Fin 1536), g1 adj x wl0 wr0 bl0 (ix2 k n)
        = Cert.KernelSpec.relu (Cert.KernelSpec.layer adj x wl0 b0 wr0) (ix2 n k) :=
    reluT_spec _ _ (layerT_spec adj x _ _ _ wl0 wr0 bl0 b0 (pay2_apply x) (first64_apply adj x) (pay4_apply adj x) hb0)
  have e2 : ∀ (k : Fin 64) (n : Fin 1536),
      reluT (layerT (g1 adj x wl0 wr0 bl0) (aggT (g1 adj x wl0 wr0 bl0) adj) (k0_pay4 (F := Ideal) adj x) wl1 wr1 bl1) (ix2 k n)
        = Cert.KernelSpec.relu (Cert.KernelSpec.layer adj
            (Cert.KernelSpec.relu (Cert.KernelSpec.layer adj x wl0 b0 wr0)) wl1 b1 wr1) (ix2 n k) :=
    reluT_spec _ _ (layerT_spec adj _ _ _ _ wl1 wr1 bl1 b1 e1 (aggT_spec adj _ _ e1) (pay4_apply adj x) hb1)
  rw [pay1_eq, pay5_eq]
  refine (transpose_ix2_apply _ transposes_S64x1536_p1_0_S1536x64 n o).trans ?_
  exact layerT_spec adj _ _ _ _ wl2 wr2 bl2 b2 e2 (aggT_spec adj _ _ e2) (pay4_apply adj x) hb2 o n

/-! ## From the one block to the array -/

variable (m : (ℓ : Loc nD τ sig) → Buf (Elt Ideal) ℓ) (ρ : Dev nD → PrngReg)

theorem hz : (![0, 0] : Fin 2 → Nat) = fun _ => 0 := funext fun a => by fin_cases a <;> rfl

/-- The function of the argument arrays the result array ends holding. -/
abbrev G (c : Dev nD) : S1536x64.Idx → EReal :=
  Cert.KernelSpec.out (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10))

/-- A bias reaches the region as a row: the host reshape of the rank-1 argument, read at `(0, o)`. -/
theorem V_main_v0_apply (c : Dev nD) (o : Fin 64) :
    (V m c main_v0 : S1x64.Idx → EReal) (ix2 (0 : Fin 1) o) = (m ((c : Thread nD τ).loc main_arg3) : S64.Idx → EReal) (ix1 o) := by
  have e : (V m c main_v0 : S1x64.Idx → EReal)
      = shapeCast S1x64 (m ((c : Thread nD τ).loc main_arg3) : S64.Idx → EReal) shapeCasts_S64_S1x64 := by
    dsimp only [Gen.V, Gen.hostOps0]; after_results; rfl
  rw [e]
  exact shapeCast_a_1a_apply _ shapeCasts_S64_S1x64 (0 : Fin 1) o

theorem V_main_v1_apply (c : Dev nD) (o : Fin 64) :
    (V m c main_v1 : S1x64.Idx → EReal) (ix2 (0 : Fin 1) o) = (m ((c : Thread nD τ).loc main_arg6) : S64.Idx → EReal) (ix1 o) := by
  have e : (V m c main_v1 : S1x64.Idx → EReal)
      = shapeCast S1x64 (m ((c : Thread nD τ).loc main_arg6) : S64.Idx → EReal) shapeCasts_S64_S1x64 := by
    dsimp only [Gen.V, Gen.hostOps0]; after_results; rfl
  rw [e]
  exact shapeCast_a_1a_apply _ shapeCasts_S64_S1x64 (0 : Fin 1) o

theorem V_main_v2_apply (c : Dev nD) (o : Fin 64) :
    (V m c main_v2 : S1x64.Idx → EReal) (ix2 (0 : Fin 1) o) = (m ((c : Thread nD τ).loc main_arg9) : S64.Idx → EReal) (ix1 o) := by
  have e : (V m c main_v2 : S1x64.Idx → EReal)
      = shapeCast S1x64 (m ((c : Thread nD τ).loc main_arg9) : S64.Idx → EReal) shapeCasts_S64_S1x64 := by
    dsimp only [Gen.V, Gen.hostOps0]; after_results; rfl
  rw [e]
  exact shapeCast_a_1a_apply _ shapeCasts_S64_S1x64 (0 : Fin 1) o

/-- The kernel has no grid: each window's block at the one point is its whole array. -/
theorem iblk_whole (c : Dev nD) (t : Fin cfg0.N) :
    (iblk m c 0 t : S1536x1536.Idx → EReal) = V m c main_arg1
    ∧ (iblk m c 1 t : S1536x64.Idx → EReal) = V m c main_arg0
    ∧ (iblk m c 2 t : S64x64.Idx → EReal) = V m c main_arg2
    ∧ (iblk m c 3 t : S1x64.Idx → EReal) = V m c main_v0
    ∧ (iblk m c 4 t : S64x64.Idx → EReal) = V m c main_arg4
    ∧ (iblk m c 5 t : S64x64.Idx → EReal) = V m c main_arg5
    ∧ (iblk m c 6 t : S1x64.Idx → EReal) = V m c main_v1
    ∧ (iblk m c 7 t : S64x64.Idx → EReal) = V m c main_arg7
    ∧ (iblk m c 8 t : S64x64.Idx → EReal) = V m c main_arg8
    ∧ (iblk m c 9 t : S1x64.Idx → EReal) = V m c main_v2
    ∧ (iblk m c 10 t : S64x64.Idx → EReal) = V m c main_arg10 := by
  refine ⟨?_, ?_, ?_, ?_, ?_, ?_, ?_, ?_, ?_, ?_, ?_⟩ <;>
    exact Memref.read_access_unit_zero (Elt Ideal) _ (off := fun _ => 0 * _) (funext fun a => Nat.zero_mul _)
      (fun a => by rw [Nat.zero_mul]; simp) _

/-- WHAT THE ONE POINT WRITES BACK: the whole of `G`, the body's stored value being the network of the whole argument
    arrays. -/
theorem flushed_eq (c : Dev nD) (t : Fin cfg0.N) :
    (dats m 0 c).flushed 11 t = ((cfg0.win 11).blk t).view.read (Elt Ideal) (G m c) := by
  rw [Value.flushed11]
  unfold out0_11
  rw [View.canon_unit_zero hz]
  simp only [View.ld_unit_zero (S := S1536x1536) hz, View.ld_unit_zero (S := S1536x64) hz,
    View.ld_unit_zero (S := S64x64) hz, View.ld_unit_zero (S := S1x64) hz]
  obtain ⟨e0, e1, e2, e3, e4, e5, e6, e7, e8, e9, e10⟩ := iblk_whole m c t
  rw [e0, e1, e2, e3, e4, e5, e6, e7, e8, e9, e10]
  refine Eq.trans ?_ (Memref.read_access_unit_zero (Elt Ideal) main_v3 (off := fun _ => 0 * _)
    (funext fun a => Nat.zero_mul _) (fun a => by rw [Nat.zero_mul]; simp) (G m c)).symm
  funext j
  obtain ⟨n, o, rfl⟩ : ∃ (n : Fin 1536) (o : Fin 64), j = ix2 n o := ⟨j 0, j 1, eq_ix2 j⟩
  have key := stored_apply (V m c main_arg1) (V m c main_arg0) (V m c main_arg2) (V m c main_arg4) (V m c main_arg5)
    (V m c main_arg7) (V m c main_arg8) (V m c main_arg10) (V m c main_v0) (V m c main_v1) (V m c main_v2)
    (m ((c : Thread nD τ).loc main_arg3)) (m ((c : Thread nD τ).loc main_arg6)) (m ((c : Thread nD τ).loc main_arg9))
    (V_main_v0_apply m c) (V_main_v1_apply m c) (V_main_v2_apply m c) n o
  rw [V_main_arg0 m c, V_main_arg1 m c, V_main_arg2 m c, V_main_arg4 m c, V_main_arg5 m c, V_main_arg7 m c,
    V_main_arg8 m c, V_main_arg10 m c] at key
  rw [V_main_arg0 m c, V_main_arg1 m c, V_main_arg2 m c, V_main_arg4 m c, V_main_arg5 m c, V_main_arg7 m c,
    V_main_arg8 m c, V_main_arg10 m c]
  exact key

/-- The one block is the whole array, so the result array ends holding `G`. -/
theorem final (c : Dev nD) : (dats m 0 c).arrAt 11 cfg0.N = G m c :=
  (dats m 0 c).arrAt_eq_of_cover 11 (G m c) (fun t _ => flushed_eq m c t) fun i =>
    ⟨t0_0, flush0_11 t0_0, by
      show i ∈ ((View.whole main_v3).slice (win0_11.rect t0_0)).set
      rw [View.set_slice_whole, Rect.mem_set_unit]
      intro a
      have h0 : (i 0 : Nat) < 1536 := (i 0).isLt
      have h1 : (i 1 : Nat) < 64 := (i 1).isLt
      match a with
      | ⟨0, _⟩ => show 0 * 1536 ≤ (i 0 : Nat) ∧ (i 0 : Nat) < 0 * 1536 + 1536; omega
      | ⟨1, _⟩ => show 0 * 64 ≤ (i 1 : Nat) ∧ (i 1 : Nat) < 0 * 64 + 64; omega⟩

/-- THE KERNEL'S RUN AT THE IDEAL VALUES: every weakly fair execution terminates with the result array at the
    three-layer network of the argument arrays, entry by entry, and the arguments as launched. -/
theorem run :
    θ_run (Cert.KernelIdeal.defs (F := Ideal)) (onTc (τ := τ) (Cert.KernelIdeal.main (F := Ideal))) ⟨m, fun _ => 0, ρ⟩ (fun r => ∀ c : Dev nD,
      r.2.mem ((c.tc : Thread nD τ).loc main_v3)
        = Cert.KernelSpec.out (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
            (m ((c.tc : Thread nD τ).loc main_arg8)) (m ((c.tc : Thread nD τ).loc main_arg9))
            (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1.trans (final m c), (h c).2⟩) (Value.run_blocks m ρ)

end Cert.KernelIdeal.KValue

end
-- ==== Proof.RefSpec.lean ====
import proofs.«112055_g42752104464586_cont_sun_m_355_17_alg».proof.ReferenceIdeal

/-!
The reference's result as a function of its eleven argument arrays. The enumeration of the nonzero entries of
the adjacency (`mask` … `dst`) is a function of the adjacency alone: prefix sums of the flattened mask, the
counts of each prefix-sum value, and the prefix sums of those counts give the flat position of the k-th
nonzero entry, whose quotient and remainder by the row length are its row (the source) and its column (the
destination). One layer (`sage`) gathers the rows of the features at the sources, sums them at the
destinations, divides by the in-degree clipped below at one, and applies the two weight matrices and the bias;
`out` is three layers over the same sources and destinations with a rectifier between them.
-/

noncomputable section

namespace Cert.RefSpec

open Idealize.ShloMosaic Cert.ReferenceIdeal

variable {F : FTy → Type} [FloatOps F] [Cert.ReferenceIdeal.Facts]
open Cert.ReferenceIdeal.Facts₀ Cert.ReferenceIdeal.Facts

/-- The entries of the adjacency that are not zero (unordered comparison: a NaN counts as not zero). -/
def mask (adj : FVec F S1536x1536 .f32) : IVec S1536x1536 1 :=
  let main_cst : FVec F S_ .f32 := constant S_ .f32 0x00000000#32
  let main_v0 : FVec F S1536x1536 .f32 := broadcastInDim S1536x1536 ![] bcast_S_S1536x1536 main_cst
  let main_v1 : IVec S1536x1536 1 := cmpf .une adj main_v0
  main_v1

/-- The inclusive prefix sums of a flat integer array: a sum over a window of the array's length that ends
    at each position, the array padded with zeros in front (the body of the inner cumulative-sum function). -/
def scan (v : IVec S2359296 32) : IVec S2359296 32 :=
  let c : IVec S_ 32 := constantI S_ 32 0#32
  let v0 : IVec S_ 32 := broadcastInDim S_ ![] bcast_S_S_ c
  let v1 : IVec S2359296 32 := Host.reduceWindow IntOp.addi ![2359296] ![1] ![2359295] ![0] v v0 reduceWindows_S2359296_S2359296_w2359296s1p2359295_0 h_S_
  v1

/-- The prefix sums of the flattened mask: at position p, the number of nonzero entries at flat positions ≤ p. -/
def csum (adj : FVec F S1536x1536 .f32) : IVec S2359296 32 :=
  let main_v1 : IVec S1536x1536 1 := mask adj
  let main_call0_v0 : IVec S2359296 1 := shapeCast S2359296 main_v1 shapeCasts_S1536x1536_S2359296
  let main_call0_v1 : IVec S2359296 32 := extui 32 main_call0_v0 natLt_1_32
  let main_v2 : IVec S2359296 32 := scan main_call0_v1
  main_v2

/-- The prefix sums clipped below at zero, then a negative index wrapped by the array's length. -/
def cidx (adj : FVec F S1536x1536 .f32) : IVec S2359296 32 :=
  let main_v2 : IVec S2359296 32 := csum adj
  let main_c_0 : IVec S_ 32 := constantI S_ 32 0#32
  let main_call1_v0 : IVec S_ 32 := id main_c_0
  let main_call1_v1 : IVec S2359296 32 := broadcastInDim S2359296 ![] bcast_S_S2359296 main_call1_v0
  let main_v4 : IVec S2359296 32 := maxsi main_call1_v1 main_v2
  let main_c_1 : IVec S_ 32 := constantI S_ 32 0#32
  let main_v5 : IVec S2359296 32 := broadcastInDim S2359296 ![] bcast_S_S2359296 main_c_1
  let main_v6 : IVec S2359296 1 := cmpi .slt main_v4 main_v5
  let main_c_2 : IVec S_ 32 := constantI S_ 32 2359296#32
  let main_v7 : IVec S2359296 32 := broadcastInDim S2359296 ![] bcast_S_S2359296 main_c_2
  let main_v8 : IVec S2359296 32 := addi main_v4 main_v7
  let main_v9 : IVec S2359296 32 := select main_v6 main_v8 main_v4
  main_v9

/-- The number of positions whose clipped prefix sum is each value: ones added at those indices into zeros. -/
def binc (adj : FVec F S1536x1536 .f32) : IVec S2359296 32 :=
  let main_v9 : IVec S2359296 32 := cidx adj
  let main_c : IVec S_ 32 := constantI S_ 32 0#32
  let main_v3 : IVec S2359296 32 := broadcastInDim S2359296 ![] bcast_S_S2359296 main_c
  let main_v10 : IVec S2359296x1 32 := broadcastInDim S2359296x1 ![0] bcast_S2359296_S2359296x1_0 main_v9
  let main_c_3 : IVec S_ 32 := constantI S_ 32 1#32
  let main_v11 : IVec S2359296 32 := broadcastInDim S2359296 ![] bcast_S_S2359296 main_c_3
  let main_v12 : IVec S2359296 32 := Host.scatter scatter_S2359296_S2359296x1_S2359296_n_0_0_1 IntOp.addi main_v3 main_v10 main_v11
  main_v12

/-- The prefix sums of those counts: at position k, the flat position of the k-th nonzero entry. -/
def flat (adj : FVec F S1536x1536 .f32) : IVec S2359296 32 :=
  let main_v12 : IVec S2359296 32 := binc adj
  let main_v13 : IVec S2359296 32 := scan main_v12
  main_v13

/-- Division rounding toward minus infinity of an array by a scalar: the truncated quotient, less one where the
    signs differ and the remainder is not zero. -/
def floorDiv (v : IVec S2359296 32) (d : IVec S_ 32) : IVec S2359296 32 :=
  let v0 : IVec S2359296 32 := broadcastInDim S2359296 ![] bcast_S_S2359296 d
  let v1 : IVec S2359296 32 := Host.divsi v v0
  let v2 : IVec S2359296 32 := signi v
  let v3 : IVec S_ 32 := signi d
  let v4 : IVec S2359296 32 := broadcastInDim S2359296 ![] bcast_S_S2359296 v3
  let v5 : IVec S2359296 1 := cmpi .ne v2 v4
  let v6 : IVec S2359296 32 := broadcastInDim S2359296 ![] bcast_S_S2359296 d
  let v7 : IVec S2359296 32 := Host.remsi v v6
  let c : IVec S_ 32 := constantI S_ 32 0#32
  let v8 : IVec S2359296 32 := broadcastInDim S2359296 ![] bcast_S_S2359296 c
  let v9 : IVec S2359296 1 := cmpi .ne v7 v8
  let v10 : IVec S2359296 1 := andi v5 v9
  let c_0 : IVec S_ 32 := constantI S_ 32 1#32
  let v11 : IVec S2359296 32 := broadcastInDim S2359296 ![] bcast_S_S2359296 c_0
  let v12 : IVec S2359296 32 := subi v1 v11
  let v13 : IVec S2359296 32 := select v10 v12 v1
  v13

/-- The remainder with the sign of the divisor of an array by a scalar (a zero divisor replaced by one): the
    truncated remainder, plus the divisor where it is not zero and its sign differs from the divisor's. -/
def rem (v : IVec S2359296 32) (d : IVec S_ 32) : IVec S2359296 32 :=
  let v0 : IVec S_ 32 := id d
  let c : IVec S_ 32 := constantI S_ 32 0#32
  let v1 : IVec S_ 1 := cmpi .eq v0 c
  let c_0 : IVec S_ 32 := constantI S_ 32 1#32
  let v2 : IVec S_ 32 := select v1 c_0 v0
  let v3 : IVec S2359296 32 := broadcastInDim S2359296 ![] bcast_S_S2359296 v2
  let v4 : IVec S2359296 32 := Host.remsi v v3
  let c_1 : IVec S_ 32 := constantI S_ 32 0#32
  let v5 : IVec S2359296 32 := broadcastInDim S2359296 ![] bcast_S_S2359296 c_1
  let v6 : IVec S2359296 1 := cmpi .ne v4 v5
  let c_2 : IVec S_ 32 := constantI S_ 32 0#32
  let v7 : IVec S2359296 32 := broadcastInDim S2359296 ![] bcast_S_S2359296 c_2
  let v8 : IVec S2359296 1 := cmpi .slt v4 v7
  let c_3 : IVec S_ 32 := constantI S_ 32 0#32
  let v9 : IVec S_ 1 := cmpi .slt v2 c_3
  let v10 : IVec S2359296 1 := broadcastInDim S2359296 ![] bcast_S_S2359296 v9
  let v11 : IVec S2359296 1 := cmpi .ne v8 v10
  let v12 : IVec S2359296 1 := andi v11 v6
  let v13 : IVec S2359296 32 := broadcastInDim S2359296 ![] bcast_S_S2359296 v2
  let v14 : IVec S2359296 32 := addi v4 v13
  let v15 : IVec S2359296 32 := select v12 v14 v4
  v15

/-- The row of the k-th nonzero entry: its flat position divided by the row length, reduced modulo the
    number of rows. -/
def srcRaw (adj : FVec F S1536x1536 .f32) : IVec S2359296 32 :=
  let main_v13 : IVec S2359296 32 := flat adj
  let main_c_4 : IVec S_ 32 := constantI S_ 32 1536#32
  let main_v14 : IVec S2359296 32 := floorDiv main_v13 main_c_4
  let main_c_5 : IVec S_ 32 := constantI S_ 32 1536#32
  let main_v15 : IVec S2359296 32 := rem main_v14 main_c_5
  main_v15

/-- The column of the k-th nonzero entry: its flat position reduced modulo the row length. -/
def dstRaw (adj : FVec F S1536x1536 .f32) : IVec S2359296 32 :=
  let main_v13 : IVec S2359296 32 := flat adj
  let main_c_6 : IVec S_ 32 := constantI S_ 32 1#32
  let main_v16 : IVec S2359296 32 := floorDiv main_v13 main_c_6
  let main_c_7 : IVec S_ 32 := constantI S_ 32 1536#32
  let main_v17 : IVec S2359296 32 := rem main_v16 main_c_7
  main_v17

/-- The number of nonzero entries. -/
def total (adj : FVec F S1536x1536 .f32) : IVec S_ 32 :=
  let main_v1 : IVec S1536x1536 1 := mask adj
  let main_v19 : IVec S1536x1536 32 := extui 32 main_v1 natLt_1_32
  let main_c_8 : IVec S_ 32 := constantI S_ 32 0#32
  let main_v20 : IVec S_ 32 := Host.reduce IntOp.addi main_v19 main_c_8 reducesTo_S1536x1536_S_d0_1 h_S_
  main_v20

/-- The positions at or past the number of nonzero entries: those the enumeration fills. -/
def fill (adj : FVec F S1536x1536 .f32) : IVec S2359296 1 :=
  let main_v18 : IVec S2359296 32 := iotaInDim S2359296 32 0
  let main_v20 : IVec S_ 32 := total adj
  let main_v21 : IVec S2359296 32 := broadcastInDim S2359296 ![] bcast_S_S2359296 main_v20
  let main_v22 : IVec S2359296 1 := cmpi .sge main_v18 main_v21
  main_v22

/-- The sources: the rows of the nonzero entries in order, then the fill value 1536. -/
def src (adj : FVec F S1536x1536 .f32) : IVec S2359296 32 :=
  let main_v15 : IVec S2359296 32 := srcRaw adj
  let main_v22 : IVec S2359296 1 := fill adj
  let main_c_9 : IVec S_ 32 := constantI S_ 32 1536#32
  let main_call7_v0 : IVec S_ 32 := id main_c_9
  let main_call7_v1 : IVec S2359296 32 := broadcastInDim S2359296 ![] bcast_S_S2359296 main_call7_v0
  let main_v23 : IVec S2359296 32 := select main_v22 main_call7_v1 main_v15
  main_v23

/-- The destinations: the columns of the nonzero entries in order, then the fill value 1536. -/
def dst (adj : FVec F S1536x1536 .f32) : IVec S2359296 32 :=
  let main_v17 : IVec S2359296 32 := dstRaw adj
  let main_v22 : IVec S2359296 1 := fill adj
  let main_c_10 : IVec S_ 32 := constantI S_ 32 1536#32
  let main_call8_v0 : IVec S_ 32 := id main_c_10
  let main_call8_v1 : IVec S2359296 32 := broadcastInDim S2359296 ![] bcast_S_S2359296 main_call8_v0
  let main_v24 : IVec S2359296 32 := select main_v22 main_call8_v1 main_v17
  main_v24

/-- The rows of `h` at the indices `s`: a negative index wrapped by the number of rows, the row gathered, and a
    NaN row where the wrapped index is outside 0 … 1535. -/
def take (h : FVec F S1536x64 .f32) (s : IVec S2359296 32) : FVec F S2359296x64 .f32 :=
  let c : IVec S_ 32 := constantI S_ 32 0#32
  let v0 : IVec S2359296 32 := broadcastInDim S2359296 ![] bcast_S_S2359296 c
  let v1 : IVec S2359296 1 := cmpi .slt s v0
  let c_0 : IVec S_ 32 := constantI S_ 32 1536#32
  let v2 : IVec S2359296 32 := broadcastInDim S2359296 ![] bcast_S_S2359296 c_0
  let v3 : IVec S2359296 32 := addi s v2
  let v4 : IVec S2359296 32 := select v1 v3 s
  let v5 : IVec S2359296x1 32 := broadcastInDim S2359296x1 ![0] bcast_S2359296_S2359296x1_0 v4
  let c_1 : IVec S1 32 := constantI S1 32 1535#32
  let c_2 : IVec S_ 32 := constantI S_ 32 0#32
  let v6 : IVec S2359296x1 32 := broadcastInDim S2359296x1 ![] bcast_S_S2359296x1 c_2
  let v7 : IVec S2359296x1 1 := cmpi .sge v5 v6
  let v8 : IVec S1x1 32 := broadcastInDim S1x1 ![1] bcast_S1_S1x1_1 c_1
  let v9 : IVec S2359296x1 32 := broadcastInDim S2359296x1 ![0, 1] bcast_S1x1_S2359296x1_0_1 v8
  let v10 : IVec S2359296x1 1 := cmpi .sle v5 v9
  let v11 : IVec S2359296x1 1 := andi v7 v10
  let c_3 : IVec S_ 1 := constantI S_ 1 1#1
  let v12 : IVec S2359296 1 := Host.reduce IntOp.andi v11 c_3 reducesTo_S2359296x1_S2359296_d1 h_S_
  let v13 : FVec F S2359296x64 .f32 := Host.gather gather_S1536x64_S2359296x1_S2359296x64_1_0_n_n_0_1_164 h v5
  let v14 : IVec S2359296x64 1 := broadcastInDim S2359296x64 ![0] bcast_S2359296_S2359296x64_0 v12
  let cst : FVec F S_ .f32 := constant S_ .f32 0x7FC00000#32
  let v15 : FVec F S2359296x64 .f32 := broadcastInDim S2359296x64 ![] bcast_S_S2359296x64 cst
  let v16 : FVec F S2359296x64 .f32 := select v14 v13 v15
  v16

/-- The rectifier: the maximum with zero, entry by entry. -/
def relu (h : FVec F S1536x64 .f32) : FVec F S1536x64 .f32 :=
  let cst : FVec F S_ .f32 := constant S_ .f32 0x00000000#32
  let v0 : FVec F S1536x64 .f32 := broadcastInDim S1536x64 ![] bcast_S_S1536x64 cst
  let v1 : FVec F S1536x64 .f32 := maximumf h v0
  v1

/-- One layer: the rows of `h` at the sources summed at the destinations, divided by the number of edges into
    each destination clipped below at one, times `Wl`, plus the bias, plus `h` times `Wr`. -/
def sage (h : FVec F S1536x64 .f32) (s d : IVec S2359296 32) (Wl : FVec F S64x64 .f32) (b : FVec F S64 .f32)
    (Wr : FVec F S64x64 .f32) : FVec F S1536x64 .f32 :=
  let main_v25 : FVec F S2359296x64 .f32 := take h s
  let main_cst_11 : FVec F S_ .f32 := constant S_ .f32 0x00000000#32
  let main_v26 : FVec F S1536x64 .f32 := broadcastInDim S1536x64 ![] bcast_S_S1536x64 main_cst_11
  let main_v27 : IVec S2359296x1 32 := broadcastInDim S2359296x1 ![0] bcast_S2359296_S2359296x1_0 d
  let main_v28 : FVec F S1536x64 .f32 := Host.scatterAdd scatter_S1536x64_S2359296x1_S2359296x64_1_0_0_1 main_v26 main_v27 main_v25
  let main_cst_12 : FVec F S_ .f32 := constant S_ .f32 0x3F800000#32
  let main_v29 : FVec F S2359296 .f32 := broadcastInDim S2359296 ![] bcast_S_S2359296 main_cst_12
  let main_cst_13 : FVec F S_ .f32 := constant S_ .f32 0x00000000#32
  let main_v30 : FVec F S1536 .f32 := broadcastInDim S1536 ![] bcast_S_S1536 main_cst_13
  let main_v31 : IVec S2359296x1 32 := broadcastInDim S2359296x1 ![0] bcast_S2359296_S2359296x1_0 d
  let main_v32 : FVec F S1536 .f32 := Host.scatterAdd scatter_S1536_S2359296x1_S2359296_n_0_0_1 main_v30 main_v31 main_v29
  let main_cst_14 : FVec F S_ .f32 := constant S_ .f32 0x3F800000#32
  let main_call10_v0 : FVec F S_ .f32 := id main_cst_14
  let main_call10_v1 : FVec F S1536 .f32 := broadcastInDim S1536 ![] bcast_S_S1536 main_call10_v0
  let main_v33 : FVec F S1536 .f32 := maximumf main_call10_v1 main_v32
  let main_v34 : FVec F S1536x1 .f32 := broadcastInDim S1536x1 ![0] bcast_S1536_S1536x1_0 main_v33
  let main_v35 : FVec F S1536x64 .f32 := broadcastInDim S1536x64 ![0, 1] bcast_S1536x1_S1536x64_0_1 main_v34
  let main_v36 : FVec F S1536x64 .f32 := Host.divf main_v28 main_v35
  let main_v37 : FVec F S1536x64 .f32 := Host.dotGeneral dot_S1536x64_S64x64_S1536x64_1_0_0_1_n_n none main_v36 Wl
  let main_v38 : FVec F S1x64 .f32 := broadcastInDim S1x64 ![1] bcast_S64_S1x64_1 b
  let main_v39 : FVec F S1536x64 .f32 := broadcastInDim S1536x64 ![0, 1] bcast_S1x64_S1536x64_0_1 main_v38
  let main_v40 : FVec F S1536x64 .f32 := addf main_v37 main_v39
  let main_v41 : FVec F S1536x64 .f32 := Host.dotGeneral dot_S1536x64_S64x64_S1536x64_1_0_0_1_n_n none h Wr
  let main_v42 : FVec F S1536x64 .f32 := addf main_v40 main_v41
  main_v42

/-- The reference's result: three layers over the same sources and destinations, a rectifier after the
    first and after the second. -/
def out (x : FVec F S1536x64 .f32) (adj : FVec F S1536x1536 .f32)
    (Wl0 : FVec F S64x64 .f32) (b0 : FVec F S64 .f32) (Wr0 : FVec F S64x64 .f32)
    (Wl1 : FVec F S64x64 .f32) (b1 : FVec F S64 .f32) (Wr1 : FVec F S64x64 .f32)
    (Wl2 : FVec F S64x64 .f32) (b2 : FVec F S64 .f32) (Wr2 : FVec F S64x64 .f32) : FVec F S1536x64 .f32 :=
  sage (relu (sage (relu (sage x (src adj) (dst adj) Wl0 b0 Wr0)) (src adj) (dst adj) Wl1 b1 Wr1))
    (src adj) (dst adj) Wl2 b2 Wr2

end Cert.RefSpec

end
-- ==== Proof.RefRun.lean ====
import proofs.«112055_g42752104464586_cont_sun_m_355_17_alg».proof.Proof.RefSpec
import Idealize.ShloMosaic.Lib.StableHlo.Run
import Idealize.ShloMosaic.Lib.Pipeline.Frame

/-!
The reference program's run: its operations in order as nine consecutive lists, one per stage of the
reference's value (the prefix sums of the mask; the counts; their prefix sums; the rows; the columns; the
sources and destinations; each of the three layers), the contents of the device's buffers after each list as a
function of the contents before the first, and the statement that every weakly fair execution of the program
terminates with the result buffer at `Cert.RefSpec.out` of the argument arrays and the argument arrays unchanged.
-/

set_option Elab.async false

noncomputable section

namespace Cert.ReferenceIdeal.RefRun

open Cert.ReferenceIdeal Idealize.ShloMosaic Idealize.ShloMosaic.TcCoe Idealize.SL.Sem Idealize.ShloMosaic.StableHlo

variable {F : FTy → Type} [FloatOps F] [Cert.ReferenceIdeal.Facts]
open Cert.ReferenceIdeal.Facts₀ Cert.ReferenceIdeal.Facts

/- The window sums, reductions, gathers and scatters are compared as applications: two of them are equal when
   their operands are, and nothing below looks inside one. -/
attribute [local irreducible] Host.reduce Host.reduceWindow Host.gather Host.scatter Host.scatterAdd

/-- The operations 1 … 8 of 264: the mask and its prefix sums. -/
abbrev W1 : List (HloOp τ sig (Elt F)) :=
  [ nullary main_cst (constant S_ .f32 0x00000000#32),
    unary main_cst main_v0 (broadcastInDim S1536x1536 ![] bcast_S_S1536x1536 : (⟨S_, .f32⟩ : BufTy).Contents (Elt F) → (⟨S1536x1536, .f32⟩ : BufTy).Contents (Elt F)),
    binary main_arg1 main_v0 main_v1 (cmpf .une : (⟨S1536x1536, .f32⟩ : BufTy).Contents (Elt F) → (⟨S1536x1536, .f32⟩ : BufTy).Contents (Elt F) → (⟨S1536x1536, .i1⟩ : BufTy).Contents (Elt F)),
    reshape main_v1 main_call0_v0 rfl shapeCasts_S1536x1536_S2359296,
    unary main_call0_v0 main_call0_v1 ((extui 32 · natLt_1_32) : (⟨S2359296, .i1⟩ : BufTy).Contents (Elt F) → (⟨S2359296, .i32⟩ : BufTy).Contents (Elt F)),
    nullary main_call0_call0_c (constantI S_ 32 0#32),
    unary main_call0_call0_c main_call0_call0_v0 ((broadcastInDim S_ ![] bcast_S_S_) : (⟨S_, .i32⟩ : BufTy).Contents (Elt F) → (⟨S_, .i32⟩ : BufTy).Contents (Elt F)),
    binary main_call0_v1 main_call0_call0_v0 main_v2 ((fun x v => Host.reduceWindow IntOp.addi ![2359296] ![1] ![2359295] ![0] x v reduceWindows_S2359296_S2359296_w2359296s1p2359295_0 h_S_) : (⟨S2359296, .i32⟩ : BufTy).Contents (Elt F) → (⟨S_, .i32⟩ : BufTy).Contents (Elt F) → (⟨S2359296, .i32⟩ : BufTy).Contents (Elt F)) ]

/-- The operations 9 … 25 of 264: the clipped prefix sums and the counts of their values. -/
abbrev W2 : List (HloOp τ sig (Elt F)) :=
  [ nullary main_c (constantI S_ 32 0#32),
    unary main_c main_v3 (broadcastInDim S2359296 ![] bcast_S_S2359296 : (⟨S_, .i32⟩ : BufTy).Contents (Elt F) → (⟨S2359296, .i32⟩ : BufTy).Contents (Elt F)),
    nullary main_c_0 (constantI S_ 32 0#32),
    unary main_c_0 main_call1_v0 (id : (⟨S_, .i32⟩ : BufTy).Contents (Elt F) → (⟨S_, .i32⟩ : BufTy).Contents (Elt F)),
    unary main_call1_v0 main_call1_v1 ((broadcastInDim S2359296 ![] bcast_S_S2359296) : (⟨S_, .i32⟩ : BufTy).Contents (Elt F) → (⟨S2359296, .i32⟩ : BufTy).Contents (Elt F)),
    binary main_call1_v1 main_v2 main_v4 (maxsi : (⟨S2359296, .i32⟩ : BufTy).Contents (Elt F) → (⟨S2359296, .i32⟩ : BufTy).Contents (Elt F) → (⟨S2359296, .i32⟩ : BufTy).Contents (Elt F)),
    nullary main_c_1 (constantI S_ 32 0#32),
    unary main_c_1 main_v5 (broadcastInDim S2359296 ![] bcast_S_S2359296 : (⟨S_, .i32⟩ : BufTy).Contents (Elt F) → (⟨S2359296, .i32⟩ : BufTy).Contents (Elt F)),
    binary main_v4 main_v5 main_v6 (cmpi .slt : (⟨S2359296, .i32⟩ : BufTy).Contents (Elt F) → (⟨S2359296, .i32⟩ : BufTy).Contents (Elt F) → (⟨S2359296, .i1⟩ : BufTy).Contents (Elt F)),
    nullary main_c_2 (constantI S_ 32 2359296#32),
    unary main_c_2 main_v7 (broadcastInDim S2359296 ![] bcast_S_S2359296 : (⟨S_, .i32⟩ : BufTy).Contents (Elt F) → (⟨S2359296, .i32⟩ : BufTy).Contents (Elt F)),
    binary main_v4 main_v7 main_v8 (addi : (⟨S2359296, .i32⟩ : BufTy).Contents (Elt F) → (⟨S2359296, .i32⟩ : BufTy).Contents (Elt F) → (⟨S2359296, .i32⟩ : BufTy).Contents (Elt F)),
    ternary main_v6 main_v8 main_v4 main_v9 (select : (⟨S2359296, .i1⟩ : BufTy).Contents (Elt F) → (⟨S2359296, .i32⟩ : BufTy).Contents (Elt F) → (⟨S2359296, .i32⟩ : BufTy).Contents (Elt F) → (⟨S2359296, .i32⟩ : BufTy).Contents (Elt F)),
    unary main_v9 main_v10 (broadcastInDim S2359296x1 ![0] bcast_S2359296_S2359296x1_0 : (⟨S2359296, .i32⟩ : BufTy).Contents (Elt F) → (⟨S2359296x1, .i32⟩ : BufTy).Contents (Elt F)),
    nullary main_c_3 (constantI S_ 32 1#32),
    unary main_c_3 main_v11 (broadcastInDim S2359296 ![] bcast_S_S2359296 : (⟨S_, .i32⟩ : BufTy).Contents (Elt F) → (⟨S2359296, .i32⟩ : BufTy).Contents (Elt F)),
    ternary main_v3 main_v10 main_v11 main_v12 ((fun x i u => Host.scatter scatter_S2359296_S2359296x1_S2359296_n_0_0_1 IntOp.addi x i u) : (⟨S2359296, .i32⟩ : BufTy).Contents (Elt F) → (⟨S2359296x1, .i32⟩ : BufTy).Contents (Elt F) → (⟨S2359296, .i32⟩ : BufTy).Contents (Elt F) → (⟨S2359296, .i32⟩ : BufTy).Contents (Elt F)) ]

/-- The operations 26 … 28 of 264: the prefix sums of the counts. -/
abbrev W3 : List (HloOp τ sig (Elt F)) :=
  [ nullary main_call2_call0_c (constantI S_ 32 0#32),
    unary main_call2_call0_c main_call2_call0_v0 ((broadcastInDim S_ ![] bcast_S_S_) : (⟨S_, .i32⟩ : BufTy).Contents (Elt F) → (⟨S_, .i32⟩ : BufTy).Contents (Elt F)),
    binary main_v12 main_call2_call0_v0 main_v13 ((fun x v => Host.reduceWindow IntOp.addi ![2359296] ![1] ![2359295] ![0] x v reduceWindows_S2359296_S2359296_w2359296s1p2359295_0 h_S_) : (⟨S2359296, .i32⟩ : BufTy).Contents (Elt F) → (⟨S_, .i32⟩ : BufTy).Contents (Elt F) → (⟨S2359296, .i32⟩ : BufTy).Contents (Elt F)) ]

/-- The operations 29 … 67 of 264: the rows of the nonzero entries. -/
abbrev W4 : List (HloOp τ sig (Elt F)) :=
  [ nullary main_c_4 (constantI S_ 32 1536#32),
    unary main_c_4 main_call3_v0 ((broadcastInDim S2359296 ![] bcast_S_S2359296) : (⟨S_, .i32⟩ : BufTy).Contents (Elt F) → (⟨S2359296, .i32⟩ : BufTy).Contents (Elt F)),
    binary main_v13 main_call3_v0 main_call3_v1 (Host.divsi : (⟨S2359296, .i32⟩ : BufTy).Contents (Elt F) → (⟨S2359296, .i32⟩ : BufTy).Contents (Elt F) → (⟨S2359296, .i32⟩ : BufTy).Contents (Elt F)),
    unary main_v13 main_call3_v2 (signi : (⟨S2359296, .i32⟩ : BufTy).Contents (Elt F) → (⟨S2359296, .i32⟩ : BufTy).Contents (Elt F)),
    unary main_c_4 main_call3_v3 (signi : (⟨S_, .i32⟩ : BufTy).Contents (Elt F) → (⟨S_, .i32⟩ : BufTy).Contents (Elt F)),
    unary main_call3_v3 main_call3_v4 ((broadcastInDim S2359296 ![] bcast_S_S2359296) : (⟨S_, .i32⟩ : BufTy).Contents (Elt F) → (⟨S2359296, .i32⟩ : BufTy).Contents (Elt F)),
    binary main_call3_v2 main_call3_v4 main_call3_v5 ((cmpi .ne) : (⟨S2359296, .i32⟩ : BufTy).Contents (Elt F) → (⟨S2359296, .i32⟩ : BufTy).Contents (Elt F) → (⟨S2359296, .i1⟩ : BufTy).Contents (Elt F)),
    unary main_c_4 main_call3_v6 ((broadcastInDim S2359296 ![] bcast_S_S2359296) : (⟨S_, .i32⟩ : BufTy).Contents (Elt F) → (⟨S2359296, .i32⟩ : BufTy).Contents (Elt F)),
    binary main_v13 main_call3_v6 main_call3_v7 (Host.remsi : (⟨S2359296, .i32⟩ : BufTy).Contents (Elt F) → (⟨S2359296, .i32⟩ : BufTy).Contents (Elt F) → (⟨S2359296, .i32⟩ : BufTy).Contents (Elt F)),
    nullary main_call3_c (constantI S_ 32 0#32),
    unary main_call3_c main_call3_v8 ((broadcastInDim S2359296 ![] bcast_S_S2359296) : (⟨S_, .i32⟩ : BufTy).Contents (Elt F) → (⟨S2359296, .i32⟩ : BufTy).Contents (Elt F)),
    binary main_call3_v7 main_call3_v8 main_call3_v9 ((cmpi .ne) : (⟨S2359296, .i32⟩ : BufTy).Contents (Elt F) → (⟨S2359296, .i32⟩ : BufTy).Contents (Elt F) → (⟨S2359296, .i1⟩ : BufTy).Contents (Elt F)),
    binary main_call3_v5 main_call3_v9 main_call3_v10 (andi : (⟨S2359296, .i1⟩ : BufTy).Contents (Elt F) → (⟨S2359296, .i1⟩ : BufTy).Contents (Elt F) → (⟨S2359296, .i1⟩ : BufTy).Contents (Elt F)),
    nullary main_call3_c_0 (constantI S_ 32 1#32),
    unary main_call3_c_0 main_call3_v11 ((broadcastInDim S2359296 ![] bcast_S_S2359296) : (⟨S_, .i32⟩ : BufTy).Contents (Elt F) → (⟨S2359296, .i32⟩ : BufTy).Contents (Elt F)),
    binary main_call3_v1 main_call3_v11 main_call3_v12 (subi : (⟨S2359296, .i32⟩ : BufTy).Contents (Elt F) → (⟨S2359296, .i32⟩ : BufTy).Contents (Elt F) → (⟨S2359296, .i32⟩ : BufTy).Contents (Elt F)),
    ternary main_call3_v10 main_call3_v12 main_call3_v1 main_v14 (select : (⟨S2359296, .i1⟩ : BufTy).Contents (Elt F) → (⟨S2359296, .i32⟩ : BufTy).Contents (Elt F) → (⟨S2359296, .i32⟩ : BufTy).Contents (Elt F) → (⟨S2359296, .i32⟩ : BufTy).Contents (Elt F)),
    nullary main_c_5 (constantI S_ 32 1536#32),
    unary main_c_5 main_call4_v0 (id : (⟨S_, .i32⟩ : BufTy).Contents (Elt F) → (⟨S_, .i32⟩ : BufTy).Contents (Elt F)),
    nullary main_call4_c (constantI S_ 32 0#32),
    binary main_call4_v0 main_call4_c main_call4_v1 ((cmpi .eq) : (⟨S_, .i32⟩ : BufTy).Contents (Elt F) → (⟨S_, .i32⟩ : BufTy).Contents (Elt F) → (⟨S_, .i1⟩ : BufTy).Contents (Elt F)),
    nullary main_call4_c_0 (constantI S_ 32 1#32),
    ternary main_call4_v1 main_call4_c_0 main_call4_v0 main_call4_v2 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unary main_call4_v2 main_call4_v3 ((broadcastInDim S2359296 ![] bcast_S_S2359296) : (⟨S_, .i32⟩ : BufTy).Contents (Elt F) → (⟨S2359296, .i32⟩ : BufTy).Contents (Elt F)),
    binary main_v14 main_call4_v3 main_call4_v4 (Host.remsi : (⟨S2359296, .i32⟩ : BufTy).Contents (Elt F) → (⟨S2359296, .i32⟩ : BufTy).Contents (Elt F) → (⟨S2359296, .i32⟩ : BufTy).Contents (Elt F)),
    nullary main_call4_c_1 (constantI S_ 32 0#32),
    unary main_call4_c_1 main_call4_v5 ((broadcastInDim S2359296 ![] bcast_S_S2359296) : (⟨S_, .i32⟩ : BufTy).Contents (Elt F) → (⟨S2359296, .i32⟩ : BufTy).Contents (Elt F)),
    binary main_call4_v4 main_call4_v5 main_call4_v6 ((cmpi .ne) : (⟨S2359296, .i32⟩ : BufTy).Contents (Elt F) → (⟨S2359296, .i32⟩ : BufTy).Contents (Elt F) → (⟨S2359296, .i1⟩ : BufTy).Contents (Elt F)),
    nullary main_call4_c_2 (constantI S_ 32 0#32),
    unary main_call4_c_2 main_call4_v7 ((broadcastInDim S2359296 ![] bcast_S_S2359296) : (⟨S_, .i32⟩ : BufTy).Contents (Elt F) → (⟨S2359296, .i32⟩ : BufTy).Contents (Elt F)),
    binary main_call4_v4 main_call4_v7 main_call4_v8 ((cmpi .slt) : (⟨S2359296, .i32⟩ : BufTy).Contents (Elt F) → (⟨S2359296, .i32⟩ : BufTy).Contents (Elt F) → (⟨S2359296, .i1⟩ : BufTy).Contents (Elt F)),
    nullary main_call4_c_3 (constantI S_ 32 0#32),
    binary main_call4_v2 main_call4_c_3 main_call4_v9 ((cmpi .slt) : (⟨S_, .i32⟩ : BufTy).Contents (Elt F) → (⟨S_, .i32⟩ : BufTy).Contents (Elt F) → (⟨S_, .i1⟩ : BufTy).Contents (Elt F)),
    unary main_call4_v9 main_call4_v10 ((broadcastInDim S2359296 ![] bcast_S_S2359296) : (⟨S_, .i1⟩ : BufTy).Contents (Elt F) → (⟨S2359296, .i1⟩ : BufTy).Contents (Elt F)),
    binary main_call4_v8 main_call4_v10 main_call4_v11 ((cmpi .ne) : (⟨S2359296, .i1⟩ : BufTy).Contents (Elt F) → (⟨S2359296, .i1⟩ : BufTy).Contents (Elt F) → (⟨S2359296, .i1⟩ : BufTy).Contents (Elt F)),
    binary main_call4_v11 main_call4_v6 main_call4_v12 (andi : (⟨S2359296, .i1⟩ : BufTy).Contents (Elt F) → (⟨S2359296, .i1⟩ : BufTy).Contents (Elt F) → (⟨S2359296, .i1⟩ : BufTy).Contents (Elt F)),
    unary main_call4_v2 main_call4_v13 ((broadcastInDim S2359296 ![] bcast_S_S2359296) : (⟨S_, .i32⟩ : BufTy).Contents (Elt F) → (⟨S2359296, .i32⟩ : BufTy).Contents (Elt F)),
    binary main_call4_v4 main_call4_v13 main_call4_v14 (addi : (⟨S2359296, .i32⟩ : BufTy).Contents (Elt F) → (⟨S2359296, .i32⟩ : BufTy).Contents (Elt F) → (⟨S2359296, .i32⟩ : BufTy).Contents (Elt F)),
    ternary main_call4_v12 main_call4_v14 main_call4_v4 main_v15 (select : (⟨S2359296, .i1⟩ : BufTy).Contents (Elt F) → (⟨S2359296, .i32⟩ : BufTy).Contents (Elt F) → (⟨S2359296, .i32⟩ : BufTy).Contents (Elt F) → (⟨S2359296, .i32⟩ : BufTy).Contents (Elt F)) ]

/-- The operations 68 … 106 of 264: the columns of the nonzero entries. -/
abbrev W5 : List (HloOp τ sig (Elt F)) :=
  [ nullary main_c_6 (constantI S_ 32 1#32),
    unary main_c_6 main_call5_v0 ((broadcastInDim S2359296 ![] bcast_S_S2359296) : (⟨S_, .i32⟩ : BufTy).Contents (Elt F) → (⟨S2359296, .i32⟩ : BufTy).Contents (Elt F)),
    binary main_v13 main_call5_v0 main_call5_v1 (Host.divsi : (⟨S2359296, .i32⟩ : BufTy).Contents (Elt F) → (⟨S2359296, .i32⟩ : BufTy).Contents (Elt F) → (⟨S2359296, .i32⟩ : BufTy).Contents (Elt F)),
    unary main_v13 main_call5_v2 (signi : (⟨S2359296, .i32⟩ : BufTy).Contents (Elt F) → (⟨S2359296, .i32⟩ : BufTy).Contents (Elt F)),
    unary main_c_6 main_call5_v3 (signi : (⟨S_, .i32⟩ : BufTy).Contents (Elt F) → (⟨S_, .i32⟩ : BufTy).Contents (Elt F)),
    unary main_call5_v3 main_call5_v4 ((broadcastInDim S2359296 ![] bcast_S_S2359296) : (⟨S_, .i32⟩ : BufTy).Contents (Elt F) → (⟨S2359296, .i32⟩ : BufTy).Contents (Elt F)),
    binary main_call5_v2 main_call5_v4 main_call5_v5 ((cmpi .ne) : (⟨S2359296, .i32⟩ : BufTy).Contents (Elt F) → (⟨S2359296, .i32⟩ : BufTy).Contents (Elt F) → (⟨S2359296, .i1⟩ : BufTy).Contents (Elt F)),
    unary main_c_6 main_call5_v6 ((broadcastInDim S2359296 ![] bcast_S_S2359296) : (⟨S_, .i32⟩ : BufTy).Contents (Elt F) → (⟨S2359296, .i32⟩ : BufTy).Contents (Elt F)),
    binary main_v13 main_call5_v6 main_call5_v7 (Host.remsi : (⟨S2359296, .i32⟩ : BufTy).Contents (Elt F) → (⟨S2359296, .i32⟩ : BufTy).Contents (Elt F) → (⟨S2359296, .i32⟩ : BufTy).Contents (Elt F)),
    nullary main_call5_c (constantI S_ 32 0#32),
    unary main_call5_c main_call5_v8 ((broadcastInDim S2359296 ![] bcast_S_S2359296) : (⟨S_, .i32⟩ : BufTy).Contents (Elt F) → (⟨S2359296, .i32⟩ : BufTy).Contents (Elt F)),
    binary main_call5_v7 main_call5_v8 main_call5_v9 ((cmpi .ne) : (⟨S2359296, .i32⟩ : BufTy).Contents (Elt F) → (⟨S2359296, .i32⟩ : BufTy).Contents (Elt F) → (⟨S2359296, .i1⟩ : BufTy).Contents (Elt F)),
    binary main_call5_v5 main_call5_v9 main_call5_v10 (andi : (⟨S2359296, .i1⟩ : BufTy).Contents (Elt F) → (⟨S2359296, .i1⟩ : BufTy).Contents (Elt F) → (⟨S2359296, .i1⟩ : BufTy).Contents (Elt F)),
    nullary main_call5_c_0 (constantI S_ 32 1#32),
    unary main_call5_c_0 main_call5_v11 ((broadcastInDim S2359296 ![] bcast_S_S2359296) : (⟨S_, .i32⟩ : BufTy).Contents (Elt F) → (⟨S2359296, .i32⟩ : BufTy).Contents (Elt F)),
    binary main_call5_v1 main_call5_v11 main_call5_v12 (subi : (⟨S2359296, .i32⟩ : BufTy).Contents (Elt F) → (⟨S2359296, .i32⟩ : BufTy).Contents (Elt F) → (⟨S2359296, .i32⟩ : BufTy).Contents (Elt F)),
    ternary main_call5_v10 main_call5_v12 main_call5_v1 main_v16 (select : (⟨S2359296, .i1⟩ : BufTy).Contents (Elt F) → (⟨S2359296, .i32⟩ : BufTy).Contents (Elt F) → (⟨S2359296, .i32⟩ : BufTy).Contents (Elt F) → (⟨S2359296, .i32⟩ : BufTy).Contents (Elt F)),
    nullary main_c_7 (constantI S_ 32 1536#32),
    unary main_c_7 main_call6_v0 (id : (⟨S_, .i32⟩ : BufTy).Contents (Elt F) → (⟨S_, .i32⟩ : BufTy).Contents (Elt F)),
    nullary main_call6_c (constantI S_ 32 0#32),
    binary main_call6_v0 main_call6_c main_call6_v1 ((cmpi .eq) : (⟨S_, .i32⟩ : BufTy).Contents (Elt F) → (⟨S_, .i32⟩ : BufTy).Contents (Elt F) → (⟨S_, .i1⟩ : BufTy).Contents (Elt F)),
    nullary main_call6_c_0 (constantI S_ 32 1#32),
    ternary main_call6_v1 main_call6_c_0 main_call6_v0 main_call6_v2 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unary main_call6_v2 main_call6_v3 ((broadcastInDim S2359296 ![] bcast_S_S2359296) : (⟨S_, .i32⟩ : BufTy).Contents (Elt F) → (⟨S2359296, .i32⟩ : BufTy).Contents (Elt F)),
    binary main_v16 main_call6_v3 main_call6_v4 (Host.remsi : (⟨S2359296, .i32⟩ : BufTy).Contents (Elt F) → (⟨S2359296, .i32⟩ : BufTy).Contents (Elt F) → (⟨S2359296, .i32⟩ : BufTy).Contents (Elt F)),
    nullary main_call6_c_1 (constantI S_ 32 0#32),
    unary main_call6_c_1 main_call6_v5 ((broadcastInDim S2359296 ![] bcast_S_S2359296) : (⟨S_, .i32⟩ : BufTy).Contents (Elt F) → (⟨S2359296, .i32⟩ : BufTy).Contents (Elt F)),
    binary main_call6_v4 main_call6_v5 main_call6_v6 ((cmpi .ne) : (⟨S2359296, .i32⟩ : BufTy).Contents (Elt F) → (⟨S2359296, .i32⟩ : BufTy).Contents (Elt F) → (⟨S2359296, .i1⟩ : BufTy).Contents (Elt F)),
    nullary main_call6_c_2 (constantI S_ 32 0#32),
    unary main_call6_c_2 main_call6_v7 ((broadcastInDim S2359296 ![] bcast_S_S2359296) : (⟨S_, .i32⟩ : BufTy).Contents (Elt F) → (⟨S2359296, .i32⟩ : BufTy).Contents (Elt F)),
    binary main_call6_v4 main_call6_v7 main_call6_v8 ((cmpi .slt) : (⟨S2359296, .i32⟩ : BufTy).Contents (Elt F) → (⟨S2359296, .i32⟩ : BufTy).Contents (Elt F) → (⟨S2359296, .i1⟩ : BufTy).Contents (Elt F)),
    nullary main_call6_c_3 (constantI S_ 32 0#32),
    binary main_call6_v2 main_call6_c_3 main_call6_v9 ((cmpi .slt) : (⟨S_, .i32⟩ : BufTy).Contents (Elt F) → (⟨S_, .i32⟩ : BufTy).Contents (Elt F) → (⟨S_, .i1⟩ : BufTy).Contents (Elt F)),
    unary main_call6_v9 main_call6_v10 ((broadcastInDim S2359296 ![] bcast_S_S2359296) : (⟨S_, .i1⟩ : BufTy).Contents (Elt F) → (⟨S2359296, .i1⟩ : BufTy).Contents (Elt F)),
    binary main_call6_v8 main_call6_v10 main_call6_v11 ((cmpi .ne) : (⟨S2359296, .i1⟩ : BufTy).Contents (Elt F) → (⟨S2359296, .i1⟩ : BufTy).Contents (Elt F) → (⟨S2359296, .i1⟩ : BufTy).Contents (Elt F)),
    binary main_call6_v11 main_call6_v6 main_call6_v12 (andi : (⟨S2359296, .i1⟩ : BufTy).Contents (Elt F) → (⟨S2359296, .i1⟩ : BufTy).Contents (Elt F) → (⟨S2359296, .i1⟩ : BufTy).Contents (Elt F)),
    unary main_call6_v2 main_call6_v13 ((broadcastInDim S2359296 ![] bcast_S_S2359296) : (⟨S_, .i32⟩ : BufTy).Contents (Elt F) → (⟨S2359296, .i32⟩ : BufTy).Contents (Elt F)),
    binary main_call6_v4 main_call6_v13 main_call6_v14 (addi : (⟨S2359296, .i32⟩ : BufTy).Contents (Elt F) → (⟨S2359296, .i32⟩ : BufTy).Contents (Elt F) → (⟨S2359296, .i32⟩ : BufTy).Contents (Elt F)),
    ternary main_call6_v12 main_call6_v14 main_call6_v4 main_v17 (select : (⟨S2359296, .i1⟩ : BufTy).Contents (Elt F) → (⟨S2359296, .i32⟩ : BufTy).Contents (Elt F) → (⟨S2359296, .i32⟩ : BufTy).Contents (Elt F) → (⟨S2359296, .i32⟩ : BufTy).Contents (Elt F)) ]

/-- The operations 107 … 120 of 264: the number of nonzero entries, the fill positions, the sources and the destinations. -/
abbrev W6 : List (HloOp τ sig (Elt F)) :=
  [ nullary main_v18 (iotaInDim S2359296 32 0),
    unary main_v1 main_v19 ((extui 32 · natLt_1_32) : (⟨S1536x1536, .i1⟩ : BufTy).Contents (Elt F) → (⟨S1536x1536, .i32⟩ : BufTy).Contents (Elt F)),
    nullary main_c_8 (constantI S_ 32 0#32),
    binary main_v19 main_c_8 main_v20 ((fun x v => Host.reduce IntOp.addi x v reducesTo_S1536x1536_S_d0_1 h_S_) : (⟨S1536x1536, .i32⟩ : BufTy).Contents (Elt F) → (⟨S_, .i32⟩ : BufTy).Contents (Elt F) → (⟨S_, .i32⟩ : BufTy).Contents (Elt F)),
    unary main_v20 main_v21 (broadcastInDim S2359296 ![] bcast_S_S2359296 : (⟨S_, .i32⟩ : BufTy).Contents (Elt F) → (⟨S2359296, .i32⟩ : BufTy).Contents (Elt F)),
    binary main_v18 main_v21 main_v22 (cmpi .sge : (⟨S2359296, .i32⟩ : BufTy).Contents (Elt F) → (⟨S2359296, .i32⟩ : BufTy).Contents (Elt F) → (⟨S2359296, .i1⟩ : BufTy).Contents (Elt F)),
    nullary main_c_9 (constantI S_ 32 1536#32),
    unary main_c_9 main_call7_v0 (id : (⟨S_, .i32⟩ : BufTy).Contents (Elt F) → (⟨S_, .i32⟩ : BufTy).Contents (Elt F)),
    unary main_call7_v0 main_call7_v1 ((broadcastInDim S2359296 ![] bcast_S_S2359296) : (⟨S_, .i32⟩ : BufTy).Contents (Elt F) → (⟨S2359296, .i32⟩ : BufTy).Contents (Elt F)),
    ternary main_v22 main_call7_v1 main_v15 main_v23 (select : (⟨S2359296, .i1⟩ : BufTy).Contents (Elt F) → (⟨S2359296, .i32⟩ : BufTy).Contents (Elt F) → (⟨S2359296, .i32⟩ : BufTy).Contents (Elt F) → (⟨S2359296, .i32⟩ : BufTy).Contents (Elt F)),
    nullary main_c_10 (constantI S_ 32 1536#32),
    unary main_c_10 main_call8_v0 (id : (⟨S_, .i32⟩ : BufTy).Contents (Elt F) → (⟨S_, .i32⟩ : BufTy).Contents (Elt F)),
    unary main_call8_v0 main_call8_v1 ((broadcastInDim S2359296 ![] bcast_S_S2359296) : (⟨S_, .i32⟩ : BufTy).Contents (Elt F) → (⟨S2359296, .i32⟩ : BufTy).Contents (Elt F)),
    ternary main_v22 main_call8_v1 main_v17 main_v24 (select : (⟨S2359296, .i1⟩ : BufTy).Contents (Elt F) → (⟨S2359296, .i32⟩ : BufTy).Contents (Elt F) → (⟨S2359296, .i32⟩ : BufTy).Contents (Elt F) → (⟨S2359296, .i32⟩ : BufTy).Contents (Elt F)) ]

/-- The operations 121 … 166 of 264: the first layer. -/
abbrev W7 : List (HloOp τ sig (Elt F)) :=
  [ nullary main_call9_c (constantI S_ 32 0#32),
    unary main_call9_c main_call9_v0 ((broadcastInDim S2359296 ![] bcast_S_S2359296) : (⟨S_, .i32⟩ : BufTy).Contents (Elt F) → (⟨S2359296, .i32⟩ : BufTy).Contents (Elt F)),
    binary main_v23 main_call9_v0 main_call9_v1 ((cmpi .slt) : (⟨S2359296, .i32⟩ : BufTy).Contents (Elt F) → (⟨S2359296, .i32⟩ : BufTy).Contents (Elt F) → (⟨S2359296, .i1⟩ : BufTy).Contents (Elt F)),
    nullary main_call9_c_0 (constantI S_ 32 1536#32),
    unary main_call9_c_0 main_call9_v2 ((broadcastInDim S2359296 ![] bcast_S_S2359296) : (⟨S_, .i32⟩ : BufTy).Contents (Elt F) → (⟨S2359296, .i32⟩ : BufTy).Contents (Elt F)),
    binary main_v23 main_call9_v2 main_call9_v3 (addi : (⟨S2359296, .i32⟩ : BufTy).Contents (Elt F) → (⟨S2359296, .i32⟩ : BufTy).Contents (Elt F) → (⟨S2359296, .i32⟩ : BufTy).Contents (Elt F)),
    ternary main_call9_v1 main_call9_v3 main_v23 main_call9_v4 (select : (⟨S2359296, .i1⟩ : BufTy).Contents (Elt F) → (⟨S2359296, .i32⟩ : BufTy).Contents (Elt F) → (⟨S2359296, .i32⟩ : BufTy).Contents (Elt F) → (⟨S2359296, .i32⟩ : BufTy).Contents (Elt F)),
    unary main_call9_v4 main_call9_v5 ((broadcastInDim S2359296x1 ![0] bcast_S2359296_S2359296x1_0) : (⟨S2359296, .i32⟩ : BufTy).Contents (Elt F) → (⟨S2359296x1, .i32⟩ : BufTy).Contents (Elt F)),
    nullary main_call9_c_1 (constantI S1 32 1535#32),
    nullary main_call9_c_2 (constantI S_ 32 0#32),
    unary main_call9_c_2 main_call9_v6 ((broadcastInDim S2359296x1 ![] bcast_S_S2359296x1) : (⟨S_, .i32⟩ : BufTy).Contents (Elt F) → (⟨S2359296x1, .i32⟩ : BufTy).Contents (Elt F)),
    binary main_call9_v5 main_call9_v6 main_call9_v7 ((cmpi .sge) : (⟨S2359296x1, .i32⟩ : BufTy).Contents (Elt F) → (⟨S2359296x1, .i32⟩ : BufTy).Contents (Elt F) → (⟨S2359296x1, .i1⟩ : BufTy).Contents (Elt F)),
    unary main_call9_c_1 main_call9_v8 ((broadcastInDim S1x1 ![1] bcast_S1_S1x1_1) : (⟨S1, .i32⟩ : BufTy).Contents (Elt F) → (⟨S1x1, .i32⟩ : BufTy).Contents (Elt F)),
    unary main_call9_v8 main_call9_v9 ((broadcastInDim S2359296x1 ![0, 1] bcast_S1x1_S2359296x1_0_1) : (⟨S1x1, .i32⟩ : BufTy).Contents (Elt F) → (⟨S2359296x1, .i32⟩ : BufTy).Contents (Elt F)),
    binary main_call9_v5 main_call9_v9 main_call9_v10 ((cmpi .sle) : (⟨S2359296x1, .i32⟩ : BufTy).Contents (Elt F) → (⟨S2359296x1, .i32⟩ : BufTy).Contents (Elt F) → (⟨S2359296x1, .i1⟩ : BufTy).Contents (Elt F)),
    binary main_call9_v7 main_call9_v10 main_call9_v11 (andi : (⟨S2359296x1, .i1⟩ : BufTy).Contents (Elt F) → (⟨S2359296x1, .i1⟩ : BufTy).Contents (Elt F) → (⟨S2359296x1, .i1⟩ : BufTy).Contents (Elt F)),
    nullary main_call9_c_3 (constantI S_ 1 1#1),
    binary main_call9_v11 main_call9_c_3 main_call9_v12 ((fun x v => Host.reduce IntOp.andi x v reducesTo_S2359296x1_S2359296_d1 h_S_) : (⟨S2359296x1, .i1⟩ : BufTy).Contents (Elt F) → (⟨S_, .i1⟩ : BufTy).Contents (Elt F) → (⟨S2359296, .i1⟩ : BufTy).Contents (Elt F)),
    binary main_arg0 main_call9_v5 main_call9_v13 ((fun x i => Host.gather gather_S1536x64_S2359296x1_S2359296x64_1_0_n_n_0_1_164 x i) : (⟨S1536x64, .f32⟩ : BufTy).Contents (Elt F) → (⟨S2359296x1, .i32⟩ : BufTy).Contents (Elt F) → (⟨S2359296x64, .f32⟩ : BufTy).Contents (Elt F)),
    unary main_call9_v12 main_call9_v14 ((broadcastInDim S2359296x64 ![0] bcast_S2359296_S2359296x64_0) : (⟨S2359296, .i1⟩ : BufTy).Contents (Elt F) → (⟨S2359296x64, .i1⟩ : BufTy).Contents (Elt F)),
    nullary main_call9_cst (constant S_ .f32 0x7FC00000#32),
    unary main_call9_cst main_call9_v15 ((broadcastInDim S2359296x64 ![] bcast_S_S2359296x64) : (⟨S_, .f32⟩ : BufTy).Contents (Elt F) → (⟨S2359296x64, .f32⟩ : BufTy).Contents (Elt F)),
    ternary main_call9_v14 main_call9_v13 main_call9_v15 main_v25 (select : (⟨S2359296x64, .i1⟩ : BufTy).Contents (Elt F) → (⟨S2359296x64, .f32⟩ : BufTy).Contents (Elt F) → (⟨S2359296x64, .f32⟩ : BufTy).Contents (Elt F) → (⟨S2359296x64, .f32⟩ : BufTy).Contents (Elt F)),
    nullary main_cst_11 (constant S_ .f32 0x00000000#32),
    unary main_cst_11 main_v26 (broadcastInDim S1536x64 ![] bcast_S_S1536x64 : (⟨S_, .f32⟩ : BufTy).Contents (Elt F) → (⟨S1536x64, .f32⟩ : BufTy).Contents (Elt F)),
    unary main_v24 main_v27 (broadcastInDim S2359296x1 ![0] bcast_S2359296_S2359296x1_0 : (⟨S2359296, .i32⟩ : BufTy).Contents (Elt F) → (⟨S2359296x1, .i32⟩ : BufTy).Contents (Elt F)),
    ternary main_v26 main_v27 main_v25 main_v28 ((fun x i u => Host.scatterAdd scatter_S1536x64_S2359296x1_S2359296x64_1_0_0_1 x i u) : (⟨S1536x64, .f32⟩ : BufTy).Contents (Elt F) → (⟨S2359296x1, .i32⟩ : BufTy).Contents (Elt F) → (⟨S2359296x64, .f32⟩ : BufTy).Contents (Elt F) → (⟨S1536x64, .f32⟩ : BufTy).Contents (Elt F)),
    nullary main_cst_12 (constant S_ .f32 0x3F800000#32),
    unary main_cst_12 main_v29 (broadcastInDim S2359296 ![] bcast_S_S2359296 : (⟨S_, .f32⟩ : BufTy).Contents (Elt F) → (⟨S2359296, .f32⟩ : BufTy).Contents (Elt F)),
    nullary main_cst_13 (constant S_ .f32 0x00000000#32),
    unary main_cst_13 main_v30 (broadcastInDim S1536 ![] bcast_S_S1536 : (⟨S_, .f32⟩ : BufTy).Contents (Elt F) → (⟨S1536, .f32⟩ : BufTy).Contents (Elt F)),
    unary main_v24 main_v31 (broadcastInDim S2359296x1 ![0] bcast_S2359296_S2359296x1_0 : (⟨S2359296, .i32⟩ : BufTy).Contents (Elt F) → (⟨S2359296x1, .i32⟩ : BufTy).Contents (Elt F)),
    ternary main_v30 main_v31 main_v29 main_v32 ((fun x i u => Host.scatterAdd scatter_S1536_S2359296x1_S2359296_n_0_0_1 x i u) : (⟨S1536, .f32⟩ : BufTy).Contents (Elt F) → (⟨S2359296x1, .i32⟩ : BufTy).Contents (Elt F) → (⟨S2359296, .f32⟩ : BufTy).Contents (Elt F) → (⟨S1536, .f32⟩ : BufTy).Contents (Elt F)),
    nullary main_cst_14 (constant S_ .f32 0x3F800000#32),
    unary main_cst_14 main_call10_v0 (id : (⟨S_, .f32⟩ : BufTy).Contents (Elt F) → (⟨S_, .f32⟩ : BufTy).Contents (Elt F)),
    unary main_call10_v0 main_call10_v1 ((broadcastInDim S1536 ![] bcast_S_S1536) : (⟨S_, .f32⟩ : BufTy).Contents (Elt F) → (⟨S1536, .f32⟩ : BufTy).Contents (Elt F)),
    binary main_call10_v1 main_v32 main_v33 (maximumf : (⟨S1536, .f32⟩ : BufTy).Contents (Elt F) → (⟨S1536, .f32⟩ : BufTy).Contents (Elt F) → (⟨S1536, .f32⟩ : BufTy).Contents (Elt F)),
    unary main_v33 main_v34 (broadcastInDim S1536x1 ![0] bcast_S1536_S1536x1_0 : (⟨S1536, .f32⟩ : BufTy).Contents (Elt F) → (⟨S1536x1, .f32⟩ : BufTy).Contents (Elt F)),
    unary main_v34 main_v35 (broadcastInDim S1536x64 ![0, 1] bcast_S1536x1_S1536x64_0_1 : (⟨S1536x1, .f32⟩ : BufTy).Contents (Elt F) → (⟨S1536x64, .f32⟩ : BufTy).Contents (Elt F)),
    binary main_v28 main_v35 main_v36 (Host.divf : (⟨S1536x64, .f32⟩ : BufTy).Contents (Elt F) → (⟨S1536x64, .f32⟩ : BufTy).Contents (Elt F) → (⟨S1536x64, .f32⟩ : BufTy).Contents (Elt F)),
    binary main_v36 main_arg2 main_v37 ((fun l r => Host.dotGeneral dot_S1536x64_S64x64_S1536x64_1_0_0_1_n_n none l r) : (⟨S1536x64, .f32⟩ : BufTy).Contents (Elt F) → (⟨S64x64, .f32⟩ : BufTy).Contents (Elt F) → (⟨S1536x64, .f32⟩ : BufTy).Contents (Elt F)),
    unary main_arg3 main_v38 (broadcastInDim S1x64 ![1] bcast_S64_S1x64_1 : (⟨S64, .f32⟩ : BufTy).Contents (Elt F) → (⟨S1x64, .f32⟩ : BufTy).Contents (Elt F)),
    unary main_v38 main_v39 (broadcastInDim S1536x64 ![0, 1] bcast_S1x64_S1536x64_0_1 : (⟨S1x64, .f32⟩ : BufTy).Contents (Elt F) → (⟨S1536x64, .f32⟩ : BufTy).Contents (Elt F)),
    binary main_v37 main_v39 main_v40 (addf : (⟨S1536x64, .f32⟩ : BufTy).Contents (Elt F) → (⟨S1536x64, .f32⟩ : BufTy).Contents (Elt F) → (⟨S1536x64, .f32⟩ : BufTy).Contents (Elt F)),
    binary main_arg0 main_arg4 main_v41 ((fun l r => Host.dotGeneral dot_S1536x64_S64x64_S1536x64_1_0_0_1_n_n none l r) : (⟨S1536x64, .f32⟩ : BufTy).Contents (Elt F) → (⟨S64x64, .f32⟩ : BufTy).Contents (Elt F) → (⟨S1536x64, .f32⟩ : BufTy).Contents (Elt F)),
    binary main_v40 main_v41 main_v42 (addf : (⟨S1536x64, .f32⟩ : BufTy).Contents (Elt F) → (⟨S1536x64, .f32⟩ : BufTy).Contents (Elt F) → (⟨S1536x64, .f32⟩ : BufTy).Contents (Elt F)) ]

/-- The operations 167 … 215 of 264: the rectifier and the second layer. -/
abbrev W8 : List (HloOp τ sig (Elt F)) :=
  [ nullary main_call11_cst (constant S_ .f32 0x00000000#32),
    unary main_call11_cst main_call11_v0 ((broadcastInDim S1536x64 ![] bcast_S_S1536x64) : (⟨S_, .f32⟩ : BufTy).Contents (Elt F) → (⟨S1536x64, .f32⟩ : BufTy).Contents (Elt F)),
    binary main_v42 main_call11_v0 main_v43 (maximumf : (⟨S1536x64, .f32⟩ : BufTy).Contents (Elt F) → (⟨S1536x64, .f32⟩ : BufTy).Contents (Elt F) → (⟨S1536x64, .f32⟩ : BufTy).Contents (Elt F)),
    nullary main_call12_c (constantI S_ 32 0#32),
    unary main_call12_c main_call12_v0 ((broadcastInDim S2359296 ![] bcast_S_S2359296) : (⟨S_, .i32⟩ : BufTy).Contents (Elt F) → (⟨S2359296, .i32⟩ : BufTy).Contents (Elt F)),
    binary main_v23 main_call12_v0 main_call12_v1 ((cmpi .slt) : (⟨S2359296, .i32⟩ : BufTy).Contents (Elt F) → (⟨S2359296, .i32⟩ : BufTy).Contents (Elt F) → (⟨S2359296, .i1⟩ : BufTy).Contents (Elt F)),
    nullary main_call12_c_0 (constantI S_ 32 1536#32),
    unary main_call12_c_0 main_call12_v2 ((broadcastInDim S2359296 ![] bcast_S_S2359296) : (⟨S_, .i32⟩ : BufTy).Contents (Elt F) → (⟨S2359296, .i32⟩ : BufTy).Contents (Elt F)),
    binary main_v23 main_call12_v2 main_call12_v3 (addi : (⟨S2359296, .i32⟩ : BufTy).Contents (Elt F) → (⟨S2359296, .i32⟩ : BufTy).Contents (Elt F) → (⟨S2359296, .i32⟩ : BufTy).Contents (Elt F)),
    ternary main_call12_v1 main_call12_v3 main_v23 main_call12_v4 (select : (⟨S2359296, .i1⟩ : BufTy).Contents (Elt F) → (⟨S2359296, .i32⟩ : BufTy).Contents (Elt F) → (⟨S2359296, .i32⟩ : BufTy).Contents (Elt F) → (⟨S2359296, .i32⟩ : BufTy).Contents (Elt F)),
    unary main_call12_v4 main_call12_v5 ((broadcastInDim S2359296x1 ![0] bcast_S2359296_S2359296x1_0) : (⟨S2359296, .i32⟩ : BufTy).Contents (Elt F) → (⟨S2359296x1, .i32⟩ : BufTy).Contents (Elt F)),
    nullary main_call12_c_1 (constantI S1 32 1535#32),
    nullary main_call12_c_2 (constantI S_ 32 0#32),
    unary main_call12_c_2 main_call12_v6 ((broadcastInDim S2359296x1 ![] bcast_S_S2359296x1) : (⟨S_, .i32⟩ : BufTy).Contents (Elt F) → (⟨S2359296x1, .i32⟩ : BufTy).Contents (Elt F)),
    binary main_call12_v5 main_call12_v6 main_call12_v7 ((cmpi .sge) : (⟨S2359296x1, .i32⟩ : BufTy).Contents (Elt F) → (⟨S2359296x1, .i32⟩ : BufTy).Contents (Elt F) → (⟨S2359296x1, .i1⟩ : BufTy).Contents (Elt F)),
    unary main_call12_c_1 main_call12_v8 ((broadcastInDim S1x1 ![1] bcast_S1_S1x1_1) : (⟨S1, .i32⟩ : BufTy).Contents (Elt F) → (⟨S1x1, .i32⟩ : BufTy).Contents (Elt F)),
    unary main_call12_v8 main_call12_v9 ((broadcastInDim S2359296x1 ![0, 1] bcast_S1x1_S2359296x1_0_1) : (⟨S1x1, .i32⟩ : BufTy).Contents (Elt F) → (⟨S2359296x1, .i32⟩ : BufTy).Contents (Elt F)),
    binary main_call12_v5 main_call12_v9 main_call12_v10 ((cmpi .sle) : (⟨S2359296x1, .i32⟩ : BufTy).Contents (Elt F) → (⟨S2359296x1, .i32⟩ : BufTy).Contents (Elt F) → (⟨S2359296x1, .i1⟩ : BufTy).Contents (Elt F)),
    binary main_call12_v7 main_call12_v10 main_call12_v11 (andi : (⟨S2359296x1, .i1⟩ : BufTy).Contents (Elt F) → (⟨S2359296x1, .i1⟩ : BufTy).Contents (Elt F) → (⟨S2359296x1, .i1⟩ : BufTy).Contents (Elt F)),
    nullary main_call12_c_3 (constantI S_ 1 1#1),
    binary main_call12_v11 main_call12_c_3 main_call12_v12 ((fun x v => Host.reduce IntOp.andi x v reducesTo_S2359296x1_S2359296_d1 h_S_) : (⟨S2359296x1, .i1⟩ : BufTy).Contents (Elt F) → (⟨S_, .i1⟩ : BufTy).Contents (Elt F) → (⟨S2359296, .i1⟩ : BufTy).Contents (Elt F)),
    binary main_v43 main_call12_v5 main_call12_v13 ((fun x i => Host.gather gather_S1536x64_S2359296x1_S2359296x64_1_0_n_n_0_1_164 x i) : (⟨S1536x64, .f32⟩ : BufTy).Contents (Elt F) → (⟨S2359296x1, .i32⟩ : BufTy).Contents (Elt F) → (⟨S2359296x64, .f32⟩ : BufTy).Contents (Elt F)),
    unary main_call12_v12 main_call12_v14 ((broadcastInDim S2359296x64 ![0] bcast_S2359296_S2359296x64_0) : (⟨S2359296, .i1⟩ : BufTy).Contents (Elt F) → (⟨S2359296x64, .i1⟩ : BufTy).Contents (Elt F)),
    nullary main_call12_cst (constant S_ .f32 0x7FC00000#32),
    unary main_call12_cst main_call12_v15 ((broadcastInDim S2359296x64 ![] bcast_S_S2359296x64) : (⟨S_, .f32⟩ : BufTy).Contents (Elt F) → (⟨S2359296x64, .f32⟩ : BufTy).Contents (Elt F)),
    ternary main_call12_v14 main_call12_v13 main_call12_v15 main_v44 (select : (⟨S2359296x64, .i1⟩ : BufTy).Contents (Elt F) → (⟨S2359296x64, .f32⟩ : BufTy).Contents (Elt F) → (⟨S2359296x64, .f32⟩ : BufTy).Contents (Elt F) → (⟨S2359296x64, .f32⟩ : BufTy).Contents (Elt F)),
    nullary main_cst_15 (constant S_ .f32 0x00000000#32),
    unary main_cst_15 main_v45 (broadcastInDim S1536x64 ![] bcast_S_S1536x64 : (⟨S_, .f32⟩ : BufTy).Contents (Elt F) → (⟨S1536x64, .f32⟩ : BufTy).Contents (Elt F)),
    unary main_v24 main_v46 (broadcastInDim S2359296x1 ![0] bcast_S2359296_S2359296x1_0 : (⟨S2359296, .i32⟩ : BufTy).Contents (Elt F) → (⟨S2359296x1, .i32⟩ : BufTy).Contents (Elt F)),
    ternary main_v45 main_v46 main_v44 main_v47 ((fun x i u => Host.scatterAdd scatter_S1536x64_S2359296x1_S2359296x64_1_0_0_1 x i u) : (⟨S1536x64, .f32⟩ : BufTy).Contents (Elt F) → (⟨S2359296x1, .i32⟩ : BufTy).Contents (Elt F) → (⟨S2359296x64, .f32⟩ : BufTy).Contents (Elt F) → (⟨S1536x64, .f32⟩ : BufTy).Contents (Elt F)),
    nullary main_cst_16 (constant S_ .f32 0x3F800000#32),
    unary main_cst_16 main_v48 (broadcastInDim S2359296 ![] bcast_S_S2359296 : (⟨S_, .f32⟩ : BufTy).Contents (Elt F) → (⟨S2359296, .f32⟩ : BufTy).Contents (Elt F)),
    nullary main_cst_17 (constant S_ .f32 0x00000000#32),
    unary main_cst_17 main_v49 (broadcastInDim S1536 ![] bcast_S_S1536 : (⟨S_, .f32⟩ : BufTy).Contents (Elt F) → (⟨S1536, .f32⟩ : BufTy).Contents (Elt F)),
    unary main_v24 main_v50 (broadcastInDim S2359296x1 ![0] bcast_S2359296_S2359296x1_0 : (⟨S2359296, .i32⟩ : BufTy).Contents (Elt F) → (⟨S2359296x1, .i32⟩ : BufTy).Contents (Elt F)),
    ternary main_v49 main_v50 main_v48 main_v51 ((fun x i u => Host.scatterAdd scatter_S1536_S2359296x1_S2359296_n_0_0_1 x i u) : (⟨S1536, .f32⟩ : BufTy).Contents (Elt F) → (⟨S2359296x1, .i32⟩ : BufTy).Contents (Elt F) → (⟨S2359296, .f32⟩ : BufTy).Contents (Elt F) → (⟨S1536, .f32⟩ : BufTy).Contents (Elt F)),
    nullary main_cst_18 (constant S_ .f32 0x3F800000#32),
    unary main_cst_18 main_call13_v0 (id : (⟨S_, .f32⟩ : BufTy).Contents (Elt F) → (⟨S_, .f32⟩ : BufTy).Contents (Elt F)),
    unary main_call13_v0 main_call13_v1 ((broadcastInDim S1536 ![] bcast_S_S1536) : (⟨S_, .f32⟩ : BufTy).Contents (Elt F) → (⟨S1536, .f32⟩ : BufTy).Contents (Elt F)),
    binary main_call13_v1 main_v51 main_v52 (maximumf : (⟨S1536, .f32⟩ : BufTy).Contents (Elt F) → (⟨S1536, .f32⟩ : BufTy).Contents (Elt F) → (⟨S1536, .f32⟩ : BufTy).Contents (Elt F)),
    unary main_v52 main_v53 (broadcastInDim S1536x1 ![0] bcast_S1536_S1536x1_0 : (⟨S1536, .f32⟩ : BufTy).Contents (Elt F) → (⟨S1536x1, .f32⟩ : BufTy).Contents (Elt F)),
    unary main_v53 main_v54 (broadcastInDim S1536x64 ![0, 1] bcast_S1536x1_S1536x64_0_1 : (⟨S1536x1, .f32⟩ : BufTy).Contents (Elt F) → (⟨S1536x64, .f32⟩ : BufTy).Contents (Elt F)),
    binary main_v47 main_v54 main_v55 (Host.divf : (⟨S1536x64, .f32⟩ : BufTy).Contents (Elt F) → (⟨S1536x64, .f32⟩ : BufTy).Contents (Elt F) → (⟨S1536x64, .f32⟩ : BufTy).Contents (Elt F)),
    binary main_v55 main_arg5 main_v56 ((fun l r => Host.dotGeneral dot_S1536x64_S64x64_S1536x64_1_0_0_1_n_n none l r) : (⟨S1536x64, .f32⟩ : BufTy).Contents (Elt F) → (⟨S64x64, .f32⟩ : BufTy).Contents (Elt F) → (⟨S1536x64, .f32⟩ : BufTy).Contents (Elt F)),
    unary main_arg6 main_v57 (broadcastInDim S1x64 ![1] bcast_S64_S1x64_1 : (⟨S64, .f32⟩ : BufTy).Contents (Elt F) → (⟨S1x64, .f32⟩ : BufTy).Contents (Elt F)),
    unary main_v57 main_v58 (broadcastInDim S1536x64 ![0, 1] bcast_S1x64_S1536x64_0_1 : (⟨S1x64, .f32⟩ : BufTy).Contents (Elt F) → (⟨S1536x64, .f32⟩ : BufTy).Contents (Elt F)),
    binary main_v56 main_v58 main_v59 (addf : (⟨S1536x64, .f32⟩ : BufTy).Contents (Elt F) → (⟨S1536x64, .f32⟩ : BufTy).Contents (Elt F) → (⟨S1536x64, .f32⟩ : BufTy).Contents (Elt F)),
    binary main_v43 main_arg7 main_v60 ((fun l r => Host.dotGeneral dot_S1536x64_S64x64_S1536x64_1_0_0_1_n_n none l r) : (⟨S1536x64, .f32⟩ : BufTy).Contents (Elt F) → (⟨S64x64, .f32⟩ : BufTy).Contents (Elt F) → (⟨S1536x64, .f32⟩ : BufTy).Contents (Elt F)),
    binary main_v59 main_v60 main_v61 (addf : (⟨S1536x64, .f32⟩ : BufTy).Contents (Elt F) → (⟨S1536x64, .f32⟩ : BufTy).Contents (Elt F) → (⟨S1536x64, .f32⟩ : BufTy).Contents (Elt F)) ]

/-- The operations 216 … 264 of 264: the rectifier and the third layer. -/
abbrev W9 : List (HloOp τ sig (Elt F)) :=
  [ nullary main_call14_cst (constant S_ .f32 0x00000000#32),
    unary main_call14_cst main_call14_v0 ((broadcastInDim S1536x64 ![] bcast_S_S1536x64) : (⟨S_, .f32⟩ : BufTy).Contents (Elt F) → (⟨S1536x64, .f32⟩ : BufTy).Contents (Elt F)),
    binary main_v61 main_call14_v0 main_v62 (maximumf : (⟨S1536x64, .f32⟩ : BufTy).Contents (Elt F) → (⟨S1536x64, .f32⟩ : BufTy).Contents (Elt F) → (⟨S1536x64, .f32⟩ : BufTy).Contents (Elt F)),
    nullary main_call15_c (constantI S_ 32 0#32),
    unary main_call15_c main_call15_v0 ((broadcastInDim S2359296 ![] bcast_S_S2359296) : (⟨S_, .i32⟩ : BufTy).Contents (Elt F) → (⟨S2359296, .i32⟩ : BufTy).Contents (Elt F)),
    binary main_v23 main_call15_v0 main_call15_v1 ((cmpi .slt) : (⟨S2359296, .i32⟩ : BufTy).Contents (Elt F) → (⟨S2359296, .i32⟩ : BufTy).Contents (Elt F) → (⟨S2359296, .i1⟩ : BufTy).Contents (Elt F)),
    nullary main_call15_c_0 (constantI S_ 32 1536#32),
    unary main_call15_c_0 main_call15_v2 ((broadcastInDim S2359296 ![] bcast_S_S2359296) : (⟨S_, .i32⟩ : BufTy).Contents (Elt F) → (⟨S2359296, .i32⟩ : BufTy).Contents (Elt F)),
    binary main_v23 main_call15_v2 main_call15_v3 (addi : (⟨S2359296, .i32⟩ : BufTy).Contents (Elt F) → (⟨S2359296, .i32⟩ : BufTy).Contents (Elt F) → (⟨S2359296, .i32⟩ : BufTy).Contents (Elt F)),
    ternary main_call15_v1 main_call15_v3 main_v23 main_call15_v4 (select : (⟨S2359296, .i1⟩ : BufTy).Contents (Elt F) → (⟨S2359296, .i32⟩ : BufTy).Contents (Elt F) → (⟨S2359296, .i32⟩ : BufTy).Contents (Elt F) → (⟨S2359296, .i32⟩ : BufTy).Contents (Elt F)),
    unary main_call15_v4 main_call15_v5 ((broadcastInDim S2359296x1 ![0] bcast_S2359296_S2359296x1_0) : (⟨S2359296, .i32⟩ : BufTy).Contents (Elt F) → (⟨S2359296x1, .i32⟩ : BufTy).Contents (Elt F)),
    nullary main_call15_c_1 (constantI S1 32 1535#32),
    nullary main_call15_c_2 (constantI S_ 32 0#32),
    unary main_call15_c_2 main_call15_v6 ((broadcastInDim S2359296x1 ![] bcast_S_S2359296x1) : (⟨S_, .i32⟩ : BufTy).Contents (Elt F) → (⟨S2359296x1, .i32⟩ : BufTy).Contents (Elt F)),
    binary main_call15_v5 main_call15_v6 main_call15_v7 ((cmpi .sge) : (⟨S2359296x1, .i32⟩ : BufTy).Contents (Elt F) → (⟨S2359296x1, .i32⟩ : BufTy).Contents (Elt F) → (⟨S2359296x1, .i1⟩ : BufTy).Contents (Elt F)),
    unary main_call15_c_1 main_call15_v8 ((broadcastInDim S1x1 ![1] bcast_S1_S1x1_1) : (⟨S1, .i32⟩ : BufTy).Contents (Elt F) → (⟨S1x1, .i32⟩ : BufTy).Contents (Elt F)),
    unary main_call15_v8 main_call15_v9 ((broadcastInDim S2359296x1 ![0, 1] bcast_S1x1_S2359296x1_0_1) : (⟨S1x1, .i32⟩ : BufTy).Contents (Elt F) → (⟨S2359296x1, .i32⟩ : BufTy).Contents (Elt F)),
    binary main_call15_v5 main_call15_v9 main_call15_v10 ((cmpi .sle) : (⟨S2359296x1, .i32⟩ : BufTy).Contents (Elt F) → (⟨S2359296x1, .i32⟩ : BufTy).Contents (Elt F) → (⟨S2359296x1, .i1⟩ : BufTy).Contents (Elt F)),
    binary main_call15_v7 main_call15_v10 main_call15_v11 (andi : (⟨S2359296x1, .i1⟩ : BufTy).Contents (Elt F) → (⟨S2359296x1, .i1⟩ : BufTy).Contents (Elt F) → (⟨S2359296x1, .i1⟩ : BufTy).Contents (Elt F)),
    nullary main_call15_c_3 (constantI S_ 1 1#1),
    binary main_call15_v11 main_call15_c_3 main_call15_v12 ((fun x v => Host.reduce IntOp.andi x v reducesTo_S2359296x1_S2359296_d1 h_S_) : (⟨S2359296x1, .i1⟩ : BufTy).Contents (Elt F) → (⟨S_, .i1⟩ : BufTy).Contents (Elt F) → (⟨S2359296, .i1⟩ : BufTy).Contents (Elt F)),
    binary main_v62 main_call15_v5 main_call15_v13 ((fun x i => Host.gather gather_S1536x64_S2359296x1_S2359296x64_1_0_n_n_0_1_164 x i) : (⟨S1536x64, .f32⟩ : BufTy).Contents (Elt F) → (⟨S2359296x1, .i32⟩ : BufTy).Contents (Elt F) → (⟨S2359296x64, .f32⟩ : BufTy).Contents (Elt F)),
    unary main_call15_v12 main_call15_v14 ((broadcastInDim S2359296x64 ![0] bcast_S2359296_S2359296x64_0) : (⟨S2359296, .i1⟩ : BufTy).Contents (Elt F) → (⟨S2359296x64, .i1⟩ : BufTy).Contents (Elt F)),
    nullary main_call15_cst (constant S_ .f32 0x7FC00000#32),
    unary main_call15_cst main_call15_v15 ((broadcastInDim S2359296x64 ![] bcast_S_S2359296x64) : (⟨S_, .f32⟩ : BufTy).Contents (Elt F) → (⟨S2359296x64, .f32⟩ : BufTy).Contents (Elt F)),
    ternary main_call15_v14 main_call15_v13 main_call15_v15 main_v63 (select : (⟨S2359296x64, .i1⟩ : BufTy).Contents (Elt F) → (⟨S2359296x64, .f32⟩ : BufTy).Contents (Elt F) → (⟨S2359296x64, .f32⟩ : BufTy).Contents (Elt F) → (⟨S2359296x64, .f32⟩ : BufTy).Contents (Elt F)),
    nullary main_cst_19 (constant S_ .f32 0x00000000#32),
    unary main_cst_19 main_v64 (broadcastInDim S1536x64 ![] bcast_S_S1536x64 : (⟨S_, .f32⟩ : BufTy).Contents (Elt F) → (⟨S1536x64, .f32⟩ : BufTy).Contents (Elt F)),
    unary main_v24 main_v65 (broadcastInDim S2359296x1 ![0] bcast_S2359296_S2359296x1_0 : (⟨S2359296, .i32⟩ : BufTy).Contents (Elt F) → (⟨S2359296x1, .i32⟩ : BufTy).Contents (Elt F)),
    ternary main_v64 main_v65 main_v63 main_v66 ((fun x i u => Host.scatterAdd scatter_S1536x64_S2359296x1_S2359296x64_1_0_0_1 x i u) : (⟨S1536x64, .f32⟩ : BufTy).Contents (Elt F) → (⟨S2359296x1, .i32⟩ : BufTy).Contents (Elt F) → (⟨S2359296x64, .f32⟩ : BufTy).Contents (Elt F) → (⟨S1536x64, .f32⟩ : BufTy).Contents (Elt F)),
    nullary main_cst_20 (constant S_ .f32 0x3F800000#32),
    unary main_cst_20 main_v67 (broadcastInDim S2359296 ![] bcast_S_S2359296 : (⟨S_, .f32⟩ : BufTy).Contents (Elt F) → (⟨S2359296, .f32⟩ : BufTy).Contents (Elt F)),
    nullary main_cst_21 (constant S_ .f32 0x00000000#32),
    unary main_cst_21 main_v68 (broadcastInDim S1536 ![] bcast_S_S1536 : (⟨S_, .f32⟩ : BufTy).Contents (Elt F) → (⟨S1536, .f32⟩ : BufTy).Contents (Elt F)),
    unary main_v24 main_v69 (broadcastInDim S2359296x1 ![0] bcast_S2359296_S2359296x1_0 : (⟨S2359296, .i32⟩ : BufTy).Contents (Elt F) → (⟨S2359296x1, .i32⟩ : BufTy).Contents (Elt F)),
    ternary main_v68 main_v69 main_v67 main_v70 ((fun x i u => Host.scatterAdd scatter_S1536_S2359296x1_S2359296_n_0_0_1 x i u) : (⟨S1536, .f32⟩ : BufTy).Contents (Elt F) → (⟨S2359296x1, .i32⟩ : BufTy).Contents (Elt F) → (⟨S2359296, .f32⟩ : BufTy).Contents (Elt F) → (⟨S1536, .f32⟩ : BufTy).Contents (Elt F)),
    nullary main_cst_22 (constant S_ .f32 0x3F800000#32),
    unary main_cst_22 main_call16_v0 (id : (⟨S_, .f32⟩ : BufTy).Contents (Elt F) → (⟨S_, .f32⟩ : BufTy).Contents (Elt F)),
    unary main_call16_v0 main_call16_v1 ((broadcastInDim S1536 ![] bcast_S_S1536) : (⟨S_, .f32⟩ : BufTy).Contents (Elt F) → (⟨S1536, .f32⟩ : BufTy).Contents (Elt F)),
    binary main_call16_v1 main_v70 main_v71 (maximumf : (⟨S1536, .f32⟩ : BufTy).Contents (Elt F) → (⟨S1536, .f32⟩ : BufTy).Contents (Elt F) → (⟨S1536, .f32⟩ : BufTy).Contents (Elt F)),
    unary main_v71 main_v72 (broadcastInDim S1536x1 ![0] bcast_S1536_S1536x1_0 : (⟨S1536, .f32⟩ : BufTy).Contents (Elt F) → (⟨S1536x1, .f32⟩ : BufTy).Contents (Elt F)),
    unary main_v72 main_v73 (broadcastInDim S1536x64 ![0, 1] bcast_S1536x1_S1536x64_0_1 : (⟨S1536x1, .f32⟩ : BufTy).Contents (Elt F) → (⟨S1536x64, .f32⟩ : BufTy).Contents (Elt F)),
    binary main_v66 main_v73 main_v74 (Host.divf : (⟨S1536x64, .f32⟩ : BufTy).Contents (Elt F) → (⟨S1536x64, .f32⟩ : BufTy).Contents (Elt F) → (⟨S1536x64, .f32⟩ : BufTy).Contents (Elt F)),
    binary main_v74 main_arg8 main_v75 ((fun l r => Host.dotGeneral dot_S1536x64_S64x64_S1536x64_1_0_0_1_n_n none l r) : (⟨S1536x64, .f32⟩ : BufTy).Contents (Elt F) → (⟨S64x64, .f32⟩ : BufTy).Contents (Elt F) → (⟨S1536x64, .f32⟩ : BufTy).Contents (Elt F)),
    unary main_arg9 main_v76 (broadcastInDim S1x64 ![1] bcast_S64_S1x64_1 : (⟨S64, .f32⟩ : BufTy).Contents (Elt F) → (⟨S1x64, .f32⟩ : BufTy).Contents (Elt F)),
    unary main_v76 main_v77 (broadcastInDim S1536x64 ![0, 1] bcast_S1x64_S1536x64_0_1 : (⟨S1x64, .f32⟩ : BufTy).Contents (Elt F) → (⟨S1536x64, .f32⟩ : BufTy).Contents (Elt F)),
    binary main_v75 main_v77 main_v78 (addf : (⟨S1536x64, .f32⟩ : BufTy).Contents (Elt F) → (⟨S1536x64, .f32⟩ : BufTy).Contents (Elt F) → (⟨S1536x64, .f32⟩ : BufTy).Contents (Elt F)),
    binary main_v62 main_arg10 main_v79 ((fun l r => Host.dotGeneral dot_S1536x64_S64x64_S1536x64_1_0_0_1_n_n none l r) : (⟨S1536x64, .f32⟩ : BufTy).Contents (Elt F) → (⟨S64x64, .f32⟩ : BufTy).Contents (Elt F) → (⟨S1536x64, .f32⟩ : BufTy).Contents (Elt F)),
    binary main_v78 main_v79 main_v80 (addf : (⟨S1536x64, .f32⟩ : BufTy).Contents (Elt F) → (⟨S1536x64, .f32⟩ : BufTy).Contents (Elt F) → (⟨S1536x64, .f32⟩ : BufTy).Contents (Elt F)) ]

/-- The operations of the program's first part, in order. -/
abbrev opsA : List (HloOp τ sig (Elt F)) := W1 ++ (W2 ++ (W3 ++ (W4 ++ (W5 ++ (W6 ++ W7)))))
/-- The operations of the program's second part, in order. -/
abbrev opsB : List (HloOp τ sig (Elt F)) := W8 ++ W9
/-- All the program's operations, in order. -/
abbrev ops : List (HloOp τ sig (Elt F)) := opsA ++ opsB

set_option maxRecDepth 8192 in
set_option maxHeartbeats 4000000 in
theorem part0_eq (c : Dev nD) : main_part0 (F := F) c = seq opsA := rfl
set_option maxRecDepth 8192 in
set_option maxHeartbeats 4000000 in
theorem part1_eq (c : Dev nD) : main_part1 (F := F) c = seq opsB := rfl
set_option maxRecDepth 8192 in
theorem main_eq (c : Dev nD) : main (F := F) c = seq ops := by
  simp only [ops, seq_append, ← part0_eq c, ← part1_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem W1_sub : (W1 : List (HloOp τ sig (Elt F))).Forall fun op => op.bufs ⊆ tcRefs τ sig :=
  ⟨nullary_bufs_sub .., unary_bufs_sub .., binary_bufs_sub .., reshape_bufs_sub .., unary_bufs_sub .., nullary_bufs_sub .., unary_bufs_sub .., binary_bufs_sub ..⟩
set_option maxRecDepth 8192 in
theorem W2_sub : (W2 : List (HloOp τ sig (Elt F))).Forall fun op => op.bufs ⊆ tcRefs τ sig :=
  ⟨nullary_bufs_sub .., unary_bufs_sub .., nullary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub ..⟩
set_option maxRecDepth 8192 in
theorem W3_sub : (W3 : List (HloOp τ sig (Elt F))).Forall fun op => op.bufs ⊆ tcRefs τ sig :=
  ⟨nullary_bufs_sub .., unary_bufs_sub .., binary_bufs_sub ..⟩
set_option maxRecDepth 8192 in
theorem W4_sub : (W4 : List (HloOp τ sig (Elt F))).Forall fun op => op.bufs ⊆ tcRefs τ sig :=
  ⟨nullary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩
set_option maxRecDepth 8192 in
theorem W5_sub : (W5 : List (HloOp τ sig (Elt F))).Forall fun op => op.bufs ⊆ tcRefs τ sig :=
  ⟨nullary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩
set_option maxRecDepth 8192 in
theorem W6_sub : (W6 : List (HloOp τ sig (Elt F))).Forall fun op => op.bufs ⊆ tcRefs τ sig :=
  ⟨nullary_bufs_sub .., unary_bufs_sub .., nullary_bufs_sub .., binary_bufs_sub .., unary_bufs_sub .., binary_bufs_sub .., nullary_bufs_sub .., unary_bufs_sub .., unary_bufs_sub .., ternary_bufs_sub .., nullary_bufs_sub .., unary_bufs_sub .., unary_bufs_sub .., ternary_bufs_sub ..⟩
set_option maxRecDepth 8192 in
theorem W7_sub : (W7 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., unary_bufs_sub .., binary_bufs_sub .., unary_bufs_sub .., unary_bufs_sub .., binary_bufs_sub .., binary_bufs_sub .., unary_bufs_sub .., unary_bufs_sub .., binary_bufs_sub .., binary_bufs_sub .., binary_bufs_sub ..⟩
set_option maxRecDepth 8192 in
theorem W8_sub : (W8 : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., unary_bufs_sub .., binary_bufs_sub .., unary_bufs_sub .., unary_bufs_sub .., binary_bufs_sub .., binary_bufs_sub .., unary_bufs_sub .., unary_bufs_sub .., binary_bufs_sub .., binary_bufs_sub .., binary_bufs_sub ..⟩
set_option maxRecDepth 8192 in
theorem W9_sub : (W9 : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., unary_bufs_sub .., binary_bufs_sub .., unary_bufs_sub .., unary_bufs_sub .., binary_bufs_sub .., binary_bufs_sub .., unary_bufs_sub .., unary_bufs_sub .., binary_bufs_sub .., binary_bufs_sub .., binary_bufs_sub ..⟩
theorem ops_sub : (ops : List (HloOp τ sig (Elt F))).Forall fun op => op.bufs ⊆ tcRefs τ sig :=
  List.forall_iff_forall_mem.mpr fun op h => by
    simp only [ops, opsA, opsB, List.mem_append] at h
    rcases h with (h | h | h | h | h | h | h) | h | h
    exacts [List.forall_iff_forall_mem.mp W1_sub op h, List.forall_iff_forall_mem.mp W2_sub op h, List.forall_iff_forall_mem.mp W3_sub op h, List.forall_iff_forall_mem.mp W4_sub op h, List.forall_iff_forall_mem.mp W5_sub op h, List.forall_iff_forall_mem.mp W6_sub op h, List.forall_iff_forall_mem.mp W7_sub op h, List.forall_iff_forall_mem.mp W8_sub op h, List.forall_iff_forall_mem.mp W9_sub op h]

/-- The device's buffer contents before the first list. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl
theorem val0_main_arg1 (V0 : Valuation τ sig (Elt F)) : val0 V0 (no_index (Proc.devRef .tc main_arg1)) = V0 (Proc.devRef .tc main_arg1) := rfl
theorem val0_main_arg2 (V0 : Valuation τ sig (Elt F)) : val0 V0 (no_index (Proc.devRef .tc main_arg2)) = V0 (Proc.devRef .tc main_arg2) := rfl
theorem val0_main_arg3 (V0 : Valuation τ sig (Elt F)) : val0 V0 (no_index (Proc.devRef .tc main_arg3)) = V0 (Proc.devRef .tc main_arg3) := rfl
theorem val0_main_arg4 (V0 : Valuation τ sig (Elt F)) : val0 V0 (no_index (Proc.devRef .tc main_arg4)) = V0 (Proc.devRef .tc main_arg4) := rfl
theorem val0_main_arg5 (V0 : Valuation τ sig (Elt F)) : val0 V0 (no_index (Proc.devRef .tc main_arg5)) = V0 (Proc.devRef .tc main_arg5) := rfl
theorem val0_main_arg6 (V0 : Valuation τ sig (Elt F)) : val0 V0 (no_index (Proc.devRef .tc main_arg6)) = V0 (Proc.devRef .tc main_arg6) := rfl
theorem val0_main_arg7 (V0 : Valuation τ sig (Elt F)) : val0 V0 (no_index (Proc.devRef .tc main_arg7)) = V0 (Proc.devRef .tc main_arg7) := rfl
theorem val0_main_arg8 (V0 : Valuation τ sig (Elt F)) : val0 V0 (no_index (Proc.devRef .tc main_arg8)) = V0 (Proc.devRef .tc main_arg8) := rfl
theorem val0_main_arg9 (V0 : Valuation τ sig (Elt F)) : val0 V0 (no_index (Proc.devRef .tc main_arg9)) = V0 (Proc.devRef .tc main_arg9) := rfl
theorem val0_main_arg10 (V0 : Valuation τ sig (Elt F)) : val0 V0 (no_index (Proc.devRef .tc main_arg10)) = V0 (Proc.devRef .tc main_arg10) := rfl

/-- The device's buffer contents after the first 1 list. -/
def val1 (V0 : Valuation τ sig (Elt F)) : Valuation τ sig (Elt F) := after W1 (val0 V0)
/-- The buffers that the operations of `W1` write. -/
abbrev W1_W : List (Ref sig .tc) := [main_cst, main_v0, main_v1, main_call0_v0, main_call0_v1, main_call0_call0_c, main_call0_call0_v0, main_v2]
set_option maxRecDepth 8192 in
theorem W1_writes : (W1 : List (HloOp τ sig (Elt F))).Forall fun op => op.writes ⊆ (W1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that `W1` does not write keeps its contents through it. -/
theorem val1_keep (V0 : Valuation τ sig (Elt F)) (r : Ref sig .tc) (h : r ∉ W1_W) :
    val1 V0 (Proc.devRef .tc r) = val0 V0 (Proc.devRef .tc r) :=
  after_of_writes_sub W1 _ W1_writes h
set_option maxRecDepth 8192 in
theorem val1_main_v1 (V0 : Valuation τ sig (Elt F)) : val1 V0 (no_index (Proc.devRef .tc main_v1)) = Cert.RefSpec.mask (V0 (Proc.devRef .tc main_arg1)) := by
  unfold val1
  simp only [W1]
  after_results_simp
  simp only [val0_main_arg1] <;> rfl
set_option maxRecDepth 8192 in
theorem val1_main_v2 (V0 : Valuation τ sig (Elt F)) : val1 V0 (no_index (Proc.devRef .tc main_v2)) = Cert.RefSpec.csum (V0 (Proc.devRef .tc main_arg1)) := by
  unfold val1
  simp only [W1]
  after_results_simp
  simp only [val0_main_arg1] <;> rfl
theorem val1_main_arg0 (V0 : Valuation τ sig (Elt F)) : val1 V0 (no_index (Proc.devRef .tc main_arg0)) = V0 (Proc.devRef .tc main_arg0) :=
  (val1_keep V0 main_arg0 (by decide)).trans (val0_main_arg0 V0)
theorem val1_main_arg1 (V0 : Valuation τ sig (Elt F)) : val1 V0 (no_index (Proc.devRef .tc main_arg1)) = V0 (Proc.devRef .tc main_arg1) :=
  (val1_keep V0 main_arg1 (by decide)).trans (val0_main_arg1 V0)
theorem val1_main_arg2 (V0 : Valuation τ sig (Elt F)) : val1 V0 (no_index (Proc.devRef .tc main_arg2)) = V0 (Proc.devRef .tc main_arg2) :=
  (val1_keep V0 main_arg2 (by decide)).trans (val0_main_arg2 V0)
theorem val1_main_arg3 (V0 : Valuation τ sig (Elt F)) : val1 V0 (no_index (Proc.devRef .tc main_arg3)) = V0 (Proc.devRef .tc main_arg3) :=
  (val1_keep V0 main_arg3 (by decide)).trans (val0_main_arg3 V0)
theorem val1_main_arg4 (V0 : Valuation τ sig (Elt F)) : val1 V0 (no_index (Proc.devRef .tc main_arg4)) = V0 (Proc.devRef .tc main_arg4) :=
  (val1_keep V0 main_arg4 (by decide)).trans (val0_main_arg4 V0)
theorem val1_main_arg5 (V0 : Valuation τ sig (Elt F)) : val1 V0 (no_index (Proc.devRef .tc main_arg5)) = V0 (Proc.devRef .tc main_arg5) :=
  (val1_keep V0 main_arg5 (by decide)).trans (val0_main_arg5 V0)
theorem val1_main_arg6 (V0 : Valuation τ sig (Elt F)) : val1 V0 (no_index (Proc.devRef .tc main_arg6)) = V0 (Proc.devRef .tc main_arg6) :=
  (val1_keep V0 main_arg6 (by decide)).trans (val0_main_arg6 V0)
theorem val1_main_arg7 (V0 : Valuation τ sig (Elt F)) : val1 V0 (no_index (Proc.devRef .tc main_arg7)) = V0 (Proc.devRef .tc main_arg7) :=
  (val1_keep V0 main_arg7 (by decide)).trans (val0_main_arg7 V0)
theorem val1_main_arg8 (V0 : Valuation τ sig (Elt F)) : val1 V0 (no_index (Proc.devRef .tc main_arg8)) = V0 (Proc.devRef .tc main_arg8) :=
  (val1_keep V0 main_arg8 (by decide)).trans (val0_main_arg8 V0)
theorem val1_main_arg9 (V0 : Valuation τ sig (Elt F)) : val1 V0 (no_index (Proc.devRef .tc main_arg9)) = V0 (Proc.devRef .tc main_arg9) :=
  (val1_keep V0 main_arg9 (by decide)).trans (val0_main_arg9 V0)
theorem val1_main_arg10 (V0 : Valuation τ sig (Elt F)) : val1 V0 (no_index (Proc.devRef .tc main_arg10)) = V0 (Proc.devRef .tc main_arg10) :=
  (val1_keep V0 main_arg10 (by decide)).trans (val0_main_arg10 V0)

/-- The device's buffer contents after the first 2 lists. -/
def val2 (V0 : Valuation τ sig (Elt F)) : Valuation τ sig (Elt F) := after W2 (val1 V0)
/-- The buffers that the operations of `W2` write. -/
abbrev W2_W : List (Ref sig .tc) := [main_c, main_v3, main_c_0, main_call1_v0, main_call1_v1, main_v4, main_c_1, main_v5, main_v6, main_c_2, main_v7, main_v8, main_v9, main_v10, main_c_3, main_v11, main_v12]
set_option maxRecDepth 8192 in
theorem W2_writes : (W2 : List (HloOp τ sig (Elt F))).Forall fun op => op.writes ⊆ (W2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that `W2` does not write keeps its contents through it. -/
theorem val2_keep (V0 : Valuation τ sig (Elt F)) (r : Ref sig .tc) (h : r ∉ W2_W) :
    val2 V0 (Proc.devRef .tc r) = val1 V0 (Proc.devRef .tc r) :=
  after_of_writes_sub W2 _ W2_writes h
theorem val2_main_v1 (V0 : Valuation τ sig (Elt F)) : val2 V0 (no_index (Proc.devRef .tc main_v1)) = Cert.RefSpec.mask (V0 (Proc.devRef .tc main_arg1)) :=
  (val2_keep V0 main_v1 (by decide)).trans (val1_main_v1 V0)
set_option maxRecDepth 8192 in
set_option maxHeartbeats 1700000 in
theorem val2_main_v12 (V0 : Valuation τ sig (Elt F)) : val2 V0 (no_index (Proc.devRef .tc main_v12)) = Cert.RefSpec.binc (V0 (Proc.devRef .tc main_arg1)) := by
  unfold val2
  simp only [W2]
  after_results_simp
  simp only [val1_main_v2] <;> rfl
theorem val2_main_arg0 (V0 : Valuation τ sig (Elt F)) : val2 V0 (no_index (Proc.devRef .tc main_arg0)) = V0 (Proc.devRef .tc main_arg0) :=
  (val2_keep V0 main_arg0 (by decide)).trans (val1_main_arg0 V0)
theorem val2_main_arg1 (V0 : Valuation τ sig (Elt F)) : val2 V0 (no_index (Proc.devRef .tc main_arg1)) = V0 (Proc.devRef .tc main_arg1) :=
  (val2_keep V0 main_arg1 (by decide)).trans (val1_main_arg1 V0)
theorem val2_main_arg2 (V0 : Valuation τ sig (Elt F)) : val2 V0 (no_index (Proc.devRef .tc main_arg2)) = V0 (Proc.devRef .tc main_arg2) :=
  (val2_keep V0 main_arg2 (by decide)).trans (val1_main_arg2 V0)
theorem val2_main_arg3 (V0 : Valuation τ sig (Elt F)) : val2 V0 (no_index (Proc.devRef .tc main_arg3)) = V0 (Proc.devRef .tc main_arg3) :=
  (val2_keep V0 main_arg3 (by decide)).trans (val1_main_arg3 V0)
theorem val2_main_arg4 (V0 : Valuation τ sig (Elt F)) : val2 V0 (no_index (Proc.devRef .tc main_arg4)) = V0 (Proc.devRef .tc main_arg4) :=
  (val2_keep V0 main_arg4 (by decide)).trans (val1_main_arg4 V0)
theorem val2_main_arg5 (V0 : Valuation τ sig (Elt F)) : val2 V0 (no_index (Proc.devRef .tc main_arg5)) = V0 (Proc.devRef .tc main_arg5) :=
  (val2_keep V0 main_arg5 (by decide)).trans (val1_main_arg5 V0)
theorem val2_main_arg6 (V0 : Valuation τ sig (Elt F)) : val2 V0 (no_index (Proc.devRef .tc main_arg6)) = V0 (Proc.devRef .tc main_arg6) :=
  (val2_keep V0 main_arg6 (by decide)).trans (val1_main_arg6 V0)
theorem val2_main_arg7 (V0 : Valuation τ sig (Elt F)) : val2 V0 (no_index (Proc.devRef .tc main_arg7)) = V0 (Proc.devRef .tc main_arg7) :=
  (val2_keep V0 main_arg7 (by decide)).trans (val1_main_arg7 V0)
theorem val2_main_arg8 (V0 : Valuation τ sig (Elt F)) : val2 V0 (no_index (Proc.devRef .tc main_arg8)) = V0 (Proc.devRef .tc main_arg8) :=
  (val2_keep V0 main_arg8 (by decide)).trans (val1_main_arg8 V0)
theorem val2_main_arg9 (V0 : Valuation τ sig (Elt F)) : val2 V0 (no_index (Proc.devRef .tc main_arg9)) = V0 (Proc.devRef .tc main_arg9) :=
  (val2_keep V0 main_arg9 (by decide)).trans (val1_main_arg9 V0)
theorem val2_main_arg10 (V0 : Valuation τ sig (Elt F)) : val2 V0 (no_index (Proc.devRef .tc main_arg10)) = V0 (Proc.devRef .tc main_arg10) :=
  (val2_keep V0 main_arg10 (by decide)).trans (val1_main_arg10 V0)

/-- The device's buffer contents after the first 3 lists. -/
def val3 (V0 : Valuation τ sig (Elt F)) : Valuation τ sig (Elt F) := after W3 (val2 V0)
/-- The buffers that the operations of `W3` write. -/
abbrev W3_W : List (Ref sig .tc) := [main_call2_call0_c, main_call2_call0_v0, main_v13]
set_option maxRecDepth 8192 in
theorem W3_writes : (W3 : List (HloOp τ sig (Elt F))).Forall fun op => op.writes ⊆ (W3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that `W3` does not write keeps its contents through it. -/
theorem val3_keep (V0 : Valuation τ sig (Elt F)) (r : Ref sig .tc) (h : r ∉ W3_W) :
    val3 V0 (Proc.devRef .tc r) = val2 V0 (Proc.devRef .tc r) :=
  after_of_writes_sub W3 _ W3_writes h
theorem val3_main_v1 (V0 : Valuation τ sig (Elt F)) : val3 V0 (no_index (Proc.devRef .tc main_v1)) = Cert.RefSpec.mask (V0 (Proc.devRef .tc main_arg1)) :=
  (val3_keep V0 main_v1 (by decide)).trans (val2_main_v1 V0)
set_option maxRecDepth 8192 in
theorem val3_main_v13 (V0 : Valuation τ sig (Elt F)) : val3 V0 (no_index (Proc.devRef .tc main_v13)) = Cert.RefSpec.flat (V0 (Proc.devRef .tc main_arg1)) := by
  unfold val3
  simp only [W3]
  after_results_simp
  simp only [val2_main_v12] <;> rfl
theorem val3_main_arg0 (V0 : Valuation τ sig (Elt F)) : val3 V0 (no_index (Proc.devRef .tc main_arg0)) = V0 (Proc.devRef .tc main_arg0) :=
  (val3_keep V0 main_arg0 (by decide)).trans (val2_main_arg0 V0)
theorem val3_main_arg1 (V0 : Valuation τ sig (Elt F)) : val3 V0 (no_index (Proc.devRef .tc main_arg1)) = V0 (Proc.devRef .tc main_arg1) :=
  (val3_keep V0 main_arg1 (by decide)).trans (val2_main_arg1 V0)
theorem val3_main_arg2 (V0 : Valuation τ sig (Elt F)) : val3 V0 (no_index (Proc.devRef .tc main_arg2)) = V0 (Proc.devRef .tc main_arg2) :=
  (val3_keep V0 main_arg2 (by decide)).trans (val2_main_arg2 V0)
theorem val3_main_arg3 (V0 : Valuation τ sig (Elt F)) : val3 V0 (no_index (Proc.devRef .tc main_arg3)) = V0 (Proc.devRef .tc main_arg3) :=
  (val3_keep V0 main_arg3 (by decide)).trans (val2_main_arg3 V0)
theorem val3_main_arg4 (V0 : Valuation τ sig (Elt F)) : val3 V0 (no_index (Proc.devRef .tc main_arg4)) = V0 (Proc.devRef .tc main_arg4) :=
  (val3_keep V0 main_arg4 (by decide)).trans (val2_main_arg4 V0)
theorem val3_main_arg5 (V0 : Valuation τ sig (Elt F)) : val3 V0 (no_index (Proc.devRef .tc main_arg5)) = V0 (Proc.devRef .tc main_arg5) :=
  (val3_keep V0 main_arg5 (by decide)).trans (val2_main_arg5 V0)
theorem val3_main_arg6 (V0 : Valuation τ sig (Elt F)) : val3 V0 (no_index (Proc.devRef .tc main_arg6)) = V0 (Proc.devRef .tc main_arg6) :=
  (val3_keep V0 main_arg6 (by decide)).trans (val2_main_arg6 V0)
theorem val3_main_arg7 (V0 : Valuation τ sig (Elt F)) : val3 V0 (no_index (Proc.devRef .tc main_arg7)) = V0 (Proc.devRef .tc main_arg7) :=
  (val3_keep V0 main_arg7 (by decide)).trans (val2_main_arg7 V0)
theorem val3_main_arg8 (V0 : Valuation τ sig (Elt F)) : val3 V0 (no_index (Proc.devRef .tc main_arg8)) = V0 (Proc.devRef .tc main_arg8) :=
  (val3_keep V0 main_arg8 (by decide)).trans (val2_main_arg8 V0)
theorem val3_main_arg9 (V0 : Valuation τ sig (Elt F)) : val3 V0 (no_index (Proc.devRef .tc main_arg9)) = V0 (Proc.devRef .tc main_arg9) :=
  (val3_keep V0 main_arg9 (by decide)).trans (val2_main_arg9 V0)
theorem val3_main_arg10 (V0 : Valuation τ sig (Elt F)) : val3 V0 (no_index (Proc.devRef .tc main_arg10)) = V0 (Proc.devRef .tc main_arg10) :=
  (val3_keep V0 main_arg10 (by decide)).trans (val2_main_arg10 V0)

/-- The device's buffer contents after the first 4 lists. -/
def val4 (V0 : Valuation τ sig (Elt F)) : Valuation τ sig (Elt F) := after W4 (val3 V0)
/-- The buffers that the operations of `W4` write. -/
abbrev W4_W : List (Ref sig .tc) := [main_c_4, main_call3_v0, main_call3_v1, main_call3_v2, main_call3_v3, main_call3_v4, main_call3_v5, main_call3_v6, main_call3_v7, main_call3_c, main_call3_v8, main_call3_v9, main_call3_v10, main_call3_c_0, main_call3_v11, main_call3_v12, main_v14, main_c_5, main_call4_v0, main_call4_c, main_call4_v1, main_call4_c_0, main_call4_v2, main_call4_v3, main_call4_v4, main_call4_c_1, main_call4_v5, main_call4_v6, main_call4_c_2, main_call4_v7, main_call4_v8, main_call4_c_3, main_call4_v9, main_call4_v10, main_call4_v11, main_call4_v12, main_call4_v13, main_call4_v14, main_v15]
set_option maxRecDepth 8192 in
theorem W4_writes : (W4 : List (HloOp τ sig (Elt F))).Forall fun op => op.writes ⊆ (W4_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that `W4` does not write keeps its contents through it. -/
theorem val4_keep (V0 : Valuation τ sig (Elt F)) (r : Ref sig .tc) (h : r ∉ W4_W) :
    val4 V0 (Proc.devRef .tc r) = val3 V0 (Proc.devRef .tc r) :=
  after_of_writes_sub W4 _ W4_writes h
theorem val4_main_v1 (V0 : Valuation τ sig (Elt F)) : val4 V0 (no_index (Proc.devRef .tc main_v1)) = Cert.RefSpec.mask (V0 (Proc.devRef .tc main_arg1)) :=
  (val4_keep V0 main_v1 (by decide)).trans (val3_main_v1 V0)
theorem val4_main_v13 (V0 : Valuation τ sig (Elt F)) : val4 V0 (no_index (Proc.devRef .tc main_v13)) = Cert.RefSpec.flat (V0 (Proc.devRef .tc main_arg1)) :=
  (val4_keep V0 main_v13 (by decide)).trans (val3_main_v13 V0)
set_option maxRecDepth 8192 in
set_option maxHeartbeats 2000000 in
theorem val4_main_v15 (V0 : Valuation τ sig (Elt F)) : val4 V0 (no_index (Proc.devRef .tc main_v15)) = Cert.RefSpec.srcRaw (V0 (Proc.devRef .tc main_arg1)) := by
  unfold val4
  simp only [W4]
  after_results_simp
  simp only [val3_main_v13] <;> rfl
theorem val4_main_arg0 (V0 : Valuation τ sig (Elt F)) : val4 V0 (no_index (Proc.devRef .tc main_arg0)) = V0 (Proc.devRef .tc main_arg0) :=
  (val4_keep V0 main_arg0 (by decide)).trans (val3_main_arg0 V0)
theorem val4_main_arg1 (V0 : Valuation τ sig (Elt F)) : val4 V0 (no_index (Proc.devRef .tc main_arg1)) = V0 (Proc.devRef .tc main_arg1) :=
  (val4_keep V0 main_arg1 (by decide)).trans (val3_main_arg1 V0)
theorem val4_main_arg2 (V0 : Valuation τ sig (Elt F)) : val4 V0 (no_index (Proc.devRef .tc main_arg2)) = V0 (Proc.devRef .tc main_arg2) :=
  (val4_keep V0 main_arg2 (by decide)).trans (val3_main_arg2 V0)
theorem val4_main_arg3 (V0 : Valuation τ sig (Elt F)) : val4 V0 (no_index (Proc.devRef .tc main_arg3)) = V0 (Proc.devRef .tc main_arg3) :=
  (val4_keep V0 main_arg3 (by decide)).trans (val3_main_arg3 V0)
theorem val4_main_arg4 (V0 : Valuation τ sig (Elt F)) : val4 V0 (no_index (Proc.devRef .tc main_arg4)) = V0 (Proc.devRef .tc main_arg4) :=
  (val4_keep V0 main_arg4 (by decide)).trans (val3_main_arg4 V0)
theorem val4_main_arg5 (V0 : Valuation τ sig (Elt F)) : val4 V0 (no_index (Proc.devRef .tc main_arg5)) = V0 (Proc.devRef .tc main_arg5) :=
  (val4_keep V0 main_arg5 (by decide)).trans (val3_main_arg5 V0)
theorem val4_main_arg6 (V0 : Valuation τ sig (Elt F)) : val4 V0 (no_index (Proc.devRef .tc main_arg6)) = V0 (Proc.devRef .tc main_arg6) :=
  (val4_keep V0 main_arg6 (by decide)).trans (val3_main_arg6 V0)
theorem val4_main_arg7 (V0 : Valuation τ sig (Elt F)) : val4 V0 (no_index (Proc.devRef .tc main_arg7)) = V0 (Proc.devRef .tc main_arg7) :=
  (val4_keep V0 main_arg7 (by decide)).trans (val3_main_arg7 V0)
theorem val4_main_arg8 (V0 : Valuation τ sig (Elt F)) : val4 V0 (no_index (Proc.devRef .tc main_arg8)) = V0 (Proc.devRef .tc main_arg8) :=
  (val4_keep V0 main_arg8 (by decide)).trans (val3_main_arg8 V0)
theorem val4_main_arg9 (V0 : Valuation τ sig (Elt F)) : val4 V0 (no_index (Proc.devRef .tc main_arg9)) = V0 (Proc.devRef .tc main_arg9) :=
  (val4_keep V0 main_arg9 (by decide)).trans (val3_main_arg9 V0)
theorem val4_main_arg10 (V0 : Valuation τ sig (Elt F)) : val4 V0 (no_index (Proc.devRef .tc main_arg10)) = V0 (Proc.devRef .tc main_arg10) :=
  (val4_keep V0 main_arg10 (by decide)).trans (val3_main_arg10 V0)

/-- The device's buffer contents after the first 5 lists. -/
def val5 (V0 : Valuation τ sig (Elt F)) : Valuation τ sig (Elt F) := after W5 (val4 V0)
/-- The buffers that the operations of `W5` write. -/
abbrev W5_W : List (Ref sig .tc) := [main_c_6, main_call5_v0, main_call5_v1, main_call5_v2, main_call5_v3, main_call5_v4, main_call5_v5, main_call5_v6, main_call5_v7, main_call5_c, main_call5_v8, main_call5_v9, main_call5_v10, main_call5_c_0, main_call5_v11, main_call5_v12, main_v16, main_c_7, main_call6_v0, main_call6_c, main_call6_v1, main_call6_c_0, main_call6_v2, main_call6_v3, main_call6_v4, main_call6_c_1, main_call6_v5, main_call6_v6, main_call6_c_2, main_call6_v7, main_call6_v8, main_call6_c_3, main_call6_v9, main_call6_v10, main_call6_v11, main_call6_v12, main_call6_v13, main_call6_v14, main_v17]
set_option maxRecDepth 8192 in
theorem W5_writes : (W5 : List (HloOp τ sig (Elt F))).Forall fun op => op.writes ⊆ (W5_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that `W5` does not write keeps its contents through it. -/
theorem val5_keep (V0 : Valuation τ sig (Elt F)) (r : Ref sig .tc) (h : r ∉ W5_W) :
    val5 V0 (Proc.devRef .tc r) = val4 V0 (Proc.devRef .tc r) :=
  after_of_writes_sub W5 _ W5_writes h
theorem val5_main_v1 (V0 : Valuation τ sig (Elt F)) : val5 V0 (no_index (Proc.devRef .tc main_v1)) = Cert.RefSpec.mask (V0 (Proc.devRef .tc main_arg1)) :=
  (val5_keep V0 main_v1 (by decide)).trans (val4_main_v1 V0)
theorem val5_main_v15 (V0 : Valuation τ sig (Elt F)) : val5 V0 (no_index (Proc.devRef .tc main_v15)) = Cert.RefSpec.srcRaw (V0 (Proc.devRef .tc main_arg1)) :=
  (val5_keep V0 main_v15 (by decide)).trans (val4_main_v15 V0)
set_option maxRecDepth 8192 in
set_option maxHeartbeats 2000000 in
theorem val5_main_v17 (V0 : Valuation τ sig (Elt F)) : val5 V0 (no_index (Proc.devRef .tc main_v17)) = Cert.RefSpec.dstRaw (V0 (Proc.devRef .tc main_arg1)) := by
  unfold val5
  simp only [W5]
  after_results_simp
  simp only [val4_main_v13] <;> rfl
theorem val5_main_arg0 (V0 : Valuation τ sig (Elt F)) : val5 V0 (no_index (Proc.devRef .tc main_arg0)) = V0 (Proc.devRef .tc main_arg0) :=
  (val5_keep V0 main_arg0 (by decide)).trans (val4_main_arg0 V0)
theorem val5_main_arg1 (V0 : Valuation τ sig (Elt F)) : val5 V0 (no_index (Proc.devRef .tc main_arg1)) = V0 (Proc.devRef .tc main_arg1) :=
  (val5_keep V0 main_arg1 (by decide)).trans (val4_main_arg1 V0)
theorem val5_main_arg2 (V0 : Valuation τ sig (Elt F)) : val5 V0 (no_index (Proc.devRef .tc main_arg2)) = V0 (Proc.devRef .tc main_arg2) :=
  (val5_keep V0 main_arg2 (by decide)).trans (val4_main_arg2 V0)
theorem val5_main_arg3 (V0 : Valuation τ sig (Elt F)) : val5 V0 (no_index (Proc.devRef .tc main_arg3)) = V0 (Proc.devRef .tc main_arg3) :=
  (val5_keep V0 main_arg3 (by decide)).trans (val4_main_arg3 V0)
theorem val5_main_arg4 (V0 : Valuation τ sig (Elt F)) : val5 V0 (no_index (Proc.devRef .tc main_arg4)) = V0 (Proc.devRef .tc main_arg4) :=
  (val5_keep V0 main_arg4 (by decide)).trans (val4_main_arg4 V0)
theorem val5_main_arg5 (V0 : Valuation τ sig (Elt F)) : val5 V0 (no_index (Proc.devRef .tc main_arg5)) = V0 (Proc.devRef .tc main_arg5) :=
  (val5_keep V0 main_arg5 (by decide)).trans (val4_main_arg5 V0)
theorem val5_main_arg6 (V0 : Valuation τ sig (Elt F)) : val5 V0 (no_index (Proc.devRef .tc main_arg6)) = V0 (Proc.devRef .tc main_arg6) :=
  (val5_keep V0 main_arg6 (by decide)).trans (val4_main_arg6 V0)
theorem val5_main_arg7 (V0 : Valuation τ sig (Elt F)) : val5 V0 (no_index (Proc.devRef .tc main_arg7)) = V0 (Proc.devRef .tc main_arg7) :=
  (val5_keep V0 main_arg7 (by decide)).trans (val4_main_arg7 V0)
theorem val5_main_arg8 (V0 : Valuation τ sig (Elt F)) : val5 V0 (no_index (Proc.devRef .tc main_arg8)) = V0 (Proc.devRef .tc main_arg8) :=
  (val5_keep V0 main_arg8 (by decide)).trans (val4_main_arg8 V0)
theorem val5_main_arg9 (V0 : Valuation τ sig (Elt F)) : val5 V0 (no_index (Proc.devRef .tc main_arg9)) = V0 (Proc.devRef .tc main_arg9) :=
  (val5_keep V0 main_arg9 (by decide)).trans (val4_main_arg9 V0)
theorem val5_main_arg10 (V0 : Valuation τ sig (Elt F)) : val5 V0 (no_index (Proc.devRef .tc main_arg10)) = V0 (Proc.devRef .tc main_arg10) :=
  (val5_keep V0 main_arg10 (by decide)).trans (val4_main_arg10 V0)

/-- The device's buffer contents after the first 6 lists. -/
def val6 (V0 : Valuation τ sig (Elt F)) : Valuation τ sig (Elt F) := after W6 (val5 V0)
/-- The buffers that the operations of `W6` write. -/
abbrev W6_W : List (Ref sig .tc) := [main_v18, main_v19, main_c_8, main_v20, main_v21, main_v22, main_c_9, main_call7_v0, main_call7_v1, main_v23, main_c_10, main_call8_v0, main_call8_v1, main_v24]
set_option maxRecDepth 8192 in
theorem W6_writes : (W6 : List (HloOp τ sig (Elt F))).Forall fun op => op.writes ⊆ (W6_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that `W6` does not write keeps its contents through it. -/
theorem val6_keep (V0 : Valuation τ sig (Elt F)) (r : Ref sig .tc) (h : r ∉ W6_W) :
    val6 V0 (Proc.devRef .tc r) = val5 V0 (Proc.devRef .tc r) :=
  after_of_writes_sub W6 _ W6_writes h
set_option maxRecDepth 8192 in
set_option maxHeartbeats 1400000 in
theorem val6_main_v23 (V0 : Valuation τ sig (Elt F)) : val6 V0 (no_index (Proc.devRef .tc main_v23)) = Cert.RefSpec.src (V0 (Proc.devRef .tc main_arg1)) := by
  unfold val6
  simp only [W6]
  after_results_simp
  simp only [val5_main_v15, val5_main_v1] <;> rfl
set_option maxRecDepth 8192 in
set_option maxHeartbeats 1400000 in
theorem val6_main_v24 (V0 : Valuation τ sig (Elt F)) : val6 V0 (no_index (Proc.devRef .tc main_v24)) = Cert.RefSpec.dst (V0 (Proc.devRef .tc main_arg1)) := by
  unfold val6
  simp only [W6]
  after_results_simp
  simp only [val5_main_v17, val5_main_v1] <;> rfl
theorem val6_main_arg0 (V0 : Valuation τ sig (Elt F)) : val6 V0 (no_index (Proc.devRef .tc main_arg0)) = V0 (Proc.devRef .tc main_arg0) :=
  (val6_keep V0 main_arg0 (by decide)).trans (val5_main_arg0 V0)
theorem val6_main_arg1 (V0 : Valuation τ sig (Elt F)) : val6 V0 (no_index (Proc.devRef .tc main_arg1)) = V0 (Proc.devRef .tc main_arg1) :=
  (val6_keep V0 main_arg1 (by decide)).trans (val5_main_arg1 V0)
theorem val6_main_arg2 (V0 : Valuation τ sig (Elt F)) : val6 V0 (no_index (Proc.devRef .tc main_arg2)) = V0 (Proc.devRef .tc main_arg2) :=
  (val6_keep V0 main_arg2 (by decide)).trans (val5_main_arg2 V0)
theorem val6_main_arg3 (V0 : Valuation τ sig (Elt F)) : val6 V0 (no_index (Proc.devRef .tc main_arg3)) = V0 (Proc.devRef .tc main_arg3) :=
  (val6_keep V0 main_arg3 (by decide)).trans (val5_main_arg3 V0)
theorem val6_main_arg4 (V0 : Valuation τ sig (Elt F)) : val6 V0 (no_index (Proc.devRef .tc main_arg4)) = V0 (Proc.devRef .tc main_arg4) :=
  (val6_keep V0 main_arg4 (by decide)).trans (val5_main_arg4 V0)
theorem val6_main_arg5 (V0 : Valuation τ sig (Elt F)) : val6 V0 (no_index (Proc.devRef .tc main_arg5)) = V0 (Proc.devRef .tc main_arg5) :=
  (val6_keep V0 main_arg5 (by decide)).trans (val5_main_arg5 V0)
theorem val6_main_arg6 (V0 : Valuation τ sig (Elt F)) : val6 V0 (no_index (Proc.devRef .tc main_arg6)) = V0 (Proc.devRef .tc main_arg6) :=
  (val6_keep V0 main_arg6 (by decide)).trans (val5_main_arg6 V0)
theorem val6_main_arg7 (V0 : Valuation τ sig (Elt F)) : val6 V0 (no_index (Proc.devRef .tc main_arg7)) = V0 (Proc.devRef .tc main_arg7) :=
  (val6_keep V0 main_arg7 (by decide)).trans (val5_main_arg7 V0)
theorem val6_main_arg8 (V0 : Valuation τ sig (Elt F)) : val6 V0 (no_index (Proc.devRef .tc main_arg8)) = V0 (Proc.devRef .tc main_arg8) :=
  (val6_keep V0 main_arg8 (by decide)).trans (val5_main_arg8 V0)
theorem val6_main_arg9 (V0 : Valuation τ sig (Elt F)) : val6 V0 (no_index (Proc.devRef .tc main_arg9)) = V0 (Proc.devRef .tc main_arg9) :=
  (val6_keep V0 main_arg9 (by decide)).trans (val5_main_arg9 V0)
theorem val6_main_arg10 (V0 : Valuation τ sig (Elt F)) : val6 V0 (no_index (Proc.devRef .tc main_arg10)) = V0 (Proc.devRef .tc main_arg10) :=
  (val6_keep V0 main_arg10 (by decide)).trans (val5_main_arg10 V0)

/-- The device's buffer contents after the first 7 lists. -/
def val7 (V0 : Valuation τ sig (Elt F)) : Valuation τ sig (Elt F) := after W7 (val6 V0)
/-- The buffers that the operations of `W7` write. -/
abbrev W7_W : List (Ref sig .tc) := [main_call9_c, main_call9_v0, main_call9_v1, main_call9_c_0, main_call9_v2, main_call9_v3, main_call9_v4, main_call9_v5, main_call9_c_1, main_call9_c_2, main_call9_v6, main_call9_v7, main_call9_v8, main_call9_v9, main_call9_v10, main_call9_v11, main_call9_c_3, main_call9_v12, main_call9_v13, main_call9_v14, main_call9_cst, main_call9_v15, main_v25, main_cst_11, main_v26, main_v27, main_v28, main_cst_12, main_v29, main_cst_13, main_v30, main_v31, main_v32, main_cst_14, main_call10_v0, main_call10_v1, main_v33, main_v34, main_v35, main_v36, main_v37, main_v38, main_v39, main_v40, main_v41, main_v42]
set_option maxRecDepth 8192 in
theorem W7_writes : (W7 : List (HloOp τ sig (Elt F))).Forall fun op => op.writes ⊆ (W7_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that `W7` does not write keeps its contents through it. -/
theorem val7_keep (V0 : Valuation τ sig (Elt F)) (r : Ref sig .tc) (h : r ∉ W7_W) :
    val7 V0 (Proc.devRef .tc r) = val6 V0 (Proc.devRef .tc r) :=
  after_of_writes_sub W7 _ W7_writes h
theorem val7_main_v23 (V0 : Valuation τ sig (Elt F)) : val7 V0 (no_index (Proc.devRef .tc main_v23)) = Cert.RefSpec.src (V0 (Proc.devRef .tc main_arg1)) :=
  (val7_keep V0 main_v23 (by decide)).trans (val6_main_v23 V0)
theorem val7_main_v24 (V0 : Valuation τ sig (Elt F)) : val7 V0 (no_index (Proc.devRef .tc main_v24)) = Cert.RefSpec.dst (V0 (Proc.devRef .tc main_arg1)) :=
  (val7_keep V0 main_v24 (by decide)).trans (val6_main_v24 V0)
set_option maxRecDepth 8192 in
set_option maxHeartbeats 2000000 in
theorem val7_main_v42 (V0 : Valuation τ sig (Elt F)) : val7 V0 (no_index (Proc.devRef .tc main_v42)) = Cert.RefSpec.sage (V0 (Proc.devRef .tc main_arg0)) (Cert.RefSpec.src (V0 (Proc.devRef .tc main_arg1))) (Cert.RefSpec.dst (V0 (Proc.devRef .tc main_arg1))) (V0 (Proc.devRef .tc main_arg2)) (V0 (Proc.devRef .tc main_arg3)) (V0 (Proc.devRef .tc main_arg4)) := by
  unfold val7
  simp only [W7]
  after_results_simp
  simp only [val6_main_arg4, val6_main_arg0, val6_main_arg3, val6_main_arg2, val6_main_v24, val6_main_v23] <;> rfl
theorem val7_main_arg0 (V0 : Valuation τ sig (Elt F)) : val7 V0 (no_index (Proc.devRef .tc main_arg0)) = V0 (Proc.devRef .tc main_arg0) :=
  (val7_keep V0 main_arg0 (by decide)).trans (val6_main_arg0 V0)
theorem val7_main_arg1 (V0 : Valuation τ sig (Elt F)) : val7 V0 (no_index (Proc.devRef .tc main_arg1)) = V0 (Proc.devRef .tc main_arg1) :=
  (val7_keep V0 main_arg1 (by decide)).trans (val6_main_arg1 V0)
theorem val7_main_arg2 (V0 : Valuation τ sig (Elt F)) : val7 V0 (no_index (Proc.devRef .tc main_arg2)) = V0 (Proc.devRef .tc main_arg2) :=
  (val7_keep V0 main_arg2 (by decide)).trans (val6_main_arg2 V0)
theorem val7_main_arg3 (V0 : Valuation τ sig (Elt F)) : val7 V0 (no_index (Proc.devRef .tc main_arg3)) = V0 (Proc.devRef .tc main_arg3) :=
  (val7_keep V0 main_arg3 (by decide)).trans (val6_main_arg3 V0)
theorem val7_main_arg4 (V0 : Valuation τ sig (Elt F)) : val7 V0 (no_index (Proc.devRef .tc main_arg4)) = V0 (Proc.devRef .tc main_arg4) :=
  (val7_keep V0 main_arg4 (by decide)).trans (val6_main_arg4 V0)
theorem val7_main_arg5 (V0 : Valuation τ sig (Elt F)) : val7 V0 (no_index (Proc.devRef .tc main_arg5)) = V0 (Proc.devRef .tc main_arg5) :=
  (val7_keep V0 main_arg5 (by decide)).trans (val6_main_arg5 V0)
theorem val7_main_arg6 (V0 : Valuation τ sig (Elt F)) : val7 V0 (no_index (Proc.devRef .tc main_arg6)) = V0 (Proc.devRef .tc main_arg6) :=
  (val7_keep V0 main_arg6 (by decide)).trans (val6_main_arg6 V0)
theorem val7_main_arg7 (V0 : Valuation τ sig (Elt F)) : val7 V0 (no_index (Proc.devRef .tc main_arg7)) = V0 (Proc.devRef .tc main_arg7) :=
  (val7_keep V0 main_arg7 (by decide)).trans (val6_main_arg7 V0)
theorem val7_main_arg8 (V0 : Valuation τ sig (Elt F)) : val7 V0 (no_index (Proc.devRef .tc main_arg8)) = V0 (Proc.devRef .tc main_arg8) :=
  (val7_keep V0 main_arg8 (by decide)).trans (val6_main_arg8 V0)
theorem val7_main_arg9 (V0 : Valuation τ sig (Elt F)) : val7 V0 (no_index (Proc.devRef .tc main_arg9)) = V0 (Proc.devRef .tc main_arg9) :=
  (val7_keep V0 main_arg9 (by decide)).trans (val6_main_arg9 V0)
theorem val7_main_arg10 (V0 : Valuation τ sig (Elt F)) : val7 V0 (no_index (Proc.devRef .tc main_arg10)) = V0 (Proc.devRef .tc main_arg10) :=
  (val7_keep V0 main_arg10 (by decide)).trans (val6_main_arg10 V0)

/-- The device's buffer contents after the first 8 lists. -/
def val8 (V0 : Valuation τ sig (Elt F)) : Valuation τ sig (Elt F) := after W8 (val7 V0)
/-- The buffers that the operations of `W8` write. -/
abbrev W8_W : List (Ref sig .tc) := [main_call11_cst, main_call11_v0, main_v43, main_call12_c, main_call12_v0, main_call12_v1, main_call12_c_0, main_call12_v2, main_call12_v3, main_call12_v4, main_call12_v5, main_call12_c_1, main_call12_c_2, main_call12_v6, main_call12_v7, main_call12_v8, main_call12_v9, main_call12_v10, main_call12_v11, main_call12_c_3, main_call12_v12, main_call12_v13, main_call12_v14, main_call12_cst, main_call12_v15, main_v44, main_cst_15, main_v45, main_v46, main_v47, main_cst_16, main_v48, main_cst_17, main_v49, main_v50, main_v51, main_cst_18, main_call13_v0, main_call13_v1, main_v52, main_v53, main_v54, main_v55, main_v56, main_v57, main_v58, main_v59, main_v60, main_v61]
set_option maxRecDepth 8192 in
theorem W8_writes : (W8 : List (HloOp τ sig (Elt F))).Forall fun op => op.writes ⊆ (W8_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that `W8` does not write keeps its contents through it. -/
theorem val8_keep (V0 : Valuation τ sig (Elt F)) (r : Ref sig .tc) (h : r ∉ W8_W) :
    val8 V0 (Proc.devRef .tc r) = val7 V0 (Proc.devRef .tc r) :=
  after_of_writes_sub W8 _ W8_writes h
theorem val8_main_v23 (V0 : Valuation τ sig (Elt F)) : val8 V0 (no_index (Proc.devRef .tc main_v23)) = Cert.RefSpec.src (V0 (Proc.devRef .tc main_arg1)) :=
  (val8_keep V0 main_v23 (by decide)).trans (val7_main_v23 V0)
theorem val8_main_v24 (V0 : Valuation τ sig (Elt F)) : val8 V0 (no_index (Proc.devRef .tc main_v24)) = Cert.RefSpec.dst (V0 (Proc.devRef .tc main_arg1)) :=
  (val8_keep V0 main_v24 (by decide)).trans (val7_main_v24 V0)
set_option maxRecDepth 8192 in
set_option maxHeartbeats 2000000 in
theorem val8_main_v61 (V0 : Valuation τ sig (Elt F)) : val8 V0 (no_index (Proc.devRef .tc main_v61)) = Cert.RefSpec.sage (Cert.RefSpec.relu (Cert.RefSpec.sage (V0 (Proc.devRef .tc main_arg0)) (Cert.RefSpec.src (V0 (Proc.devRef .tc main_arg1))) (Cert.RefSpec.dst (V0 (Proc.devRef .tc main_arg1))) (V0 (Proc.devRef .tc main_arg2)) (V0 (Proc.devRef .tc main_arg3)) (V0 (Proc.devRef .tc main_arg4)))) (Cert.RefSpec.src (V0 (Proc.devRef .tc main_arg1))) (Cert.RefSpec.dst (V0 (Proc.devRef .tc main_arg1))) (V0 (Proc.devRef .tc main_arg5)) (V0 (Proc.devRef .tc main_arg6)) (V0 (Proc.devRef .tc main_arg7)) := by
  unfold val8
  simp only [W8]
  after_results_simp
  simp only [val7_main_arg7, val7_main_v42, val7_main_arg6, val7_main_arg5, val7_main_v24, val7_main_v23] <;> rfl
theorem val8_main_arg0 (V0 : Valuation τ sig (Elt F)) : val8 V0 (no_index (Proc.devRef .tc main_arg0)) = V0 (Proc.devRef .tc main_arg0) :=
  (val8_keep V0 main_arg0 (by decide)).trans (val7_main_arg0 V0)
theorem val8_main_arg1 (V0 : Valuation τ sig (Elt F)) : val8 V0 (no_index (Proc.devRef .tc main_arg1)) = V0 (Proc.devRef .tc main_arg1) :=
  (val8_keep V0 main_arg1 (by decide)).trans (val7_main_arg1 V0)
theorem val8_main_arg2 (V0 : Valuation τ sig (Elt F)) : val8 V0 (no_index (Proc.devRef .tc main_arg2)) = V0 (Proc.devRef .tc main_arg2) :=
  (val8_keep V0 main_arg2 (by decide)).trans (val7_main_arg2 V0)
theorem val8_main_arg3 (V0 : Valuation τ sig (Elt F)) : val8 V0 (no_index (Proc.devRef .tc main_arg3)) = V0 (Proc.devRef .tc main_arg3) :=
  (val8_keep V0 main_arg3 (by decide)).trans (val7_main_arg3 V0)
theorem val8_main_arg4 (V0 : Valuation τ sig (Elt F)) : val8 V0 (no_index (Proc.devRef .tc main_arg4)) = V0 (Proc.devRef .tc main_arg4) :=
  (val8_keep V0 main_arg4 (by decide)).trans (val7_main_arg4 V0)
theorem val8_main_arg5 (V0 : Valuation τ sig (Elt F)) : val8 V0 (no_index (Proc.devRef .tc main_arg5)) = V0 (Proc.devRef .tc main_arg5) :=
  (val8_keep V0 main_arg5 (by decide)).trans (val7_main_arg5 V0)
theorem val8_main_arg6 (V0 : Valuation τ sig (Elt F)) : val8 V0 (no_index (Proc.devRef .tc main_arg6)) = V0 (Proc.devRef .tc main_arg6) :=
  (val8_keep V0 main_arg6 (by decide)).trans (val7_main_arg6 V0)
theorem val8_main_arg7 (V0 : Valuation τ sig (Elt F)) : val8 V0 (no_index (Proc.devRef .tc main_arg7)) = V0 (Proc.devRef .tc main_arg7) :=
  (val8_keep V0 main_arg7 (by decide)).trans (val7_main_arg7 V0)
theorem val8_main_arg8 (V0 : Valuation τ sig (Elt F)) : val8 V0 (no_index (Proc.devRef .tc main_arg8)) = V0 (Proc.devRef .tc main_arg8) :=
  (val8_keep V0 main_arg8 (by decide)).trans (val7_main_arg8 V0)
theorem val8_main_arg9 (V0 : Valuation τ sig (Elt F)) : val8 V0 (no_index (Proc.devRef .tc main_arg9)) = V0 (Proc.devRef .tc main_arg9) :=
  (val8_keep V0 main_arg9 (by decide)).trans (val7_main_arg9 V0)
theorem val8_main_arg10 (V0 : Valuation τ sig (Elt F)) : val8 V0 (no_index (Proc.devRef .tc main_arg10)) = V0 (Proc.devRef .tc main_arg10) :=
  (val8_keep V0 main_arg10 (by decide)).trans (val7_main_arg10 V0)

/-- The device's buffer contents after the first 9 lists. -/
def val9 (V0 : Valuation τ sig (Elt F)) : Valuation τ sig (Elt F) := after W9 (val8 V0)
/-- The buffers that the operations of `W9` write. -/
abbrev W9_W : List (Ref sig .tc) := [main_call14_cst, main_call14_v0, main_v62, main_call15_c, main_call15_v0, main_call15_v1, main_call15_c_0, main_call15_v2, main_call15_v3, main_call15_v4, main_call15_v5, main_call15_c_1, main_call15_c_2, main_call15_v6, main_call15_v7, main_call15_v8, main_call15_v9, main_call15_v10, main_call15_v11, main_call15_c_3, main_call15_v12, main_call15_v13, main_call15_v14, main_call15_cst, main_call15_v15, main_v63, main_cst_19, main_v64, main_v65, main_v66, main_cst_20, main_v67, main_cst_21, main_v68, main_v69, main_v70, main_cst_22, main_call16_v0, main_call16_v1, main_v71, main_v72, main_v73, main_v74, main_v75, main_v76, main_v77, main_v78, main_v79, main_v80]
set_option maxRecDepth 8192 in
theorem W9_writes : (W9 : List (HloOp τ sig (Elt F))).Forall fun op => op.writes ⊆ (W9_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that `W9` does not write keeps its contents through it. -/
theorem val9_keep (V0 : Valuation τ sig (Elt F)) (r : Ref sig .tc) (h : r ∉ W9_W) :
    val9 V0 (Proc.devRef .tc r) = val8 V0 (Proc.devRef .tc r) :=
  after_of_writes_sub W9 _ W9_writes h
set_option maxRecDepth 8192 in
set_option maxHeartbeats 2000000 in
theorem val9_main_v80 (V0 : Valuation τ sig (Elt F)) : val9 V0 (no_index (Proc.devRef .tc main_v80)) = Cert.RefSpec.out (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) := by
  unfold val9
  simp only [W9]
  after_results_simp
  simp only [val8_main_arg10, val8_main_v61, val8_main_arg9, val8_main_arg8, val8_main_v24, val8_main_v23] <;> rfl
theorem val9_main_arg0 (V0 : Valuation τ sig (Elt F)) : val9 V0 (no_index (Proc.devRef .tc main_arg0)) = V0 (Proc.devRef .tc main_arg0) :=
  (val9_keep V0 main_arg0 (by decide)).trans (val8_main_arg0 V0)
theorem val9_main_arg1 (V0 : Valuation τ sig (Elt F)) : val9 V0 (no_index (Proc.devRef .tc main_arg1)) = V0 (Proc.devRef .tc main_arg1) :=
  (val9_keep V0 main_arg1 (by decide)).trans (val8_main_arg1 V0)
theorem val9_main_arg2 (V0 : Valuation τ sig (Elt F)) : val9 V0 (no_index (Proc.devRef .tc main_arg2)) = V0 (Proc.devRef .tc main_arg2) :=
  (val9_keep V0 main_arg2 (by decide)).trans (val8_main_arg2 V0)
theorem val9_main_arg3 (V0 : Valuation τ sig (Elt F)) : val9 V0 (no_index (Proc.devRef .tc main_arg3)) = V0 (Proc.devRef .tc main_arg3) :=
  (val9_keep V0 main_arg3 (by decide)).trans (val8_main_arg3 V0)
theorem val9_main_arg4 (V0 : Valuation τ sig (Elt F)) : val9 V0 (no_index (Proc.devRef .tc main_arg4)) = V0 (Proc.devRef .tc main_arg4) :=
  (val9_keep V0 main_arg4 (by decide)).trans (val8_main_arg4 V0)
theorem val9_main_arg5 (V0 : Valuation τ sig (Elt F)) : val9 V0 (no_index (Proc.devRef .tc main_arg5)) = V0 (Proc.devRef .tc main_arg5) :=
  (val9_keep V0 main_arg5 (by decide)).trans (val8_main_arg5 V0)
theorem val9_main_arg6 (V0 : Valuation τ sig (Elt F)) : val9 V0 (no_index (Proc.devRef .tc main_arg6)) = V0 (Proc.devRef .tc main_arg6) :=
  (val9_keep V0 main_arg6 (by decide)).trans (val8_main_arg6 V0)
theorem val9_main_arg7 (V0 : Valuation τ sig (Elt F)) : val9 V0 (no_index (Proc.devRef .tc main_arg7)) = V0 (Proc.devRef .tc main_arg7) :=
  (val9_keep V0 main_arg7 (by decide)).trans (val8_main_arg7 V0)
theorem val9_main_arg8 (V0 : Valuation τ sig (Elt F)) : val9 V0 (no_index (Proc.devRef .tc main_arg8)) = V0 (Proc.devRef .tc main_arg8) :=
  (val9_keep V0 main_arg8 (by decide)).trans (val8_main_arg8 V0)
theorem val9_main_arg9 (V0 : Valuation τ sig (Elt F)) : val9 V0 (no_index (Proc.devRef .tc main_arg9)) = V0 (Proc.devRef .tc main_arg9) :=
  (val9_keep V0 main_arg9 (by decide)).trans (val8_main_arg9 V0)
theorem val9_main_arg10 (V0 : Valuation τ sig (Elt F)) : val9 V0 (no_index (Proc.devRef .tc main_arg10)) = V0 (Proc.devRef .tc main_arg10) :=
  (val9_keep V0 main_arg10 (by decide)).trans (val8_main_arg10 V0)

theorem after_ops (V0 : Valuation τ sig (Elt F)) : after ops V0 = val9 V0 := by
  simp only [ops, opsA, opsB, after_append]
  rfl

/-- On every device, for any float values, from any memory with zero counters: every weakly fair execution of
    the program terminates with the result buffer at the reference's value of the argument arrays and the
    argument arrays unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v80) = Cert.RefSpec.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c main_v80).trans (by simp only [after_ops]; exact val9_main_v80 (launchContents m c)),
      (h c main_arg0).trans (by simp only [after_ops]; exact val9_main_arg0 (launchContents m c)),
      (h c main_arg1).trans (by simp only [after_ops]; exact val9_main_arg1 (launchContents m c)),
      (h c main_arg2).trans (by simp only [after_ops]; exact val9_main_arg2 (launchContents m c)),
      (h c main_arg3).trans (by simp only [after_ops]; exact val9_main_arg3 (launchContents m c)),
      (h c main_arg4).trans (by simp only [after_ops]; exact val9_main_arg4 (launchContents m c)),
      (h c main_arg5).trans (by simp only [after_ops]; exact val9_main_arg5 (launchContents m c)),
      (h c main_arg6).trans (by simp only [after_ops]; exact val9_main_arg6 (launchContents m c)),
      (h c main_arg7).trans (by simp only [after_ops]; exact val9_main_arg7 (launchContents m c)),
      (h c main_arg8).trans (by simp only [after_ops]; exact val9_main_arg8 (launchContents m c)),
      (h c main_arg9).trans (by simp only [after_ops]; exact val9_main_arg9 (launchContents m c)),
      (h c main_arg10).trans (by simp only [after_ops]; exact val9_main_arg10 (launchContents m c))⟩)
    (run_seq scopedRefs_eq scopedSems_eq defs main (fun _ => ops) main_eq (fun _ => ops_sub) m ρ)

end Cert.ReferenceIdeal.RefRun

end
-- ==== Proof.LibNonzeroEnum.lean ====
/-
  Enumerating the positions where a predicate holds, by two prefix counts.

  For a decidable predicate `P` on the naturals and a bound `N`:
  `cnt P p` counts the positions `q ≤ p` with `P q` (an inclusive running count),
  `nnz P N` counts the positions below `N` with `P`, and
  `pos P N k` counts the positions `p < N` whose running count is at most `k`.
  The running count is monotone and steps up exactly at the positions where `P` holds, so the positions
  with running count at most `k` are exactly those before the `(k+1)`-st position where `P` holds:
  for `k < nnz P N`, `pos P N k` IS that position (`pos_spec`), and `p ↦ cnt P p - 1` is its inverse
  on the positions where `P` holds (`pos_cnt_pred`). Past the last one, `pos P N k = N` (`pos_of_nnz_le`).
  Consequently a sum over `k < nnz P N` of `f (pos P N k)` is the sum of `f` over the positions below `N`
  where `P` holds (`sum_pos`), and, for a row-major `R × C` grid (`N = R * C`, position `i * C + j`),
  the sum over the enumerated positions in column `j` of a function of the row is the sum over the rows `i`
  with `P (i * C + j)` (`sum_pos_col`).
-/
import Mathlib.Algebra.BigOperators.Group.Finset.Basic
import Mathlib.Algebra.Order.BigOperators.Group.Finset
import Mathlib.Order.Interval.Finset.Nat
import Mathlib.Tactic.Ring

namespace Cert.Lib.NonzeroEnum

open Finset

variable (P : ℕ → Prop) [DecidablePred P]

/-- The inclusive running count: how many positions `q ≤ p` satisfy `P`. -/
def cnt (p : ℕ) : ℕ := ((range (p + 1)).filter P).card

/-- How many positions below `N` satisfy `P`. -/
def nnz (N : ℕ) : ℕ := ((range N).filter P).card

/-- How many positions below `N` have running count at most `k`. -/
def pos (N k : ℕ) : ℕ := ((range N).filter (fun p => cnt P p ≤ k)).card

theorem cnt_eq_nnz (p : ℕ) : cnt P p = nnz P (p + 1) := rfl

theorem nnz_succ (N : ℕ) : nnz P (N + 1) = nnz P N + if P N then 1 else 0 := by
  unfold nnz
  rw [range_add_one, filter_insert]
  by_cases h : P N
  · simp only [h, if_true]
    rw [card_insert_of_notMem]
    simp
  · simp [h]

theorem cnt_succ (p : ℕ) : cnt P (p + 1) = cnt P p + if P (p + 1) then 1 else 0 := by
  rw [cnt_eq_nnz, cnt_eq_nnz, nnz_succ]

theorem nnz_mono {M N : ℕ} (h : M ≤ N) : nnz P M ≤ nnz P N :=
  card_le_card (filter_subset_filter _ (range_mono h))

theorem cnt_mono {p q : ℕ} (h : p ≤ q) : cnt P p ≤ cnt P q :=
  nnz_mono P (Nat.succ_le_succ h)

theorem cnt_le_succ (p : ℕ) : cnt P p ≤ p + 1 := by
  unfold cnt
  exact le_trans (card_filter_le _ _) (by simp)

theorem nnz_le (N : ℕ) : nnz P N ≤ N := by
  unfold nnz
  exact le_trans (card_filter_le _ _) (by simp)

theorem cnt_le_nnz {p N : ℕ} (h : p < N) : cnt P p ≤ nnz P N := nnz_mono P h

/-- The running count steps up at a position where `P` holds. -/
theorem cnt_lt_of_lt {p q : ℕ} (h : p < q) (hq : P q) : cnt P p < cnt P q := by
  obtain ⟨q', rfl⟩ : ∃ q', q = q' + 1 := ⟨q - 1, by omega⟩
  have h1 : cnt P p ≤ cnt P q' := cnt_mono P (by omega)
  rw [cnt_succ]
  simp only [hq, if_true]
  omega

theorem cnt_pos {p : ℕ} (hp : P p) : 1 ≤ cnt P p := by
  unfold cnt
  exact card_pos.mpr ⟨p, by simp [hp]⟩

/-- At a position `p < N` where `P` holds, the positions with running count below `cnt P p` are exactly the
    positions before `p`. -/
theorem pos_cnt_pred {p N : ℕ} (hp : P p) (hN : p < N) : pos P N (cnt P p - 1) = p := by
  have h1 := cnt_pos P hp
  have : (range N).filter (fun q => cnt P q ≤ cnt P p - 1) = range p := by
    ext q
    simp only [mem_filter, mem_range]
    constructor
    · rintro ⟨_, hq⟩
      by_contra hpq
      have := cnt_mono P (Nat.le_of_not_lt hpq)
      omega
    · intro hq
      have := cnt_lt_of_lt P hq hp
      exact ⟨by omega, by omega⟩
  unfold pos
  rw [this, card_range]

/-- Every count `k + 1 ≤ nnz P N` is the running count at some position below `N` where `P` holds. -/
theorem exists_cnt_eq {N k : ℕ} (hk : k < nnz P N) : ∃ p, p < N ∧ P p ∧ cnt P p = k + 1 := by
  induction N with
  | zero => simp [nnz] at hk
  | succ N ih =>
    rw [nnz_succ] at hk
    by_cases hlt : k < nnz P N
    · obtain ⟨p, hp, hP, hc⟩ := ih hlt
      exact ⟨p, by omega, hP, hc⟩
    · by_cases hN : P N
      · simp only [hN, if_true] at hk
        refine ⟨N, by omega, hN, ?_⟩
        rw [cnt_eq_nnz, nnz_succ]
        simp only [hN, if_true]
        omega
      · simp only [hN, if_false] at hk
        omega

/-- For `k < nnz P N`, `pos P N k` is a position below `N` where `P` holds, with running count `k + 1`. -/
theorem pos_spec {N k : ℕ} (hk : k < nnz P N) :
    pos P N k < N ∧ P (pos P N k) ∧ cnt P (pos P N k) = k + 1 := by
  obtain ⟨p, hp, hP, hc⟩ := exists_cnt_eq P hk
  have : pos P N k = p := by
    have := pos_cnt_pred P hP hp
    rwa [hc, Nat.add_sub_cancel] at this
  rw [this]
  exact ⟨hp, hP, hc⟩

/-- Past the last position where `P` holds, every position below `N` is counted. -/
theorem pos_of_nnz_le {N k : ℕ} (hk : nnz P N ≤ k) : pos P N k = N := by
  unfold pos
  rw [filter_true_of_mem, card_range]
  intro p hp
  exact le_trans (cnt_le_nnz P (mem_range.mp hp)) hk

/-- The positions with running count at most `k`, counted value by value of the running count. -/
theorem pos_eq_sum (N k : ℕ) :
    pos P N k = ∑ k' ∈ range (k + 1), ((range N).filter (fun p => cnt P p = k')).card := by
  unfold pos
  rw [card_eq_sum_card_fiberwise (f := cnt P) (t := range (k + 1))]
  · refine sum_congr rfl ?_
    intro k' hk'
    congr 1
    ext p
    simp only [mem_filter, mem_range] at hk' ⊢
    constructor
    · rintro ⟨⟨h1, _⟩, h3⟩
      exact ⟨h1, h3⟩
    · rintro ⟨h1, h3⟩
      exact ⟨⟨h1, by omega⟩, h3⟩
  · intro p hp
    simp only [coe_filter, mem_range, Set.mem_setOf_eq, coe_range, Set.mem_Iio] at hp ⊢
    omega

/-- Summing over the enumeration is summing over the positions where `P` holds. -/
theorem sum_pos {M : Type*} [AddCommMonoid M] (N : ℕ) (f : ℕ → M) :
    ∑ k ∈ range (nnz P N), f (pos P N k) = ∑ p ∈ (range N).filter P, f p := by
  refine sum_nbij' (fun k => pos P N k) (fun p => cnt P p - 1) ?_ ?_ ?_ ?_ ?_
  · intro k hk
    obtain ⟨h1, h2, _⟩ := pos_spec P (mem_range.mp hk)
    simp [h1, h2]
  · intro p hp
    simp only [mem_filter, mem_range] at hp
    have h1 := cnt_pos P hp.2
    have h2 := cnt_le_nnz P hp.1
    simp only [mem_range]
    omega
  · intro k hk
    obtain ⟨_, _, h3⟩ := pos_spec P (mem_range.mp hk)
    simp only [h3, Nat.add_sub_cancel]
  · intro p hp
    simp only [mem_filter, mem_range] at hp
    exact pos_cnt_pred P hp.2 hp.1
  · intro k _
    rfl

/-- On a row-major `R × C` grid: the enumerated positions lying in column `j`, summed as a function of their
    row, give the sum over the rows `i` with `P (i * C + j)`. -/
theorem sum_pos_col {M : Type*} [AddCommMonoid M] (R C j : ℕ) (hj : j < C) (h : ℕ → M) :
    ∑ k ∈ (range (nnz P (R * C))).filter (fun k => pos P (R * C) k % C = j), h (pos P (R * C) k / C)
      = ∑ i ∈ (range R).filter (fun i => P (i * C + j)), h i := by
  have hC : 0 < C := by omega
  rw [sum_filter, sum_pos P (R * C) (fun p => if p % C = j then h (p / C) else 0), ← sum_filter, filter_filter]
  refine sum_nbij' (fun p => p / C) (fun i => i * C + j) ?_ ?_ ?_ ?_ ?_
  · intro p hp
    simp only [mem_filter, mem_range] at hp ⊢
    obtain ⟨hp1, hp2, hp3⟩ := hp
    have hdm := Nat.div_add_mod' p C
    rw [hp3] at hdm
    refine ⟨?_, ?_⟩
    · by_contra hge
      have : R * C ≤ p / C * C := Nat.mul_le_mul_right C (Nat.le_of_not_lt hge)
      omega
    · rw [hdm]
      exact hp2
  · intro i hi
    simp only [mem_filter, mem_range] at hi ⊢
    have hle : (i + 1) * C ≤ R * C := Nat.mul_le_mul_right C (by omega)
    have hexp : (i + 1) * C = i * C + C := by ring
    refine ⟨by omega, hi.2, ?_⟩
    rw [Nat.add_comm, Nat.add_mul_mod_self_right, Nat.mod_eq_of_lt hj]
  · intro p hp
    simp only [mem_filter, mem_range] at hp
    have hdm := Nat.div_add_mod' p C
    show p / C * C + j = p
    rw [← hp.2.2]
    exact hdm
  · intro i _
    show (i * C + j) / C = i
    rw [Nat.add_comm, Nat.add_mul_div_right _ _ hC, Nat.div_eq_of_lt hj, Nat.zero_add]
  · intro p _
    rfl

end Cert.Lib.NonzeroEnum
-- ==== Proof.LibIntScan.lean ====
/-
  An integer running sum, as the host writes it, read at a position.

  A cumulative sum of a length-`N` integer array is printed as a windowed reduction: window `N`, stride `1`, padded
  `N - 1` on the low side, adding. At position `j` the window covers the padded positions `j … j + N - 1`, of which
  exactly the last `j + 1` fall on the array, at positions `0 … j`; the padding contributes the initial value `0`.
  So the result at `j` is the sum (of 32-bit words, wrapping) of the entries at positions `q ≤ j` (`cumsum_apply`).
  `tot x` reads a rank-1 array as a total function of the position (zero past the end), so that the sum can be
  written over a range of naturals.
-/
import Idealize.ShloMosaic.PureOps.Contract
import Idealize.ShloMosaic.Lib.ValueIdx
import Mathlib.Algebra.BigOperators.Group.Finset.Basic
import Mathlib.Algebra.BigOperators.Fin
import Mathlib.Data.BitVec

open Idealize.ShloMosaic Idealize.ShloMosaic.ValueIdx

namespace Cert.Lib.IntScan

/-- A left fold of word addition over a list is the starting word plus the list's sum. -/
theorem foldl_addi_eq_sum {M : ℕ} (g : Fin M → BitVec 32) (l : List (Fin M)) (a : BitVec 32) :
    l.foldl (fun r n => IntOp.addi r (g n)) a = a + (l.map g).sum := by
  induction l generalizing a with
  | nil => simp
  | cons n l ih =>
    rw [List.foldl_cons, ih, List.map_cons, List.sum_cons]
    unfold IntOp.addi
    rw [add_assoc]

/-- A rank-1 array as a total function of the position: zero past the end. -/
def tot {N : ℕ} (x : IVec ⟨1, ![N]⟩ 32) (q : ℕ) : BitVec 32 :=
  if hq : q < N then x (fun _ => ⟨q, by simpa using hq⟩) else 0

/-- The windowed sum with window `N`, stride `1` and low padding `N - 1` (a cumulative sum) at position `j` is the sum
    of the entries at positions `q ≤ j`. -/
theorem cumsum_apply (N : ℕ) (x : IVec ⟨1, ![N]⟩ 32) (init : IVec ⟨0, ![]⟩ 32)
    (h : (⟨1, ![N]⟩ : Shape).ReduceWindows ![N] ![1] ![N - 1] ![0] ⟨1, ![N]⟩) (hu : 0 < (⟨0, ![]⟩ : Shape).numel)
    (hinit : init (Shape.Idx.first hu) = 0)
    (j : (⟨1, ![N]⟩ : Shape).Idx) :
    Host.reduceWindow IntOp.addi ![N] ![1] ![N - 1] ![0] x init h hu j
      = ∑ q ∈ Finset.range ((j 0).val + 1), tot x q := by
  unfold Host.reduceWindow
  dsimp only
  rw [hinit]
  have hterm : ∀ n : Fin (⟨1, ![N]⟩ : Shape).numel,
      (if hin : ∀ (a : Fin 1),
                ![N - 1] a ≤ (j (Fin.cast h.1.symm a)).val * ![1] a + ((⟨1, ![N]⟩ : Shape).rowMajor.symm n a).val ∧
                  (j (Fin.cast h.1.symm a)).val * ![1] a + ((⟨1, ![N]⟩ : Shape).rowMajor.symm n a).val - ![N - 1] a <
                    ![N] a then
            x fun a => ⟨(j (Fin.cast h.1.symm a)).val * ![1] a + ((⟨1, ![N]⟩ : Shape).rowMajor.symm n a).val - ![N - 1] a, (hin a).2⟩
          else (0 : BitVec 32))
      = if N - 1 ≤ (j 0).val + n.val then tot x ((j 0).val + n.val - (N - 1)) else 0 := by
    intro n
    have hn : (((⟨1, ![N]⟩ : Shape).rowMajor.symm n) 0).val = n.val := by
      have := Shape.rowMajor_val_one ((⟨1, ![N]⟩ : Shape).rowMajor.symm n)
      rw [Equiv.apply_symm_apply] at this
      exact this.symm
    have hj0 : (j 0).val < N := by simpa using (j 0).isLt
    have hnN : n.val < N := by simpa [Shape.numel] using n.isLt
    by_cases hc : N - 1 ≤ (j 0).val + n.val
    · rw [if_pos hc, dif_pos]
      · unfold tot
        rw [dif_pos (by omega)]
        congr 1
        funext a
        obtain rfl : a = 0 := Subsingleton.elim _ _
        refine Fin.ext ?_
        simp [hn]
      · intro a
        obtain rfl : a = 0 := Subsingleton.elim _ _
        simp [hn]
        omega
    · rw [if_neg hc, dif_neg]
      intro hh
      have := (hh 0).1
      simp [hn] at this
      omega
  simp only [hterm]
  rw [foldl_addi_eq_sum, zero_add, ← Fin.sum_univ_def]
  have hM : (⟨1, ![N]⟩ : Shape).numel = N := by simp [Shape.numel]
  have hj0 : (j 0).val < N := by simpa using (j 0).isLt
  rw [Fin.sum_univ_eq_sum_range (fun n => if N - 1 ≤ (j 0).val + n then tot x ((j 0).val + n - (N - 1)) else 0), hM,
    ← Finset.sum_filter]
  refine Finset.sum_nbij' (fun n => (j 0).val + n - (N - 1)) (fun q => q + (N - 1) - (j 0).val) ?_ ?_ ?_ ?_ ?_
  · intro n hn
    simp only [Finset.mem_filter, Finset.mem_range] at hn ⊢
    omega
  · intro q hq
    simp only [Finset.mem_filter, Finset.mem_range] at hq ⊢
    omega
  · intro n hn
    simp only [Finset.mem_filter, Finset.mem_range] at hn
    omega
  · intro q hq
    simp only [Finset.mem_range] at hq
    omega
  · intro n _
    rfl

/-- A sum over the index type of a rank-1 shape, of a function of the position, is the sum over the positions. -/
theorem sum_idx1 {M : Type*} [AddCommMonoid M] (N : ℕ) (g : ℕ → M) :
    ∑ j : (⟨1, ![N]⟩ : Shape).Idx, g (j 0).val = ∑ q ∈ Finset.range N, g q := by
  rw [← Equiv.sum_comp (⟨1, ![N]⟩ : Shape).rowMajor.symm]
  have hn : ∀ n : Fin (⟨1, ![N]⟩ : Shape).numel, (((⟨1, ![N]⟩ : Shape).rowMajor.symm n) 0).val = n.val := by
    intro n
    have := Shape.rowMajor_val_one ((⟨1, ![N]⟩ : Shape).rowMajor.symm n)
    rw [Equiv.apply_symm_apply] at this
    exact this.symm
  simp only [hn]
  rw [Fin.sum_univ_eq_sum_range (fun n => g n)]
  have hM : (⟨1, ![N]⟩ : Shape).numel = N := by simp [Shape.numel]
  rw [hM]

/-- An integer sum reduction over every axis (the result a scalar): the initial word plus the sum of all entries. -/
theorem reduce_addi_all {s t u : Shape} {axes : List (Fin s.rank)} (x : IVec s 32) (init : IVec u 32)
    (h : s.ReducesTo axes t) (hu : 0 < u.numel) [Subsingleton t.Idx] (j : t.Idx) :
    Host.reduce IntOp.addi x init h hu j = init (Shape.Idx.first hu) + ∑ i : s.Idx, x i := by
  unfold Host.reduce
  have hf : (List.finRange s.numel).filter (fun n => h.drop (s.rowMajor.symm n) = j) = List.finRange s.numel := by
    apply List.filter_eq_self.mpr
    intro n _
    simp [Subsingleton.elim (h.drop (s.rowMajor.symm n)) j]
  rw [hf, foldl_addi_eq_sum (fun n => x (s.rowMajor.symm n)), ← Fin.sum_univ_def]
  congr 1
  exact Equiv.sum_comp s.rowMajor.symm x

/-- A sum over the index type of an `R × C` shape is the sum over the flat row-major positions. -/
theorem sum_idx2_flat {M : Type*} [AddCommMonoid M] (R C : ℕ) (g : (⟨2, ![R, C]⟩ : Shape).Idx → M) (hC : 0 < C) :
    ∑ i : (⟨2, ![R, C]⟩ : Shape).Idx, g i
      = ∑ p ∈ Finset.range (R * C),
          if hp : p < R * C then g (ix2 ⟨p / C, (Nat.div_lt_iff_lt_mul hC).mpr hp⟩ ⟨p % C, Nat.mod_lt _ hC⟩) else 0 := by
  rw [← Equiv.sum_comp (⟨2, ![R, C]⟩ : Shape).rowMajor.symm]
  have hM : (⟨2, ![R, C]⟩ : Shape).numel = R * C := by simp [Shape.numel, Fin.prod_univ_two]
  have hn : ∀ n : Fin (⟨2, ![R, C]⟩ : Shape).numel,
      g ((⟨2, ![R, C]⟩ : Shape).rowMajor.symm n)
        = (fun p : ℕ => if hp : p < R * C then g (ix2 ⟨p / C, (Nat.div_lt_iff_lt_mul hC).mpr hp⟩ ⟨p % C, Nat.mod_lt _ hC⟩) else 0) n.val := by
    intro n
    have hlt : n.val < R * C := hM ▸ n.isLt
    simp only [dif_pos hlt]
    congr 1
    rw [Equiv.symm_apply_eq]
    refine Fin.ext ?_
    rw [Shape.rowMajor_val_two]
    show n.val = n.val / C * C + n.val % C
    exact (Nat.div_add_mod' n.val C).symm
  simp only [hn]
  rw [Fin.sum_univ_eq_sum_range (fun p : ℕ => if hp : p < R * C then g (ix2 ⟨p / C, (Nat.div_lt_iff_lt_mul hC).mpr hp⟩ ⟨p % C, Nat.mod_lt _ hC⟩) else 0), hM]

end Cert.Lib.IntScan
-- ==== Proof.LibScatterRows.lean ====
/-
  Scatters that take one index per update, read at an operand index.

  Two shapes of `stablehlo.scatter` dimension numbers: a length-`N` vector of updates scattered into a length-`K`
  operand (`vecDims`), and `N` rows of width `D` scattered into a `K × D` operand (`rowDims`), in both cases the
  indices an `[N, 1]` array of signed words, one per update (row). Update `n` lands at operand position (row) `t`
  exactly when its index word, read signed, is `t`, and is dropped when that is outside the operand
  (`vec_resultIdx?_eq_some`, `row_resultIdx?_eq_some`). An integer scatter with an adding body is, at each operand
  index, the operand's word plus the sum of the update words landing there (`scatter_addi_apply`: the fold over the
  updates is that sum, word addition being commutative and associative), and at the extended reals the float
  scatter-add is the same with real sums (`scatterAdd_vec_apply`, `scatterAdd_row_apply`).
-/
import Idealize.ShloMosaic.PureOps.Contract
import Idealize.ShloMosaic.PureOps.Ideal
import Idealize.ShloMosaic.Lib.ValueIdx
import Mathlib.Algebra.BigOperators.Group.Finset.Basic
import Mathlib.Algebra.BigOperators.Fin
import Mathlib.Data.BitVec

open Idealize.ShloMosaic Idealize.ShloMosaic.ValueIdx

namespace Cert.Lib.ScatterRows

/-- Scatter of a length-`N` vector of updates into a length-`K` operand, one index per update. -/
abbrev vecDims (K N : ℕ) (wf : ScatterDims.WF ⟨1, ![K]⟩ ⟨2, ![N, 1]⟩ ⟨1, ![N]⟩ [] [0] [0] 1) :
    ScatterDims ⟨1, ![K]⟩ ⟨2, ![N, 1]⟩ ⟨1, ![N]⟩ where
  updateWindowDims := []
  insertedWindowDims := [0]
  scatterDimsToOperandDims := [0]
  indexVectorDim := 1
  wf := wf

theorem vec_start {K N w : ℕ} (wf) (j : (⟨1, ![N]⟩ : Shape).Idx) (idx : IVec ⟨2, ![N, 1]⟩ w) (a : Fin 1) :
    (vecDims K N wf).start j idx a = (idx (ix2 (j 0) 0)).toInt := by
  obtain rfl : a = 0 := Subsingleton.elim _ _
  unfold ScatterDims.start
  rw [dif_pos (show (0 : Fin 1) ∈ (vecDims K N wf).scatterDimsToOperandDims from List.mem_singleton.mpr rfl)]
  congr 2
  funext b
  refine Fin.ext ?_
  match b with
  | ⟨0, _⟩ => rfl
  | ⟨1, _⟩ => rfl

theorem vec_window {K N : ℕ} (wf) (j : (⟨1, ![N]⟩ : Shape).Idx) (a : Fin 1) :
    (vecDims K N wf).window j a = 0 := by
  obtain rfl : a = 0 := Subsingleton.elim _ _
  unfold ScatterDims.window
  rw [dif_neg]
  simp [ScatterDims.sKept, Shape.kept]

theorem vec_resultIdx?_eq_some {K N w : ℕ} (wf) (j : (⟨1, ![N]⟩ : Shape).Idx) (idx : IVec ⟨2, ![N, 1]⟩ w)
    (i : (⟨1, ![K]⟩ : Shape).Idx) :
    (vecDims K N wf).resultIdx? j idx = some i ↔ (idx (ix2 (j 0) 0)).toInt = ((i 0).val : ℤ) := by
  unfold ScatterDims.resultIdx?
  simp only [vec_start, vec_window]
  have hi : ((i 0).val : ℤ) < K := by
    have := (i 0).isLt
    simp at this
    exact_mod_cast this
  constructor
  · intro h
    split at h
    · rename_i hc
      have h1 := Option.some.inj h
      have h0 := congrArg (fun f => (f 0).val) h1
      simp only at h0
      have := (hc 0).1
      omega
    · cases h
  · intro h
    rw [dif_pos]
    · congr 1
      funext a
      obtain rfl : a = 0 := Subsingleton.elim _ _
      refine Fin.ext ?_
      simp [h]
    · intro a
      obtain rfl : a = 0 := Subsingleton.elim _ _
      simp [h]
      exact_mod_cast hi

/-- Scatter of `N` rows of width `D` into a `K × D` operand, one row index per update row. -/
abbrev rowDims (K D N : ℕ) (wf : ScatterDims.WF ⟨2, ![K, D]⟩ ⟨2, ![N, 1]⟩ ⟨2, ![N, D]⟩ [1] [0] [0] 1) :
    ScatterDims ⟨2, ![K, D]⟩ ⟨2, ![N, 1]⟩ ⟨2, ![N, D]⟩ where
  updateWindowDims := [1]
  insertedWindowDims := [0]
  scatterDimsToOperandDims := [0]
  indexVectorDim := 1
  wf := wf

theorem row_start0 {K D N w : ℕ} (wf) (j : (⟨2, ![N, D]⟩ : Shape).Idx) (idx : IVec ⟨2, ![N, 1]⟩ w) :
    (rowDims K D N wf).start j idx 0 = (idx (ix2 (j 0) 0)).toInt := by
  unfold ScatterDims.start
  rw [dif_pos (show (0 : Fin 2) ∈ (rowDims K D N wf).scatterDimsToOperandDims from List.mem_singleton.mpr rfl)]
  congr 2
  funext b
  refine Fin.ext ?_
  match b with
  | ⟨0, _⟩ => rfl
  | ⟨1, _⟩ => rfl

theorem row_start1 {K D N w : ℕ} (wf) (j : (⟨2, ![N, D]⟩ : Shape).Idx) (idx : IVec ⟨2, ![N, 1]⟩ w) :
    (rowDims K D N wf).start j idx 1 = 0 := by
  unfold ScatterDims.start
  rw [dif_neg]
  simp

theorem row_window0 {K D N : ℕ} (wf) (j : (⟨2, ![N, D]⟩ : Shape).Idx) :
    (rowDims K D N wf).window j 0 = 0 := by
  unfold ScatterDims.window
  rw [dif_neg]
  simp [ScatterDims.sKept, Shape.kept]

theorem row_window1 {K D N : ℕ} (wf) (j : (⟨2, ![N, D]⟩ : Shape).Idx) :
    (rowDims K D N wf).window j 1 = (j 1).val := by
  unfold ScatterDims.window
  rw [dif_pos (by simp [ScatterDims.sKept, Shape.kept])]
  first
  | rfl
  | simp [ScatterDims.sKept, Shape.kept, List.finRange]

theorem row_resultIdx?_eq_some {K D N w : ℕ} (wf) (j : (⟨2, ![N, D]⟩ : Shape).Idx) (idx : IVec ⟨2, ![N, 1]⟩ w)
    (i : (⟨2, ![K, D]⟩ : Shape).Idx) :
    (rowDims K D N wf).resultIdx? j idx = some i ↔
      (idx (ix2 (j 0) 0)).toInt = ((i 0).val : ℤ) ∧ (j 1).val = (i 1).val := by
  unfold ScatterDims.resultIdx?
  have hi0 : ((i 0).val : ℤ) < K := by
    have := (i 0).isLt
    simp at this
    exact_mod_cast this
  have hj1 : (j 1).val < D := by
    have := (j 1).isLt
    simpa using this
  constructor
  · intro h
    split at h
    · rename_i hc
      have h1 := Option.some.inj h
      have h00 := congrArg (fun f => (f 0).val) h1
      have h01 := congrArg (fun f => (f 1).val) h1
      simp only [row_start0, row_start1, row_window0, row_window1] at h00 h01
      have := (hc 0).1
      simp only [row_start0, row_window0] at this
      constructor
      · omega
      · omega
    · cases h
  · rintro ⟨h0, h1⟩
    rw [dif_pos]
    · congr 1
      funext a
      refine Fin.ext ?_
      match a with
      | ⟨0, _⟩ =>
        show ((rowDims K D N wf).start j idx 0 + ((rowDims K D N wf).window j 0 : ℤ)).toNat = (i 0).val
        rw [row_start0, row_window0, h0]
        simp
      | ⟨1, _⟩ =>
        show ((rowDims K D N wf).start j idx 1 + ((rowDims K D N wf).window j 1 : ℤ)).toNat = (i 1).val
        rw [row_start1, row_window1, ← h1]
        simp
    · intro a
      match a with
      | ⟨0, _⟩ =>
        show 0 ≤ (rowDims K D N wf).start j idx 0 + ((rowDims K D N wf).window j 0 : ℤ) ∧
          (rowDims K D N wf).start j idx 0 + ((rowDims K D N wf).window j 0 : ℤ) < ((⟨2, ![K, D]⟩ : Shape).size 0 : ℤ)
        rw [row_start0, row_window0, h0]
        simp
        exact_mod_cast hi0
      | ⟨1, _⟩ =>
        show 0 ≤ (rowDims K D N wf).start j idx 1 + ((rowDims K D N wf).window j 1 : ℤ) ∧
          (rowDims K D N wf).start j idx 1 + ((rowDims K D N wf).window j 1 : ℤ) < ((⟨2, ![K, D]⟩ : Shape).size 1 : ℤ)
        rw [row_start1, row_window1]
        simp
        exact_mod_cast hj1

/-- An integer scatter with an adding body, read at an operand index: the operand's word plus the sum of the
    update words that land there (the fold over the updates in row-major order is that sum, word addition being
    commutative). -/
theorem scatter_addi_apply {s si u : Shape} {w : ℕ} (d : ScatterDims s si u) (x : IVec s 32) (idx : IVec si w)
    (upd : IVec u 32) (i : s.Idx) :
    Host.scatter d IntOp.addi x idx upd i
      = x i + ∑ j : u.Idx, if d.resultIdx? j idx = some i then upd j else 0 := by
  unfold Host.scatter
  have key : ∀ (l : List (Fin u.numel)) (x : IVec s 32),
      l.foldl (fun r n => match d.resultIdx? (u.rowMajor.symm n) idx with
        | some i => fun i' => if i' = i then IntOp.addi (r i) (upd (u.rowMajor.symm n)) else r i'
        | none => r) x i
      = x i + (l.map (fun n => if d.resultIdx? (u.rowMajor.symm n) idx = some i then upd (u.rowMajor.symm n) else 0)).sum := by
    intro l
    induction l with
    | nil => intro x; simp
    | cons n l ih =>
      intro x
      rw [List.foldl_cons, ih, List.map_cons, List.sum_cons, ← add_assoc]
      congr 1
      cases hr : d.resultIdx? (u.rowMajor.symm n) idx with
      | none => simp
      | some i0 =>
        by_cases hii : i = i0
        · subst hii
          simp [IntOp.addi]
        · have hne : ¬ (some i0 = some i) := fun h => hii (Option.some.inj h).symm
          simp [hii, hne]
  refine (key (List.finRange u.numel) x).trans ?_
  rw [← Fin.sum_univ_def]
  congr 1
  exact Equiv.sum_comp u.rowMajor.symm (fun j => if d.resultIdx? j idx = some i then upd j else 0)

/-- The float scatter-add of a vector of updates at the extended reals: the operand's entry plus the sum of the
    updates whose index word, read signed, is this position. -/
theorem scatterAdd_vec_apply {K N w : ℕ} (wf) (x : (⟨1, ![K]⟩ : Shape).Idx → EReal) (idx : IVec ⟨2, ![N, 1]⟩ w)
    (upd : (⟨1, ![N]⟩ : Shape).Idx → EReal) (i : (⟨1, ![K]⟩ : Shape).Idx) :
    Ideal.hostScatterAdd (vecDims K N wf) x idx upd i
      = x i + ∑ j : (⟨1, ![N]⟩ : Shape).Idx, if (idx (ix2 (j 0) 0)).toInt = ((i 0).val : ℤ) then upd j else 0 := by
  unfold Ideal.hostScatterAdd
  rw [Finset.sum_filter]
  simp only [vec_resultIdx?_eq_some]

/-- The float scatter-add of rows at the extended reals: the operand's entry at `(t, f)` plus the sum over the update
    rows whose index word, read signed, is `t`, of their entry in column `f`. -/
theorem scatterAdd_row_apply {K D N w : ℕ} (wf) (x : (⟨2, ![K, D]⟩ : Shape).Idx → EReal) (idx : IVec ⟨2, ![N, 1]⟩ w)
    (upd : (⟨2, ![N, D]⟩ : Shape).Idx → EReal) (i : (⟨2, ![K, D]⟩ : Shape).Idx) :
    Ideal.hostScatterAdd (rowDims K D N wf) x idx upd i
      = x i + ∑ j : (⟨2, ![N, D]⟩ : Shape).Idx,
          if (idx (ix2 (j 0) 0)).toInt = ((i 0).val : ℤ) ∧ (j 1).val = (i 1).val then upd j else 0 := by
  unfold Ideal.hostScatterAdd
  rw [Finset.sum_filter]
  simp only [row_resultIdx?_eq_some]

end Cert.Lib.ScatterRows
-- ==== Proof.LibWords.lean ====
/-
  32-bit words that hold small naturals.

  A natural below 2^31 is represented by its word faithfully, with the sign bit clear, so on such words the signed
  operations of the integer unit agree with the operations on naturals: the signed value is the natural, signed
  comparisons are the comparisons of the naturals, and — for a positive divisor, away from the division's corner
  cases — signed division and remainder are the natural quotient and remainder; the signed maximum is the maximum.
-/
import Idealize.ShloMosaic.PureOps.Float
import Mathlib.Data.BitVec

open Idealize.ShloMosaic

namespace Cert.Lib.Words

/-- The 32-bit word of a natural. -/
abbrev W (a : ℕ) : BitVec 32 := BitVec.ofNat 32 a

theorem toNat_W {a : ℕ} (h : a < 2 ^ 31) : (W a).toNat = a := by
  simp [W, BitVec.toNat_ofNat]; omega

theorem msb_W {a : ℕ} (h : a < 2 ^ 31) : (W a).msb = false := by
  rw [BitVec.msb_eq_decide]; simp [toNat_W h]; omega

theorem toInt_W {a : ℕ} (h : a < 2 ^ 31) : (W a).toInt = (a : ℤ) := by
  rw [BitVec.toInt_eq_toNat_cond, toNat_W h]; simp; omega

theorem slt_W {a b : ℕ} (ha : a < 2 ^ 31) (hb : b < 2 ^ 31) : (W a).slt (W b) = decide (a < b) := by
  simp [BitVec.slt, toInt_W ha, toInt_W hb]

theorem sle_W {a b : ℕ} (ha : a < 2 ^ 31) (hb : b < 2 ^ 31) : (W a).sle (W b) = decide (a ≤ b) := by
  simp [BitVec.sle, toInt_W ha, toInt_W hb]

theorem W_inj {a b : ℕ} (ha : a < 2 ^ 31) (hb : b < 2 ^ 31) : W a = W b ↔ a = b := by
  constructor
  · intro h; have := congrArg BitVec.toNat h; rwa [toNat_W ha, toNat_W hb] at this
  · rintro rfl; rfl

theorem sdiv_W {a b : ℕ} (ha : a < 2 ^ 31) (hb : b < 2 ^ 31) : (W a).sdiv (W b) = W (a / b) := by
  rw [BitVec.sdiv_eq]
  simp only [msb_W ha, msb_W hb]
  apply BitVec.eq_of_toNat_eq
  have : a / b < 2 ^ 31 := lt_of_le_of_lt (Nat.div_le_self _ _) ha
  rw [BitVec.udiv_eq, BitVec.toNat_udiv, toNat_W ha, toNat_W hb, toNat_W this]

theorem srem_W {a b : ℕ} (ha : a < 2 ^ 31) (hb : b < 2 ^ 31) : (W a).srem (W b) = W (a % b) := by
  rw [BitVec.srem_eq]
  simp only [msb_W ha, msb_W hb]
  apply BitVec.eq_of_toNat_eq
  have : a % b < 2 ^ 31 := lt_of_le_of_lt (Nat.mod_le _ _) ha
  rw [BitVec.toNat_umod, toNat_W ha, toNat_W hb, toNat_W this]

theorem not_corner {a b : ℕ} (hb : b < 2 ^ 31) (hb0 : 0 < b) : ¬ IntOp.SDivCorner (W a) (W b) := by
  unfold IntOp.SDivCorner
  rintro (h | ⟨_, h⟩)
  · have h' : W b = W 0 := h
    have := (W_inj hb (by decide)).mp h'
    omega
  · have := congrArg BitVec.toNat h
    rw [toNat_W hb] at this
    simp at this
    omega

theorem divsi_W (u : ArithUnit) {a b : ℕ} (ha : a < 2 ^ 31) (hb : b < 2 ^ 31) (hb0 : 0 < b) :
    IntOp.divsi u (W a) (W b) = W (a / b) := by
  unfold IntOp.divsi
  rw [if_neg (not_corner hb hb0)]
  exact sdiv_W ha hb

theorem remsi_W (u : ArithUnit) {a b : ℕ} (ha : a < 2 ^ 31) (hb : b < 2 ^ 31) (hb0 : 0 < b) :
    IntOp.remsi u (W a) (W b) = W (a % b) := by
  unfold IntOp.remsi
  rw [if_neg (not_corner hb hb0)]
  exact srem_W ha hb

theorem cmpi_slt_W {a b : ℕ} (ha : a < 2 ^ 31) (hb : b < 2 ^ 31) :
    IntOp.cmpi .slt (W a) (W b) = if a < b then 1#1 else 0#1 := by
  unfold IntOp.cmpi
  simp only [slt_W ha hb]
  by_cases h : a < b <;> simp [h]

theorem cmpi_sge_W {a b : ℕ} (ha : a < 2 ^ 31) (hb : b < 2 ^ 31) :
    IntOp.cmpi .sge (W a) (W b) = if b ≤ a then 1#1 else 0#1 := by
  unfold IntOp.cmpi
  simp only [sle_W hb ha]
  by_cases h : b ≤ a <;> simp [h]

theorem cmpi_sle_W {a b : ℕ} (ha : a < 2 ^ 31) (hb : b < 2 ^ 31) :
    IntOp.cmpi .sle (W a) (W b) = if a ≤ b then 1#1 else 0#1 := by
  unfold IntOp.cmpi
  simp only [sle_W ha hb]
  by_cases h : a ≤ b <;> simp [h]

theorem cmpi_ne_W {a b : ℕ} (ha : a < 2 ^ 31) (hb : b < 2 ^ 31) :
    IntOp.cmpi .ne (W a) (W b) = if a ≠ b then 1#1 else 0#1 := by
  unfold IntOp.cmpi
  by_cases h : a = b
  · subst h; simp
  · have hne : W a ≠ W b := fun h' => h ((W_inj ha hb).mp h')
    have hb' : (W a != W b) = true := by simpa [bne_iff_ne] using hne
    simp [h, hb']

theorem maxsi_W {a b : ℕ} (ha : a < 2 ^ 31) (hb : b < 2 ^ 31) :
    IntOp.maxsi (W a) (W b) = W (max a b) := by
  unfold IntOp.maxsi
  rw [slt_W hb ha]
  by_cases h : b < a
  · simp [h, Nat.max_eq_left (Nat.le_of_lt h)]
  · simp [h, Nat.max_eq_right (Nat.le_of_not_lt h)]

end Cert.Lib.Words
-- ==== Proof.RefEdges.lean ====
/-
  The reference's edge list, read as numbers.

  The reference enumerates the nonzero entries of the adjacency with two running sums: the running count of nonzero
  entries along the flattened (row-major) adjacency, a tally of how many positions carry each running count, and the
  running sum of that tally. With `P p` saying that the entry at flat position `p` is not zero, and `cnt`, `nnz`, `pos`
  the counts of the enumeration library module, the words of each stage are the words of those naturals (all below
  2^31, so the signed integer operations act on them as on naturals): the first running sum at `p` is `cnt P p`, the
  clipping and negative-index wrap leave it alone, the tally at `k` is the number of positions with running count `k`,
  the second running sum at `k` is `pos P N k` — the flat position of the `(k+1)`-st nonzero entry —, the floored
  quotient and the remainder by the row length give its row and column, the total is `nnz P N`, and from the total on
  both index vectors hold the fill value `1536`, one past the last row (`src_lt`, `dst_lt`, `dst_ge`).
-/
import proofs.«112055_g42752104464586_cont_sun_m_355_17_alg».proof.Proof.RefSpec
import proofs.«112055_g42752104464586_cont_sun_m_355_17_alg».proof.Proof.LibNonzeroEnum
import proofs.«112055_g42752104464586_cont_sun_m_355_17_alg».proof.Proof.LibIntScan
import proofs.«112055_g42752104464586_cont_sun_m_355_17_alg».proof.Proof.LibScatterRows
import proofs.«112055_g42752104464586_cont_sun_m_355_17_alg».proof.Proof.LibWords
import Idealize.ShloMosaic.Lib.ValueIdx
import Idealize.ShloMosaic.Lib.Pipeline.Value
import Idealize.ShloMosaic.PureOps.Ideal.Laws

noncomputable section

open Classical

namespace Cert.RefEdges

open Idealize.ShloMosaic Idealize.ShloMosaic.ValueIdx Cert.ReferenceIdeal Cert.Lib.Words Cert.Lib.NonzeroEnum

variable [Cert.ReferenceIdeal.Facts]
open Cert.ReferenceIdeal.Facts₀ Cert.ReferenceIdeal.Facts

/-- The adjacency's entry at the flat (row-major) position `p` is not zero. -/
def P (adj : FVec Ideal S1536x1536 .f32) (p : ℕ) : Prop :=
  ∃ h : p < 2359296, adj (ix2 ⟨p / 1536, by omega⟩ ⟨p % 1536, Nat.mod_lt _ (by decide)⟩) ≠ (0 : EReal)

theorem mask_apply (adj : FVec Ideal S1536x1536 .f32) (i : S1536x1536.Idx) :
    Cert.RefSpec.mask (F := Ideal) adj i = if adj i ≠ (0 : EReal) then 1#1 else 0#1 := by
  unfold Cert.RefSpec.mask
  show Ideal.cmp .une (adj i) (Ideal.ofBits .f32 0x00000000#32) = _
  rw [Ideal.ofBits_zero_f32]
  unfold Ideal.cmp
  by_cases h : adj i = (0 : EReal) <;> simp [h]

theorem tot_mask (adj : FVec Ideal S1536x1536 .f32) (h1 : S1536x1536.ShapeCasts S2359296) (h2 : 1 < 32) (q : ℕ) :
    Cert.Lib.IntScan.tot (extui 32 (shapeCast S2359296 (Cert.RefSpec.mask (F := Ideal) adj) h1) h2) q
      = if P adj q then (1 : BitVec 32) else 0 := by
  unfold Cert.Lib.IntScan.tot
  by_cases hq : q < 2359296
  · rw [dif_pos hq, extui_apply]
    rw [shapeCast_apply (Cert.RefSpec.mask (F := Ideal) adj) h1 _
      (ix2 ⟨q / 1536, by omega⟩ ⟨q % 1536, Nat.mod_lt _ (by decide)⟩) ?_]
    · rw [mask_apply]
      by_cases hP : adj (ix2 ⟨q / 1536, by omega⟩ ⟨q % 1536, Nat.mod_lt _ (by decide)⟩) ≠ (0 : EReal)
      · have hPq : P adj q := ⟨hq, hP⟩
        rw [if_pos hP, if_pos hPq]
        rfl
      · have hPq : ¬ P adj q := fun ⟨_, h⟩ => hP h
        rw [if_neg hP, if_neg hPq]
        rfl
    · rw [Shape.rowMajor_val_two, Shape.rowMajor_val_one]
      show q / 1536 * 1536 + q % 1536 = q
      omega
  · rw [dif_neg hq]
    have hPq : ¬ P adj q := fun ⟨h, _⟩ => hq h
    rw [if_neg hPq]

theorem sum_boole_W (Q : ℕ → Prop) [DecidablePred Q] (s : Finset ℕ) :
    (∑ q ∈ s, if Q q then (1 : BitVec 32) else 0) = W ((s.filter Q).card) := by
  rw [Finset.sum_boole]
  rfl

theorem csum_apply (adj : FVec Ideal S1536x1536 .f32) (p : ℕ) (hp : p < 2359296) :
    Cert.RefSpec.csum (F := Ideal) adj (ix1 ⟨p, hp⟩) = W (cnt (P adj) p) := by
  unfold Cert.RefSpec.csum Cert.RefSpec.scan
  dsimp only
  rw [Cert.Lib.IntScan.cumsum_apply 2359296 _ _ _ _ rfl]
  simp only [tot_mask]
  rw [sum_boole_W]
  rfl

theorem lt31 {a : ℕ} (h : a ≤ 2359296) : a < 2 ^ 31 := by omega

theorem csum_apply' (adj : FVec Ideal S1536x1536 .f32) (j : S2359296.Idx) :
    Cert.RefSpec.csum (F := Ideal) adj j = W (cnt (P adj) (j 0).val) := by
  have hj : (j 0).val < 2359296 := (j 0).isLt
  rw [eq_ix1 j]
  exact csum_apply adj (j 0).val hj

theorem cidx_apply' (adj : FVec Ideal S1536x1536 .f32) (j : S2359296.Idx) :
    Cert.RefSpec.cidx (F := Ideal) adj j = W (cnt (P adj) (j 0).val) := by
  have hj : (j 0).val < 2359296 := (j 0).isLt
  have hc : cnt (P adj) (j 0).val < 2 ^ 31 := lt31 (le_trans (cnt_le_succ _ _) (by omega))
  unfold Cert.RefSpec.cidx
  show Scalar.select (IntOp.cmpi .slt (IntOp.maxsi (W 0) (Cert.RefSpec.csum (F := Ideal) adj j)) (W 0))
      (IntOp.addi (IntOp.maxsi (W 0) (Cert.RefSpec.csum (F := Ideal) adj j)) (W 2359296))
      (IntOp.maxsi (W 0) (Cert.RefSpec.csum (F := Ideal) adj j)) = _
  rw [csum_apply', maxsi_W (by decide) hc, Nat.max_eq_right (Nat.zero_le _), cmpi_slt_W hc (by decide)]
  simp [Scalar.select]

theorem binc_apply (adj : FVec Ideal S1536x1536 .f32) (j : S2359296.Idx) :
    Cert.RefSpec.binc (F := Ideal) adj j
      = W (((Finset.range 2359296).filter (fun p => cnt (P adj) p = (j 0).val)).card) := by
  unfold Cert.RefSpec.binc
  dsimp only
  rw [show scatter_S2359296_S2359296x1_S2359296_n_0_0_1
        = Cert.Lib.ScatterRows.vecDims 2359296 2359296 scatter_S2359296_S2359296x1_S2359296_n_0_0_1_wf from rfl,
    Cert.Lib.ScatterRows.scatter_addi_apply]
  simp only [Cert.Lib.ScatterRows.vec_resultIdx?_eq_some]
  have h0 : ∀ (c : BitVec 32) (h) (x : S2359296.Idx), broadcastInDim S2359296 ![] h (constantI S_ 32 c) x = c :=
    fun _ _ _ => rfl
  have hb : ∀ x : S2359296.Idx,
      broadcastInDim S2359296x1 ![0] bcast_S2359296_S2359296x1_0 (Cert.RefSpec.cidx (F := Ideal) adj) (ix2 (x 0) 0)
        = Cert.RefSpec.cidx (F := Ideal) adj x := by
    intro x
    rw [broadcastInDim_apply _ _ _ _ x ?_]
    intro a
    obtain rfl : a = 0 := Subsingleton.elim _ _
    simp
  have hi : ∀ x : S2359296.Idx, ((W (cnt (P adj) (x 0).val)).toInt = ((j 0).val : ℤ)) ↔ cnt (P adj) (x 0).val = (j 0).val := by
    intro x
    have hx : (x 0).val < 2359296 := (x 0).isLt
    rw [toInt_W (lt31 (le_trans (cnt_le_succ _ _) (by omega)))]
    exact Nat.cast_inj
  simp only [h0, hb, cidx_apply', hi]
  show ((0 : BitVec 32) + ∑ x : S2359296.Idx, if cnt (P adj) (x 0).val = (j 0).val then (1 : BitVec 32) else 0) = _
  rw [zero_add, Cert.Lib.IntScan.sum_idx1 2359296 (fun q => if cnt (P adj) q = (j 0).val then (1 : BitVec 32) else 0),
    sum_boole_W]

theorem W_sum (s : Finset ℕ) (f : ℕ → ℕ) : W (∑ i ∈ s, f i) = ∑ i ∈ s, W (f i) := Nat.cast_sum s f

theorem tot_binc (adj : FVec Ideal S1536x1536 .f32) (q : ℕ) :
    Cert.Lib.IntScan.tot (Cert.RefSpec.binc (F := Ideal) adj) q
      = if q < 2359296 then W (((Finset.range 2359296).filter (fun p => cnt (P adj) p = q)).card) else 0 := by
  unfold Cert.Lib.IntScan.tot
  by_cases hq : q < 2359296
  · rw [dif_pos hq, if_pos hq, binc_apply]
  · rw [dif_neg hq, if_neg hq]

theorem flat_apply' (adj : FVec Ideal S1536x1536 .f32) (j : S2359296.Idx) :
    Cert.RefSpec.flat (F := Ideal) adj j = W (pos (P adj) 2359296 (j 0).val) := by
  have hj : (j 0).val < 2359296 := (j 0).isLt
  unfold Cert.RefSpec.flat Cert.RefSpec.scan
  dsimp only
  rw [Cert.Lib.IntScan.cumsum_apply 2359296 _ _ _ _ rfl, pos_eq_sum, W_sum]
  refine Finset.sum_congr rfl ?_
  intro q hq
  have hq' : q < 2359296 := by
    simp only [Finset.mem_range] at hq
    omega
  rw [tot_binc, if_pos hq']

theorem floorDiv_apply (v : IVec S2359296 32) (dd : ℕ) (hd0 : 0 < dd) (hd : dd < 2 ^ 31) (j : S2359296.Idx)
    (a : ℕ) (ha : a < 2 ^ 31) (hv : v j = W a) :
    Cert.RefSpec.floorDiv v (constantI S_ 32 (W dd)) j = W (a / dd) := by
  dsimp only [Cert.RefSpec.floorDiv, select, cmpi, andi, subi, Host.divsi, Host.remsi, signi, broadcastInDim, constantI]
  rw [hv, divsi_W .host ha hd hd0, remsi_W .host ha hd hd0]
  have hdn : ¬ (W dd = 0) := by
    intro h
    have h' : W dd = W 0 := h
    have := (W_inj hd (by decide)).mp h'
    omega
  simp only [hdn, msb_W hd, msb_W ha, Bool.false_eq_true, if_false]
  by_cases ha0 : a = 0
  · subst ha0
    have hz : (W 0 : BitVec 32) = 0 := rfl
    simp only [hz, if_true, Nat.zero_mod]
    have h2 : IntOp.cmpi CmpIPredicate.ne (0 : BitVec 32) 0 = 0#1 := by decide
    rw [h2]
    unfold IntOp.andi
    rw [BitVec.and_zero]
    exact select_zero _ _
  · have han : ¬ (W a = 0) := by
      intro h
      have h' : W a = W 0 := h
      exact ha0 ((W_inj ha (by decide)).mp h')
    simp only [han, if_false]
    have h2 : IntOp.cmpi CmpIPredicate.ne (1 : BitVec 32) 1 = 0#1 := by decide
    rw [h2]
    unfold IntOp.andi
    rw [BitVec.zero_and]
    exact select_zero _ _

theorem rem_apply (v : IVec S2359296 32) (dd : ℕ) (hd0 : 0 < dd) (hd : dd < 2 ^ 31) (j : S2359296.Idx)
    (a : ℕ) (ha : a < 2 ^ 31) (hv : v j = W a) :
    Cert.RefSpec.rem v (constantI S_ 32 (W dd)) j = W (a % dd) := by
  dsimp only [Cert.RefSpec.rem, select, cmpi, andi, addi, Host.remsi, broadcastInDim, constantI, id]
  have hdn : ¬ (W dd = 0#32) := by
    intro h
    have h' : W dd = W 0 := h
    have := (W_inj hd (by decide)).mp h'
    omega
  have hsel : Scalar.select (IntOp.cmpi CmpIPredicate.eq (W dd) 0#32) (1#32) (W dd) = W dd := by
    have : IntOp.cmpi CmpIPredicate.eq (W dd) 0#32 = 0#1 := by
      unfold IntOp.cmpi
      have hb : (W dd == 0#32) = false := by simpa [beq_eq_false_iff_ne] using hdn
      simp only [hb]
      rfl
    rw [this]
    exact select_zero _ _
  have hr : a % dd < 2 ^ 31 := lt_of_le_of_lt (Nat.mod_le _ _) ha
  rw [hsel, hv, remsi_W .host ha hd hd0, cmpi_slt_W hr (by decide : 0 < 2 ^ 31), cmpi_slt_W hd (by decide : 0 < 2 ^ 31)]
  simp only [Nat.not_lt_zero, if_false]
  have h2 : IntOp.cmpi CmpIPredicate.ne (0#1) (0#1) = 0#1 := by decide
  rw [h2]
  unfold IntOp.andi
  rw [BitVec.zero_and]
  exact select_zero _ _

instance : Subsingleton S_.Idx := ⟨fun a b => funext fun d => d.elim0⟩

theorem pos_le' (Q : ℕ → Prop) [DecidablePred Q] (N k : ℕ) : pos Q N k ≤ N := by
  unfold pos
  exact le_trans (Finset.card_filter_le _ _) (by simp)

theorem srcRaw_apply' (adj : FVec Ideal S1536x1536 .f32) (j : S2359296.Idx) :
    Cert.RefSpec.srcRaw (F := Ideal) adj j = W (pos (P adj) 2359296 (j 0).val / 1536 % 1536) := by
  have hp := pos_le' (P adj) 2359296 (j 0).val
  unfold Cert.RefSpec.srcRaw
  dsimp only
  exact rem_apply _ 1536 (by decide) (by decide) j _ (lt31 (le_trans (Nat.div_le_self _ _) hp))
    (floorDiv_apply _ 1536 (by decide) (by decide) j _ (lt31 hp) (flat_apply' adj j))

theorem dstRaw_apply' (adj : FVec Ideal S1536x1536 .f32) (j : S2359296.Idx) :
    Cert.RefSpec.dstRaw (F := Ideal) adj j = W (pos (P adj) 2359296 (j 0).val / 1 % 1536) := by
  have hp := pos_le' (P adj) 2359296 (j 0).val
  unfold Cert.RefSpec.dstRaw
  dsimp only
  exact rem_apply _ 1536 (by decide) (by decide) j _ (lt31 (le_trans (Nat.div_le_self _ _) hp))
    (floorDiv_apply _ 1 (by decide) (by decide) j _ (lt31 hp) (flat_apply' adj j))

theorem total_apply (adj : FVec Ideal S1536x1536 .f32) (i : S_.Idx) :
    Cert.RefSpec.total (F := Ideal) adj i = W (nnz (P adj) 2359296) := by
  unfold Cert.RefSpec.total
  dsimp only
  rw [Cert.Lib.IntScan.reduce_addi_all, Cert.Lib.IntScan.sum_idx2_flat 1536 1536 _ (by decide)]
  have hsum : ∀ (g : ℕ → BitVec 32), (∀ p, p < 1536 * 1536 → g p = if P adj p then (1 : BitVec 32) else 0) →
      ∑ p ∈ Finset.range (1536 * 1536), g p = W (nnz (P adj) 2359296) := by
    intro g hg
    rw [Finset.sum_congr rfl (fun p hp => hg p (Finset.mem_range.mp hp)), sum_boole_W]
    rfl
  show (0 : BitVec 32) + _ = _
  rw [zero_add]
  apply hsum
  intro p hp
  rw [dif_pos hp, extui_apply, mask_apply]
  by_cases hP : P adj p
  · obtain ⟨_, hne⟩ := hP
    rw [if_pos hne, if_pos ⟨by omega, hne⟩]
    rfl
  · have hne : ¬ (adj (ix2 ⟨p / 1536, by omega⟩ ⟨p % 1536, Nat.mod_lt _ (by decide)⟩) ≠ (0 : EReal)) :=
      fun h => hP ⟨by omega, h⟩
    rw [if_neg hne, if_neg hP]
    rfl

theorem fill_apply' (adj : FVec Ideal S1536x1536 .f32) (j : S2359296.Idx) :
    Cert.RefSpec.fill (F := Ideal) adj j = if nnz (P adj) 2359296 ≤ (j 0).val then 1#1 else 0#1 := by
  have hj : (j 0).val < 2359296 := (j 0).isLt
  unfold Cert.RefSpec.fill
  dsimp only [cmpi, iotaInDim, broadcastInDim]
  rw [total_apply]
  exact cmpi_sge_W (lt31 (le_of_lt hj)) (lt31 (nnz_le _ _))

theorem src_apply' (adj : FVec Ideal S1536x1536 .f32) (j : S2359296.Idx) :
    Cert.RefSpec.src (F := Ideal) adj j
      = if nnz (P adj) 2359296 ≤ (j 0).val then W 1536 else W (pos (P adj) 2359296 (j 0).val / 1536 % 1536) := by
  unfold Cert.RefSpec.src
  dsimp only [select, broadcastInDim, constantI, id]
  rw [fill_apply', srcRaw_apply']
  by_cases h : nnz (P adj) 2359296 ≤ (j 0).val
  · rw [if_pos h, if_pos h]
    exact select_one _ _
  · rw [if_neg h, if_neg h]
    exact select_zero _ _

theorem dst_apply' (adj : FVec Ideal S1536x1536 .f32) (j : S2359296.Idx) :
    Cert.RefSpec.dst (F := Ideal) adj j
      = if nnz (P adj) 2359296 ≤ (j 0).val then W 1536 else W (pos (P adj) 2359296 (j 0).val / 1 % 1536) := by
  unfold Cert.RefSpec.dst
  dsimp only [select, broadcastInDim, constantI, id]
  rw [fill_apply', dstRaw_apply']
  by_cases h : nnz (P adj) 2359296 ≤ (j 0).val
  · rw [if_pos h, if_pos h]
    exact select_one _ _
  · rw [if_neg h, if_neg h]
    exact select_zero _ _

/-- Below the number of nonzero entries, the source word is the row of the enumerated position … -/
theorem src_lt (adj : FVec Ideal S1536x1536 .f32) (e : ℕ) (he : e < 2359296) (hlt : e < nnz (P adj) 2359296) :
    Cert.RefSpec.src (F := Ideal) adj (ix1 ⟨e, he⟩) = W (pos (P adj) 2359296 e / 1536) := by
  obtain ⟨h1, _, _⟩ := pos_spec (P adj) hlt
  rw [src_apply', if_neg (by show ¬ (nnz (P adj) 2359296 ≤ e); omega)]
  show W (pos (P adj) 2359296 e / 1536 % 1536) = _
  rw [Nat.mod_eq_of_lt (by omega)]

/-- … and the destination word its column; -/
theorem dst_lt (adj : FVec Ideal S1536x1536 .f32) (e : ℕ) (he : e < 2359296) (hlt : e < nnz (P adj) 2359296) :
    Cert.RefSpec.dst (F := Ideal) adj (ix1 ⟨e, he⟩) = W (pos (P adj) 2359296 e % 1536) := by
  rw [dst_apply', if_neg (by show ¬ (nnz (P adj) 2359296 ≤ e); omega)]
  show W (pos (P adj) 2359296 e / 1 % 1536) = _
  rw [Nat.div_one]

/-- from there on the destination word is the fill value, one past the last row. -/
theorem dst_ge (adj : FVec Ideal S1536x1536 .f32) (e : ℕ) (he : e < 2359296) (hge : nnz (P adj) 2359296 ≤ e) :
    Cert.RefSpec.dst (F := Ideal) adj (ix1 ⟨e, he⟩) = W 1536 := by
  rw [dst_apply', if_pos (by show nnz (P adj) 2359296 ≤ e; exact hge)]

end Cert.RefEdges
-- ==== Proof.BridgeAlg.lean ====
/-
  The two arrangements of the aggregation, joined.

  Under an adjacency whose entries are all `0` or `1`, "the entry at `(r, n)` is not zero" is "the entry is `1`", so a sum
  over the rows `r` with a nonzero entry in column `n` of a function of the row is the sum over all rows of that
  function times the entry (`edge_sum`, through the enumeration library's `sum_pos_col`: the reference's enumerated
  edges into node `n` are exactly those rows). The in-degree is then a natural number (`sum01_nat`), its clipping at one
  a nonzero real, and dividing by it is multiplying by its reciprocal: the reference's `(agg / max(1, deg)) · w` and the
  kernel's `w · (agg · (1 / max(deg, 1)))` differ by commutativity alone (`div_mul_comm`), on every extended real.
-/
import proofs.«112055_g42752104464586_cont_sun_m_355_17_alg».proof.Proof.RefEdges
import proofs.«112055_g42752104464586_cont_sun_m_355_17_alg».proof.Proof.LibNonzeroEnum
import Idealize.ShloMosaic.PureOps.Ideal
import Idealize.ShloMosaic.Lib.ValueIdx
import Mathlib.Algebra.BigOperators.Fin
import Mathlib.Tactic.Linarith
import Mathlib.Tactic.NormNum

noncomputable section

open Classical

namespace Cert.Bridge

open Idealize.ShloMosaic Idealize.ShloMosaic.ValueIdx Cert.ReferenceIdeal Cert.Lib.NonzeroEnum Cert.RefEdges

abbrev SA : Shape := ⟨2, ![1536, 1536]⟩

theorem P_iff (adj : SA.Idx → EReal) (r n : Fin 1536) : P adj (r.val * 1536 + n.val) ↔ adj (ix2 r n) ≠ (0 : EReal) := by
  have hr := r.isLt
  have hn := n.isLt
  have h1 : (r.val * 1536 + n.val) / 1536 = r.val := by omega
  have h2 : (r.val * 1536 + n.val) % 1536 = n.val := by omega
  have hidx : (ix2 ⟨(r.val * 1536 + n.val) / 1536, by omega⟩ ⟨(r.val * 1536 + n.val) % 1536, Nat.mod_lt _ (by decide)⟩ : SA.Idx)
      = ix2 r n := by
    congr 1 <;> exact Fin.ext (by assumption)
  constructor
  · rintro ⟨_, h⟩
    rwa [hidx] at h
  · intro h
    exact ⟨by omega, by rwa [hidx]⟩

/-- Under a 0/1 adjacency, the sum over the enumerated nonzero positions in column `n` of a function of the row is
    the sum over all rows of that function times the adjacency's entry. -/
theorem edge_sum (adj : SA.Idx → EReal) (hadj : ∀ i, adj i = (0 : EReal) ∨ adj i = (1 : EReal)) (n : Fin 1536)
    (g : Fin 1536 → EReal) :
    ∑ e ∈ (Finset.range (nnz (P adj) 2359296)).filter (fun e => pos (P adj) 2359296 e % 1536 = n.val),
        (fun r : ℕ => if hr : r < 1536 then g ⟨r, hr⟩ else 0) (pos (P adj) 2359296 e / 1536)
      = ∑ r : Fin 1536, g r * adj (ix2 r n) := by
  have key := sum_pos_col (P adj) 1536 1536 n.val n.isLt (fun r : ℕ => if hr : r < 1536 then g ⟨r, hr⟩ else 0)
  rw [show (1536 * 1536 : ℕ) = 2359296 from rfl] at key
  rw [key, Finset.sum_filter,
    ← Fin.sum_univ_eq_sum_range (fun i => if P adj (i * 1536 + n.val) then (if hr : i < 1536 then g ⟨i, hr⟩ else 0) else 0) 1536]
  refine Finset.sum_congr rfl ?_
  intro r _
  rw [dif_pos r.isLt]
  rcases hadj (ix2 r n) with h0 | h1
  · rw [if_neg (by rw [P_iff]; simp [h0]), h0, mul_zero]
  · rw [if_pos (by rw [P_iff, h1]; exact one_ne_zero), h1, mul_one]

/-- A finite sum of entries each `0` or `1` is a natural number. -/
theorem sum01_nat {ι : Type*} (s : Finset ι) (f : ι → EReal) (hf : ∀ r, f r = (0 : EReal) ∨ f r = (1 : EReal)) :
    ∃ m : ℕ, ∑ r ∈ s, f r = (m : EReal) := by
  apply Finset.sum_induction f (fun x => ∃ m : ℕ, x = (m : EReal))
  · rintro _ _ ⟨a, rfl⟩ ⟨b, rfl⟩
    exact ⟨a + b, by push_cast; rfl⟩
  · exact ⟨0, by simp⟩
  · intro r _
    rcases hf r with h | h
    · exact ⟨0, by simp [h]⟩
    · exact ⟨1, by simp [h]⟩

/-- Dividing by a degree clipped below at one is multiplying by the reciprocal of that real number; the two programs'
    arrangements of the quotient and the weight differ by commutativity alone. -/
theorem div_mul_comm (A Wt : EReal) (m : ℕ) :
    Ideal.div A (max (1 : EReal) (m : EReal)) * Wt = Wt * (A * Ideal.div (1 : EReal) (max (m : EReal) (1 : EReal))) := by
  obtain ⟨d, hd0, hd1⟩ : ∃ d : ℝ, d ≠ 0 ∧ max (1 : EReal) (m : EReal) = (d : EReal) := by
    by_cases h : 1 ≤ m
    · refine ⟨(m : ℝ), by exact_mod_cast (by omega : m ≠ 0), ?_⟩
      rw [max_eq_right]
      · rfl
      · have h1 : ((1 : ℕ) : EReal) ≤ (m : EReal) := EReal.natCast_le_iff.mpr h
        simpa using h1
    · refine ⟨1, one_ne_zero, ?_⟩
      have hm : m = 0 := by omega
      subst hm
      simp
  have hd2 : max (m : EReal) (1 : EReal) = (d : EReal) := by rw [max_comm]; exact hd1
  rw [hd1, hd2, Ideal.div_coe hd0, Ideal.div_coe hd0, one_mul, mul_comm]

end Cert.Bridge
-- ==== Proof.RefLayer.lean ====
/-
  One layer of the reference read at an index, at the extended reals.

  The layer gathers the rows of the features at the source words, adds them up at the destination words, counts the
  edges into each destination by adding ones the same way, divides the sums by the counts clipped below at one, and
  applies the two weight matrices and the bias. Here the source and destination words are given by an enumeration
  `a` of `nn` edges: edge `e < nn` has the source row `a e / 1536` and the destination `a e % 1536`, and every
  position from `nn` on carries the destination 1536, which is no node. An accumulating scatter read at a node is the
  sum over ALL positions of the updates whose destination word is that node; the positions from `nn` on drop out,
  and below `nn` the source word is a row number, so the wrap of negative indices is the identity, the range test
  passes and the gather reads that row. What is left is the sum over the edges below `nn` into the node
  (`aggE`, `degE`), and the two matrix products are sums over the shared axis (`sage_apply`).
-/
import proofs.«112055_g42752104464586_cont_sun_m_355_17_alg».proof.Proof.RefSpec
import proofs.«112055_g42752104464586_cont_sun_m_355_17_alg».proof.Proof.LibScatterRows
import proofs.«112055_g42752104464586_cont_sun_m_355_17_alg».proof.Proof.LibWords
import proofs.«112055_g42752104464586_cont_sun_m_355_17_alg».proof.Proof.LibPlainDot
import proofs.«112055_g42752104464586_cont_sun_m_355_17_alg».proof.Proof.LibKeepdims
import Idealize.ShloMosaic.Lib.ValueIdx
import Idealize.ShloMosaic.Lib.ReduceAll
import Idealize.ShloMosaic.Lib.Pipeline.Value
import Idealize.ShloMosaic.Lib.KernelVsHost
import Idealize.ShloMosaic.Lib.IdealHost
import Idealize.ShloMosaic.PureOps.Ideal.Laws

noncomputable section

namespace Cert.RefLayer

open Idealize.ShloMosaic ValueIdx Cert.ReferenceIdeal Cert.Lib.Words
open scoped BigOperators

/-! ## Sums over an index set, re-indexed by naturals -/

section Sums
variable {M : Type*} [AddCommMonoid M]

/-- A rank-1 index set is its coordinate's range. -/
def idxEquiv1 {N : ℕ} : (⟨1, ![N]⟩ : Shape).Idx ≃ Fin N where
  toFun j := j 0
  invFun e := ix1 e
  left_inv j := (eq_ix1 j).symm
  right_inv _ := rfl

theorem sum_idx1 {N : ℕ} (g : (⟨1, ![N]⟩ : Shape).Idx → M) : ∑ j, g j = ∑ e : Fin N, g (ix1 e) := by
  rw [← Equiv.sum_comp (idxEquiv1 (N := N)).symm g]
  rfl

/-- A sum over `Fin N` whose terms vanish from `nn` on and below `nn` are `u e` where `P e` holds and zero
    elsewhere is the sum of `u` over the naturals below `nn` at which `P` holds. -/
theorem sum_fin_split {N : ℕ} (nn : ℕ) (hnn : nn ≤ N) (P : ℕ → Prop) [DecidablePred P] (g : Fin N → M) (u : ℕ → M)
    (hlo : ∀ e (he : e < N), e < nn → g ⟨e, he⟩ = if P e then u e else 0)
    (hhi : ∀ e (he : e < N), nn ≤ e → g ⟨e, he⟩ = 0) :
    ∑ e, g e = ∑ e ∈ (Finset.range nn).filter P, u e := by
  have h1 : ∑ e, g e = ∑ e : Fin N, (fun e : ℕ => if he : e < N then g ⟨e, he⟩ else 0) e.val :=
    Finset.sum_congr rfl fun e _ => by simp only [dif_pos e.isLt]
  rw [h1, Fin.sum_univ_eq_sum_range (fun e : ℕ => if he : e < N then g ⟨e, he⟩ else 0) N, Finset.sum_filter,
    ← Finset.sum_subset (Finset.range_mono hnn)]
  · refine Finset.sum_congr rfl fun e he => ?_
    have hlt : e < nn := Finset.mem_range.mp he
    rw [dif_pos (lt_of_lt_of_le hlt hnn)]
    exact hlo e _ hlt
  · intro e he hne
    have hN : e < N := Finset.mem_range.mp he
    rw [dif_pos hN]
    exact hhi e hN (Nat.le_of_not_lt fun h => hne (Finset.mem_range.mpr h))

end Sums

/-! ## Layout operations read at an index -/

section Layout
variable {α : Type}

/-- A length-`N` vector broadcast along a new trailing axis of extent `D` reads, at `(e, f)`, the vector at `e`. -/
theorem bcast_col_apply {N D : ℕ} (h : (⟨1, ![N]⟩ : Shape).BroadcastsInDim ⟨2, ![N, D]⟩ ![0])
    (x : (⟨1, ![N]⟩ : Shape).Idx → α) (e : Fin N) (f : Fin D) :
    broadcastInDim ⟨2, ![N, D]⟩ ![0] h x (ix2 e f) = x (ix1 e) := by
  refine broadcastInDim_apply ![0] h x (ix2 e f) (ix1 e) fun a => ?_
  match a with
  | ⟨0, _⟩ =>
    show e.val = if N = 1 then 0 else e.val
    split
    · have := e.isLt; omega
    · rfl

/-- An `[N, 1]` column broadcast to `[N, D]` reads, at `(e, f)`, the column at `e`. -/
theorem bcast_colmat_apply {N D : ℕ} (h : (⟨2, ![N, 1]⟩ : Shape).BroadcastsInDim ⟨2, ![N, D]⟩ ![0, 1])
    (x : (⟨2, ![N, 1]⟩ : Shape).Idx → α) (e : Fin N) (f : Fin D) :
    broadcastInDim ⟨2, ![N, D]⟩ ![0, 1] h x (ix2 e f) = x (ix2 e (0 : Fin 1)) := by
  refine broadcastInDim_apply ![0, 1] h x (ix2 e f) (ix2 e (0 : Fin 1)) fun a => ?_
  match a with
  | ⟨0, _⟩ =>
    show e.val = if N = 1 then 0 else e.val
    split
    · have := e.isLt; omega
    · rfl
  | ⟨1, _⟩ => rfl

/-- A length-`D` vector broadcast to a `[1, D]` row reads, at `(0, f)`, the vector at `f`. -/
theorem bcast_row_apply {D : ℕ} (h : (⟨1, ![D]⟩ : Shape).BroadcastsInDim ⟨2, ![1, D]⟩ ![1])
    (x : (⟨1, ![D]⟩ : Shape).Idx → α) (f : Fin D) :
    broadcastInDim ⟨2, ![1, D]⟩ ![1] h x (ix2 (0 : Fin 1) f) = x (ix1 f) := by
  refine broadcastInDim_apply ![1] h x (ix2 (0 : Fin 1) f) (ix1 f) fun a => ?_
  match a with
  | ⟨0, _⟩ =>
    show f.val = if D = 1 then 0 else f.val
    split
    · have := f.isLt; omega
    · rfl

end Layout

/-! ## A reduction by `and` over a unit axis -/

theorem foldl_andi_one {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a (List.mem_cons_self ..)]
    exact foldl_andi_one f l fun n hn => h n (List.mem_cons_of_mem _ hn)

/-- The `and` of an `[N, 1]` array of bits along its unit axis, from the bit 1, is 1 at `e` when the array's bit
    at `(e, 0)` is. -/
theorem reduce_andi_col {N : ℕ} (x : IVec ⟨2, ![N, 1]⟩ 1) (init : IVec ⟨0, ![]⟩ 1)
    (h : (⟨2, ![N, 1]⟩ : Shape).ReducesTo [1] ⟨1, ![N]⟩) (hu : 0 < (⟨0, ![]⟩ : Shape).numel)
    (hinit : init (Shape.Idx.first hu) = 1#1) (e : Fin N) (hx : x (ix2 e (0 : Fin 1)) = 1#1) :
    Host.reduce IntOp.andi x init h hu (ix1 e) = 1#1 := by
  rw [Host.reduce_eq_foldl, hinit]
  refine foldl_andi_one x _ fun i hi => ?_
  have hd : h.drop i = ix1 e := by simpa using (List.mem_filter.mp hi).2
  have h0 : (i 0).val = e.val := by
    have := Shape.ReducesTo.drop_apply_val h i 0
    rw [hd] at this
    exact this.symm
  have hi' : i = ix2 e (0 : Fin 1) := by
    funext a
    match a with
    | ⟨0, _⟩ => exact Fin.ext h0
    | ⟨1, _⟩ =>
      refine Fin.ext ?_
      have h1 : (i 1).val < 1 := (i 1).isLt
      show (i 1).val = 0
      omega
  rw [hi']; exact hx

/-! ## A gather of whole rows read at an index -/

section Gather
variable {α : Type}

/-- The dimension numbers of a gather of whole rows of a `K × D` operand at an `[N, 1]` array of row indices. -/
abbrev rowGather (K D N : ℕ) (wf : GatherDims.WF ⟨2, ![K, D]⟩ ⟨2, ![N, 1]⟩ ⟨2, ![N, D]⟩ [1] [0] [] [0] [] 1 ![1, D]) :
    GatherDims ⟨2, ![K, D]⟩ ⟨2, ![N, 1]⟩ ⟨2, ![N, D]⟩ where
  offsetDims := [1]
  collapsedSliceDims := [0]
  operandBatchingDims := []
  startIndicesBatchingDims := []
  startIndexMap := [0]
  indexVectorDim := 1
  sliceSizes := ![1, D]
  wf := wf

/-- The gather read at `(e, f)`: the operand at the row the index word `idx[e, 0]` names, read signed and clamped
    into `[0, K − 1]`, and column `f`. -/
theorem gather_rows_apply {K D N w : ℕ} (hK : 0 < K) (wf)
    (x : (⟨2, ![K, D]⟩ : Shape).Idx → α) (idx : IVec ⟨2, ![N, 1]⟩ w) (e : Fin N) (f : Fin D) :
    Host.gather (rowGather K D N wf) x idx (ix2 e f)
      = x (ix2 ⟨min (idx (ix2 e (0 : Fin 1))).toInt.toNat (K - 1), by omega⟩ f) := by
  unfold Host.gather
  congr 1
  funext a
  refine Fin.ext ?_
  match a with
  | ⟨0, _⟩ =>
    show (rowGather K D N wf).start (ix2 e f) idx 0 + (rowGather K D N wf).batchCoord (ix2 e f) 0
      + (rowGather K D N wf).offCoord (ix2 e f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather K D N wf).startIndexMap from List.mem_singleton.mpr rfl)]
    have hsi : (rowGather K D N wf).siIdx (ix2 e f) ⟨List.idxOf (0 : Fin 2) (rowGather K D N wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGather K D N wf).start (ix2 e f) idx 1 + (rowGather K D N wf).batchCoord (ix2 e f) 1
      + (rowGather K D N wf).offCoord (ix2 e f) 1 = f.val
    rw [GatherDims.batchCoord_eq_zero _ _ _ List.not_mem_nil]
    have hs : (rowGather K D N wf).start (ix2 e f) idx 1 = 0 := by
      unfold GatherDims.start
      rw [dif_neg]
      simp
    rw [hs]
    simp only [Nat.add_zero, Nat.zero_add]
    unfold GatherDims.offCoord
    rw [dif_pos (by simp [GatherDims.sKept, Shape.kept])]
    first
    | rfl
    | simp [GatherDims.sKept, Shape.kept, List.finRange]

end Gather

section Dot
variable [Cert.ReferenceIdeal.Facts]
open Cert.ReferenceIdeal.Facts₀

/-- The layer's two matrix products read at an index: the sum over the shared axis. -/
theorem dot_apply (l : FVec Ideal S1536x64 .f32) (r : FVec Ideal S64x64 .f32) (n : Fin 1536) (o : Fin 64) :
    Host.dotGeneral (F := Ideal) dot_S1536x64_S64x64_S1536x64_1_0_0_1_n_n none l r (ix2 n o)
      = ∑ k : Fin 64, l (ix2 n k) * r (ix2 k o) := by
  exact Cert.Lib.PlainDot.dotGeneral_apply (M := 1536) (K := 64) (N := 64) dot_S1536x64_S64x64_S1536x64_1_0_0_1_n_n rfl rfl
    (fun j q => rfl) (fun j q => rfl) (fun j q => rfl) (fun j q => rfl) none .single l r (ix2 n o)
end Dot

/-! ## The gathered rows at an in-range source -/

section Take
variable [Cert.ReferenceIdeal.Facts]
open Cert.ReferenceIdeal.Facts₀ Cert.ReferenceIdeal.Facts

/-- The index column the gather reads: a negative index wrapped by the number of rows, as an `[N, 1]` column. -/
def wrapCol (s : IVec S2359296 32) : IVec S2359296x1 32 :=
  broadcastInDim S2359296x1 ![0] bcast_S2359296_S2359296x1_0
    (select (cmpi .slt s (broadcastInDim S2359296 ![] bcast_S_S2359296 (constantI S_ 32 0#32)))
      (addi s (broadcastInDim S2359296 ![] bcast_S_S2359296 (constantI S_ 32 1536#32))) s)

/-- At a source word that is a row number the wrap is the identity. -/
theorem wrapCol_apply (s : IVec S2359296 32) (e : Fin 2359296) (r : ℕ) (hr : r < 1536) (hs : s (ix1 e) = W r) :
    wrapCol s (ix2 e (0 : Fin 1)) = W r := by
  unfold wrapCol
  rw [bcast_col_apply, select_apply]
  show Scalar.select (IntOp.cmpi .slt (s (ix1 e)) 0#32) (IntOp.addi (s (ix1 e)) 1536#32) (s (ix1 e)) = W r
  rw [hs, cmpi_slt_W (by omega) (by norm_num), if_neg (Nat.not_lt_zero _), select_zero]

/-- A row number passes the range test `0 ≤ · ≤ 1535`. -/
theorem inRange_bit (r : ℕ) (hr : r < 1536) :
    IntOp.andi (IntOp.cmpi .sge (W r) 0#32) (IntOp.cmpi .sle (W r) 1535#32) = 1#1 := by
  rw [cmpi_sge_W (by omega) (by norm_num), cmpi_sle_W (by omega) (by norm_num), if_pos (Nat.zero_le _), if_pos (by omega)]
  rfl

/-- Where the source word of edge `e` is the row number `r`, the gathered row is row `r` of the features. -/
theorem take_apply (h : FVec Ideal S1536x64 .f32) (s : IVec S2359296 32) (e : Fin 2359296) (f : Fin 64) (r : ℕ)
    (hr : r < 1536) (hs : s (ix1 e) = W r) :
    Cert.RefSpec.take (F := Ideal) h s (ix2 e f) = h (ix2 ⟨r, hr⟩ f) := by
  have h5 : wrapCol s (ix2 e (0 : Fin 1)) = W r := wrapCol_apply s e r hr hs
  have hbit : (andi (cmpi .sge (wrapCol s) (broadcastInDim S2359296x1 ![] bcast_S_S2359296x1 (constantI S_ 32 0#32)))
        (cmpi .sle (wrapCol s) (broadcastInDim S2359296x1 ![0, 1] bcast_S1x1_S2359296x1_0_1
          (broadcastInDim S1x1 ![1] bcast_S1_S1x1_1 (constantI S1 32 1535#32))))) (ix2 e (0 : Fin 1)) = 1#1 := by
    show IntOp.andi (IntOp.cmpi .sge (wrapCol s (ix2 e (0 : Fin 1))) 0#32)
      (IntOp.cmpi .sle (wrapCol s (ix2 e (0 : Fin 1))) 1535#32) = 1#1
    rw [h5]; exact inRange_bit r hr
  have hg : Host.gather gather_S1536x64_S2359296x1_S2359296x64_1_0_n_n_0_1_164 h (wrapCol s) (ix2 e f) = _ :=
    gather_rows_apply (K := 1536) (D := 64) (N := 2359296) (by norm_num)
      gather_S1536x64_S2359296x1_S2359296x64_1_0_n_n_0_1_164_wf h (wrapCol s) e f
  unfold wrapCol at h5 hbit hg
  unfold Cert.RefSpec.take
  simp only []
  rw [select_apply, bcast_col_apply, reduce_andi_col _ _ _ _ rfl e hbit, select_one, hg]
  refine congrArg h (congrArg (fun p : Fin 1536 => ix2 p f) (Fin.ext ?_))
  show min _ (1536 - 1) = r
  rw [h5, toInt_W (by omega), Int.toNat_natCast]
  omega

end Take

/-! ## One layer read at an index -/

/-- The number one as the layer's constant spells it. -/
abbrev one : EReal := Ideal.ofBits .f32 0x3F800000#32
/-- The number zero as the layer's constant spells it. -/
abbrev zero : EReal := Ideal.ofBits .f32 0x00000000#32

/-- Row `r` of `h` at column `k`, as a total function of a natural row (zero past the last row). -/
def hAt (h : FVec Ideal S1536x64 .f32) (r : ℕ) (k : Fin 64) : EReal :=
  if hr : r < 1536 then h (ix2 ⟨r, hr⟩ k) else 0

/-- The sum, over the edges below `nn` into node `n`, of their source rows at column `k`. -/
def aggE (h : FVec Ideal S1536x64 .f32) (a : ℕ → ℕ) (nn : ℕ) (n : Fin 1536) (k : Fin 64) : EReal :=
  zero + ∑ e ∈ (Finset.range nn).filter (fun e => a e % 1536 = n.val), hAt h (a e / 1536) k

/-- The number of edges below `nn` into node `n`, as a sum of ones. -/
def degE (a : ℕ → ℕ) (nn : ℕ) (n : Fin 1536) : EReal :=
  zero + ∑ e ∈ (Finset.range nn).filter (fun e => a e % 1536 = n.val), one

theorem hostDivf_apply {s : Shape} {φ : FTy} (x y : FVec Ideal s φ) (i : s.Idx) :
    Host.divf x y i = Ideal.div (x i) (y i) := rfl

section Layer
variable [Cert.ReferenceIdeal.Facts]
open Cert.ReferenceIdeal.Facts₀ Cert.ReferenceIdeal.Facts

/-- Below `nn` the destination word of position `e`, read signed, is the destination `a e % 1536` of edge `e`. -/
theorem dst_toInt_lo (d : IVec S2359296 32) (a : ℕ → ℕ) (nn : ℕ)
    (hd : ∀ e (he : e < 2359296), e < nn → d (ix1 ⟨e, he⟩) = W (a e % 1536))
    (e : ℕ) (he : e < 2359296) (hlt : e < nn) :
    (broadcastInDim S2359296x1 ![0] bcast_S2359296_S2359296x1_0 d (ix2 (⟨e, he⟩ : Fin 2359296) (0 : Fin 1))).toInt
      = ((a e % 1536 : ℕ) : ℤ) := by
  rw [bcast_col_apply, hd e he hlt, toInt_W (by omega)]

/-- From `nn` on the destination word, read signed, is 1536, which is no node. -/
theorem dst_toInt_hi (d : IVec S2359296 32) (nn : ℕ)
    (hfill : ∀ e (he : e < 2359296), nn ≤ e → d (ix1 ⟨e, he⟩) = W 1536)
    (e : ℕ) (he : e < 2359296) (hge : nn ≤ e) :
    (broadcastInDim S2359296x1 ![0] bcast_S2359296_S2359296x1_0 d (ix2 (⟨e, he⟩ : Fin 2359296) (0 : Fin 1))).toInt
      = ((1536 : ℕ) : ℤ) := by
  rw [bcast_col_apply, hfill e he hge, toInt_W (by norm_num)]

/-- The dimension numbers of the layer's two scatters are the one-index-per-update ones. -/
theorem scatter_vec_eq : scatter_S1536_S2359296x1_S2359296_n_0_0_1
    = Cert.Lib.ScatterRows.vecDims 1536 2359296 scatter_S1536_S2359296x1_S2359296_n_0_0_1_wf := rfl

theorem scatter_row_eq : scatter_S1536x64_S2359296x1_S2359296x64_1_0_0_1
    = Cert.Lib.ScatterRows.rowDims 1536 64 2359296 scatter_S1536x64_S2359296x1_S2359296x64_1_0_0_1_wf := rfl

/-- The host's accumulating scatter of a vector of updates, at the extended reals, read at an operand index. -/
theorem host_scatterAdd_vec_apply {K N w : ℕ} (wf) (x : FVec Ideal ⟨1, ![K]⟩ .f32) (idx : IVec ⟨2, ![N, 1]⟩ w)
    (upd : FVec Ideal ⟨1, ![N]⟩ .f32) (i : Fin K) :
    Host.scatterAdd (F := Ideal) (Cert.Lib.ScatterRows.vecDims K N wf) x idx upd (ix1 i)
      = x (ix1 i) + ∑ e : Fin N, if (idx (ix2 e (0 : Fin 1))).toInt = ((i.val : ℕ) : ℤ) then upd (ix1 e) else 0 :=
  (Cert.Lib.ScatterRows.scatterAdd_vec_apply wf x idx upd (ix1 i)).trans (congrArg (fun t : EReal => x (ix1 i) + t)
    (sum_idx1 _))

/-- The host's accumulating scatter of rows, at the extended reals, read at an operand index. -/
theorem host_scatterAdd_row_apply {K D N w : ℕ} (wf) (x : FVec Ideal ⟨2, ![K, D]⟩ .f32) (idx : IVec ⟨2, ![N, 1]⟩ w)
    (upd : FVec Ideal ⟨2, ![N, D]⟩ .f32) (i : Fin K) (k : Fin D) :
    Host.scatterAdd (F := Ideal) (Cert.Lib.ScatterRows.rowDims K D N wf) x idx upd (ix2 i k)
      = x (ix2 i k) + ∑ e : Fin N, if (idx (ix2 e (0 : Fin 1))).toInt = ((i.val : ℕ) : ℤ) then upd (ix2 e k) else 0 := by
  refine (Cert.Lib.ScatterRows.scatterAdd_row_apply wf x idx upd (ix2 i k)).trans
    (congrArg (fun t : EReal => x (ix2 i k) + t) ?_)
  rw [sum_idx2]
  refine Finset.sum_congr rfl fun e _ => ?_
  show (∑ f : Fin D, if (idx (ix2 e (0 : Fin 1))).toInt = ((i.val : ℕ) : ℤ) ∧ f.val = k.val then upd (ix2 e f) else 0) = _
  rw [Finset.sum_eq_single k]
  · by_cases hc : (idx (ix2 e (0 : Fin 1))).toInt = ((i.val : ℕ) : ℤ)
    · rw [if_pos ⟨hc, rfl⟩, if_pos hc]
    · rw [if_neg (fun hh => hc hh.1), if_neg hc]
  · intro f _ hne
    rw [if_neg]
    rintro ⟨_, hf⟩
    exact hne (Fin.ext hf)
  · intro hk
    exact absurd (Finset.mem_univ k) hk

/-- The in-degree scatter read at node `n`. -/
theorem deg_apply (d : IVec S2359296 32) (a : ℕ → ℕ) (nn : ℕ) (hnn : nn ≤ 2359296)
    (hd : ∀ e (he : e < 2359296), e < nn → d (ix1 ⟨e, he⟩) = W (a e % 1536))
    (hfill : ∀ e (he : e < 2359296), nn ≤ e → d (ix1 ⟨e, he⟩) = W 1536) (n : Fin 1536) :
    Host.scatterAdd (F := Ideal) scatter_S1536_S2359296x1_S2359296_n_0_0_1
        (broadcastInDim S1536 ![] bcast_S_S1536 (constant (F := Ideal) S_ .f32 0x00000000#32))
        (broadcastInDim S2359296x1 ![0] bcast_S2359296_S2359296x1_0 d)
        (broadcastInDim S2359296 ![] bcast_S_S2359296 (constant (F := Ideal) S_ .f32 0x3F800000#32)) (ix1 n)
      = degE a nn n := by
  rw [scatter_vec_eq, host_scatterAdd_vec_apply, broadcastInDim_scalar_apply, constant_apply]
  unfold degE
  refine congrArg (fun t : EReal => zero + t) ?_
  refine sum_fin_split nn hnn (fun e => a e % 1536 = n.val) _ (fun _ => one) ?_ ?_
  · intro e he hlt
    rw [dst_toInt_lo d a nn hd e he hlt, broadcastInDim_scalar_apply, constant_apply]
    simp only [Nat.cast_inj]
  · intro e he hge
    rw [dst_toInt_hi d nn hfill e he hge, if_neg]
    have := n.isLt
    omega

/-- The aggregation scatter read at node `n` and column `k`. -/
theorem agg_apply (h : FVec Ideal S1536x64 .f32) (s d : IVec S2359296 32) (a : ℕ → ℕ) (nn : ℕ) (hnn : nn ≤ 2359296)
    (hlt : ∀ e, e < nn → a e < 2359296)
    (hs : ∀ e (he : e < 2359296), e < nn → s (ix1 ⟨e, he⟩) = W (a e / 1536))
    (hd : ∀ e (he : e < 2359296), e < nn → d (ix1 ⟨e, he⟩) = W (a e % 1536))
    (hfill : ∀ e (he : e < 2359296), nn ≤ e → d (ix1 ⟨e, he⟩) = W 1536) (n : Fin 1536) (k : Fin 64) :
    Host.scatterAdd (F := Ideal) scatter_S1536x64_S2359296x1_S2359296x64_1_0_0_1
        (broadcastInDim S1536x64 ![] bcast_S_S1536x64 (constant (F := Ideal) S_ .f32 0x00000000#32))
        (broadcastInDim S2359296x1 ![0] bcast_S2359296_S2359296x1_0 d)
        (Cert.RefSpec.take (F := Ideal) h s) (ix2 n k)
      = aggE h a nn n k := by
  rw [scatter_row_eq, host_scatterAdd_row_apply, broadcastInDim_scalar_apply, constant_apply]
  unfold aggE
  refine congrArg (fun t : EReal => zero + t) ?_
  refine sum_fin_split nn hnn (fun e => a e % 1536 = n.val) _ (fun e => hAt h (a e / 1536) k) ?_ ?_
  · intro e he hlt'
    have hr : a e / 1536 < 1536 := by have := hlt e hlt'; omega
    rw [dst_toInt_lo d a nn hd e he hlt', take_apply h s ⟨e, he⟩ k (a e / 1536) hr (hs e he hlt')]
    unfold hAt
    rw [dif_pos hr]
    simp only [Nat.cast_inj]
  · intro e he hge
    rw [dst_toInt_hi d nn hfill e he hge, if_neg]
    have := n.isLt
    omega

/-- The aggregated rows and the in-degrees of one layer, as arrays. -/
def aggV (h : FVec Ideal S1536x64 .f32) (s d : IVec S2359296 32) : FVec Ideal S1536x64 .f32 :=
  Host.scatterAdd (F := Ideal) scatter_S1536x64_S2359296x1_S2359296x64_1_0_0_1
    (broadcastInDim S1536x64 ![] bcast_S_S1536x64 (constant (F := Ideal) S_ .f32 0x00000000#32))
    (broadcastInDim S2359296x1 ![0] bcast_S2359296_S2359296x1_0 d)
    (Cert.RefSpec.take (F := Ideal) h s)

def degV (d : IVec S2359296 32) : FVec Ideal S1536 .f32 :=
  Host.scatterAdd (F := Ideal) scatter_S1536_S2359296x1_S2359296_n_0_0_1
    (broadcastInDim S1536 ![] bcast_S_S1536 (constant (F := Ideal) S_ .f32 0x00000000#32))
    (broadcastInDim S2359296x1 ![0] bcast_S2359296_S2359296x1_0 d)
    (broadcastInDim S2359296 ![] bcast_S_S2359296 (constant (F := Ideal) S_ .f32 0x3F800000#32))

/-- The layer as the sum of its two products and the bias, over the aggregated rows and the in-degrees. -/
theorem sage_eq (h : FVec Ideal S1536x64 .f32) (s d : IVec S2359296 32) (Wl : FVec Ideal S64x64 .f32)
    (b : FVec Ideal S64 .f32) (Wr : FVec Ideal S64x64 .f32) :
    Cert.RefSpec.sage (F := Ideal) h s d Wl b Wr
      = addf (addf
          (Host.dotGeneral (F := Ideal) dot_S1536x64_S64x64_S1536x64_1_0_0_1_n_n none
            (Host.divf (F := Ideal) (aggV h s d)
              (broadcastInDim S1536x64 ![0, 1] bcast_S1536x1_S1536x64_0_1
                (broadcastInDim S1536x1 ![0] bcast_S1536_S1536x1_0
                  (maximumf (broadcastInDim S1536 ![] bcast_S_S1536 (id (constant (F := Ideal) S_ .f32 0x3F800000#32)))
                    (degV d))))) Wl)
          (broadcastInDim S1536x64 ![0, 1] bcast_S1x64_S1536x64_0_1 (broadcastInDim S1x64 ![1] bcast_S64_S1x64_1 b)))
        (Host.dotGeneral (F := Ideal) dot_S1536x64_S64x64_S1536x64_1_0_0_1_n_n none h Wr) := rfl

/-- One layer of the reference read at node `n` and output column `o`. -/
theorem sage_apply (h : FVec Ideal S1536x64 .f32) (s d : IVec S2359296 32) (Wl : FVec Ideal S64x64 .f32)
    (b : FVec Ideal S64 .f32) (Wr : FVec Ideal S64x64 .f32)
    (a : ℕ → ℕ) (nn : ℕ) (hnn : nn ≤ 2359296) (hlt : ∀ e, e < nn → a e < 2359296)
    (hs : ∀ e (he : e < 2359296), e < nn → s (ix1 ⟨e, he⟩) = W (a e / 1536))
    (hd : ∀ e (he : e < 2359296), e < nn → d (ix1 ⟨e, he⟩) = W (a e % 1536))
    (hfill : ∀ e (he : e < 2359296), nn ≤ e → d (ix1 ⟨e, he⟩) = W 1536)
    (n : Fin 1536) (o : Fin 64) :
    Cert.RefSpec.sage (F := Ideal) h s d Wl b Wr (ix2 n o)
      = ((∑ k : Fin 64, Ideal.div (aggE h a nn n k) (max one (degE a nn n)) * Wl (ix2 k o)) + b (ix1 o))
        + ∑ k : Fin 64, h (ix2 n k) * Wr (ix2 k o) := by
  have hagg : ∀ k : Fin 64, aggV h s d (ix2 n k) = aggE h a nn n k :=
    fun k => agg_apply h s d a nn hnn hlt hs hd hfill n k
  have hdeg : degV d (ix1 n) = degE a nn n := deg_apply d a nn hnn hd hfill n
  rw [sage_eq, addf_apply, addf_apply, dot_apply, dot_apply, broadcastInDim_oneRow_apply, bcast_row_apply]
  refine congrArg (fun t : EReal => t + b (ix1 o) + ∑ k : Fin 64, h (ix2 n k) * Wr (ix2 k o)) ?_
  refine Finset.sum_congr rfl fun k _ => ?_
  rw [hostDivf_apply, bcast_colmat_apply, bcast_col_apply, maximumf_apply, hagg k, hdeg, broadcastInDim_scalar_apply]
  rfl

end Layer

end Cert.RefLayer
end
-- ==== Proof.PreAdj.lean ====
/-
  The precondition's last conjunct, decoded: every entry of the adjacency argument is 0 or 1.

  The printed precondition is a conjunction of one-bit words, each a reduction by `and` over a whole array.  Its last
  conjunct reduces, over the 1536 × 1536 argument, the bit "the entry equals the float word of 0.0, or it equals the
  float word of 1.0".  If the whole predicate is the bit 1 then so is this conjunct, so every such bit is 1, and at
  the ideal values an ordered-equal comparison is equality of extended reals and the two words denote 0 and 1.
-/
import proofs.«112055_g42752104464586_cont_sun_m_355_17_alg».proof.Pre_finite_inputs
import Idealize.ShloMosaic.Lib.ReduceAll
import Idealize.ShloMosaic.Lib.ValueIdx
import Idealize.ShloMosaic.PureOps.Ideal.Laws

noncomputable section

namespace Cert.PreAdj

open Idealize.ShloMosaic Cert.Pre_finite_inputs

/-- The scalar shape has one index. -/
instance : Subsingleton S_.Idx := ⟨fun a b => funext fun d => d.elim0⟩

/-- The float word of `1.0` denotes the extended real 1. -/
theorem ofBits_one : Ideal.ofBits .f32 0x3F800000#32 = (1 : EReal) := by
  simp [Ideal.ofBits, Ideal.ieee, -EReal.coe_mul]; norm_num

/-- At the ideal values an ordered-equal comparison that is the bit 1 is an equality. -/
theorem eq_of_cmp_oeq {x y : EReal} (h : Ideal.cmp .oeq x y = 1#1) : x = y := by
  by_contra hne
  have h0 : Ideal.cmp .oeq x y = 0#1 := by simp [Ideal.cmp, hne]
  rw [h0] at h
  exact absurd h (by decide)

/-- The last part of the predicate: if it is the bit 1, every entry of the adjacency argument is 0 or 1. -/
theorem part3_adj01 [Facts] (a1 : FVec Ideal S1536x1536 .f32) (v48 : IVec S_ 1) (v49 v50 : FVec Ideal S64x64 .f32)
    (h : fn_part3 (F := Ideal) a1 v48 v49 v50 ValueIdx.ix0 = 1#1) (i : S1536x1536.Idx) :
    a1 i = (0 : EReal) ∨ a1 i = (1 : EReal) := by
  unfold fn_part3 at h
  have h2 := (IntOp.andi_eq_one.1 h).2
  have h3 := Host.reduce_andi_all _ _ _ _ _ h2 i
  rcases IntOp.ori_eq_one.1 h3 with e | e
  · left
    have e' : Ideal.cmp .oeq (a1 i) (Ideal.ofBits .f32 0x00000000#32) = 1#1 := e
    rw [eq_of_cmp_oeq e', Ideal.ofBits_zero_f32]
  · right
    have e' : Ideal.cmp .oeq (a1 i) (Ideal.ofBits .f32 0x3F800000#32) = 1#1 := e
    rw [eq_of_cmp_oeq e', ofBits_one]

/-- THE DECODED CONJUNCT: under the precondition every entry of the adjacency argument is 0 or 1. -/
theorem adj01 [Facts] (a0 : FVec Ideal S1536x64 .f32) (a1 : FVec Ideal S1536x1536 .f32) (a2 : FVec Ideal S64x64 .f32)
    (a3 : FVec Ideal S64 .f32) (a4 a5 : FVec Ideal S64x64 .f32) (a6 : FVec Ideal S64 .f32) (a7 a8 : FVec Ideal S64x64 .f32)
    (a9 : FVec Ideal S64 .f32) (a10 : FVec Ideal S64x64 .f32)
    (h : fn (F := Ideal) a0 a1 a2 a3 a4 a5 a6 a7 a8 a9 a10 = fun _ => 1#1) :
    ∀ i, a1 i = (0 : EReal) ∨ a1 i = (1 : EReal) := by
  intro i
  have h0 := congrFun h ValueIdx.ix0
  unfold fn fn_part1 fn_part2 at h0
  exact part3_adj01 a1 _ _ _ h0 i

end Cert.PreAdj

end
-- ==== Proof.Bridge.lean ====
/-
  The reference's result is the kernel's function of the arguments.

  One layer of the reference, read at `(n, o)` (the layer module), is a sum over the enumerated edges into node `n`;
  by `edge_sum` that is the dense sum `∑ r, h[r, k] · adj[r, n]` the kernel forms on the matrix unit, and the count of
  those edges is the column sum of the adjacency. The rest is the order of three summands and of the factors of two
  products. Three layers with the rectifier between them give the whole result.
-/
import proofs.«112055_g42752104464586_cont_sun_m_355_17_alg».proof.Proof.BridgeAlg
import proofs.«112055_g42752104464586_cont_sun_m_355_17_alg».proof.Proof.RefLayer
import proofs.«112055_g42752104464586_cont_sun_m_355_17_alg».proof.Proof.KernelSpec
import proofs.«112055_g42752104464586_cont_sun_m_355_17_alg».proof.Proof.PreAdj

noncomputable section

open Classical

namespace Cert.Bridge

open Idealize.ShloMosaic Idealize.ShloMosaic.ValueIdx Cert.ReferenceIdeal Cert.Lib.NonzeroEnum Cert.RefEdges

variable [Cert.ReferenceIdeal.Facts]

theorem relu_eq (h : FVec Ideal S1536x64 .f32) : Cert.RefSpec.relu (F := Ideal) h = Cert.KernelSpec.relu h := by
  funext i
  rfl

/-- One layer: the reference's gather / scatter-add form over its edge list is the kernel's dense form. -/
theorem sage_eq_layer (adj : FVec Ideal S1536x1536 .f32) (hadj : ∀ i, adj i = (0 : EReal) ∨ adj i = (1 : EReal))
    (h : FVec Ideal S1536x64 .f32) (Wl : FVec Ideal S64x64 .f32) (b : FVec Ideal S64 .f32) (Wr : FVec Ideal S64x64 .f32) :
    Cert.RefSpec.sage (F := Ideal) h (Cert.RefSpec.src (F := Ideal) adj) (Cert.RefSpec.dst (F := Ideal) adj) Wl b Wr
      = Cert.KernelSpec.layer adj h Wl b Wr := by
  funext i
  obtain ⟨n, o, rfl⟩ : ∃ (n : Fin 1536) (o : Fin 64), i = ix2 n o := ⟨i 0, i 1, eq_ix2 i⟩
  rw [Cert.KernelSpec.layer_apply,
    Cert.RefLayer.sage_apply h _ _ Wl b Wr (pos (P adj) 2359296) (nnz (P adj) 2359296) (nnz_le _ _)
      (fun e he => (pos_spec (P adj) he).1) (src_lt adj) (dst_lt adj) (dst_ge adj) n o]
  have hA : ∀ k : Fin 64, Cert.RefLayer.aggE h (pos (P adj) 2359296) (nnz (P adj) 2359296) n k
      = Cert.KernelSpec.agg adj h n k := by
    intro k
    unfold Cert.RefLayer.aggE Cert.KernelSpec.agg
    rw [show Cert.RefLayer.zero = (0 : EReal) from Ideal.ofBits_zero_f32, zero_add]
    exact edge_sum adj hadj n (fun r => h (ix2 r k))
  have hD : Cert.RefLayer.degE (pos (P adj) 2359296) (nnz (P adj) 2359296) n = Cert.KernelSpec.deg adj n := by
    unfold Cert.RefLayer.degE Cert.KernelSpec.deg
    rw [show Cert.RefLayer.zero = (0 : EReal) from Ideal.ofBits_zero_f32, zero_add,
      ← edge_sum adj hadj n (fun _ => Cert.KernelSpec.one)]
    refine Finset.sum_congr rfl ?_
    intro e he
    simp only [Finset.mem_filter, Finset.mem_range] at he
    have hlt := (pos_spec (P adj) he.1).1
    show Cert.RefLayer.one = if hr : pos (P adj) 2359296 e / 1536 < 1536 then Cert.KernelSpec.one else 0
    rw [dif_pos (by omega)]
  obtain ⟨m, hm⟩ := sum01_nat Finset.univ (fun r : Fin 1536 => Cert.KernelSpec.one * adj (ix2 r n)) (by
    intro r
    show Cert.KernelSpec.one * adj (ix2 r n) = 0 ∨ Cert.KernelSpec.one * adj (ix2 r n) = 1
    rw [show Cert.KernelSpec.one = (1 : EReal) from Cert.PreAdj.ofBits_one, one_mul]
    exact hadj _)
  have hdeg : Cert.KernelSpec.deg adj n = (m : EReal) := hm
  simp only [hA, hD]
  unfold Cert.KernelSpec.layerAt Cert.KernelSpec.dinv
  rw [hdeg, show Cert.RefLayer.one = (1 : EReal) from Cert.PreAdj.ofBits_one,
    show Cert.KernelSpec.one = (1 : EReal) from Cert.PreAdj.ofBits_one]
  simp only [div_mul_comm]
  have hR : ∑ k : Fin 64, h (ix2 n k) * Wr (ix2 k o) = ∑ k : Fin 64, Wr (ix2 k o) * h (ix2 n k) :=
    Finset.sum_congr rfl (fun k _ => mul_comm _ _)
  rw [add_right_comm, hR]

/-- The whole result: three layers over the same edge list, a rectifier after the first two. -/
theorem out_eq (x : FVec Ideal S1536x64 .f32) (adj : FVec Ideal S1536x1536 .f32)
    (hadj : ∀ i, adj i = (0 : EReal) ∨ adj i = (1 : EReal))
    (Wl0 : FVec Ideal S64x64 .f32) (b0 : FVec Ideal S64 .f32) (Wr0 : FVec Ideal S64x64 .f32)
    (Wl1 : FVec Ideal S64x64 .f32) (b1 : FVec Ideal S64 .f32) (Wr1 : FVec Ideal S64x64 .f32)
    (Wl2 : FVec Ideal S64x64 .f32) (b2 : FVec Ideal S64 .f32) (Wr2 : FVec Ideal S64x64 .f32) :
    Cert.RefSpec.out (F := Ideal) x adj Wl0 b0 Wr0 Wl1 b1 Wr1 Wl2 b2 Wr2
      = Cert.KernelSpec.out x adj Wl0 b0 Wr0 Wl1 b1 Wr1 Wl2 b2 Wr2 := by
  unfold Cert.RefSpec.out Cert.KernelSpec.out
  rw [sage_eq_layer adj hadj, relu_eq, sage_eq_layer adj hadj, relu_eq, sage_eq_layer adj hadj]

end Cert.Bridge
-- ==== Proof.lean ====
/-
  Three fused mean-aggregation graph layers against their edge-list reference, over the extended reals.

  The kernel treats the adjacency `adj` as a dense matrix: per layer, with `h` the node features,
  `agg[n, k] = ∑ r, h[r, k] · adj[r, n]`, `deg[n] = ∑ r, adj[r, n]`, and
  `out[n, o] = ∑ k, Wl[k, o] · (agg[n, k] · (1 / max(deg[n], 1))) + ∑ k, Wr[k, o] · h[n, k] + b[o]`,
  a rectifier between the layers. The reference reads the adjacency only through which entries are not zero: it
  enumerates those entries (row = source, column = destination) with two running sums, gathers the source rows of `h`,
  adds them up at the destinations, counts the edges into each destination, and divides by that count clipped below
  at one before applying the same weights and bias. The two agree exactly when every entry of the adjacency is `0` or `1`
  (the precondition's last conjunct): then "not zero" is "one", the sum over the edges into `n` of `h[source, k]` is the
  dense sum `∑ r, h[r, k] · adj[r, n]`, the edge count is the column sum, and dividing by a nonzero real is multiplying
  by its reciprocal on every extended real — no finiteness of the features or weights is used.
  The kernel's value is read off its generated frame run (one grid point, every block its whole array); the reference's
  run is the composition of its operations; the enumeration is proved correct as a statement about naturals (the
  running count steps up exactly at the nonzero positions, so position `k` of the second running sum is the `(k+1)`-st
  nonzero position) and carried to the 32-bit words, all of which stay below 2^31.
-/
import proofs.«112055_g42752104464586_cont_sun_m_355_17_alg».proof.Defs
import proofs.«112055_g42752104464586_cont_sun_m_355_17_alg».proof.Proof.Gen.Kernel
import proofs.«112055_g42752104464586_cont_sun_m_355_17_alg».proof.Proof.Gen.Kernel.Frame
import proofs.«112055_g42752104464586_cont_sun_m_355_17_alg».proof.Proof.Gen.KernelIdeal
import proofs.«112055_g42752104464586_cont_sun_m_355_17_alg».proof.Proof.Gen.KernelIdeal.Frame
import proofs.«112055_g42752104464586_cont_sun_m_355_17_alg».proof.Proof.Gen.ReferenceIdeal
import proofs.«112055_g42752104464586_cont_sun_m_355_17_alg».proof.Proof.Gen.Pre_finite_inputs
import proofs.«112055_g42752104464586_cont_sun_m_355_17_alg».proof.Proof.KernelValue
import proofs.«112055_g42752104464586_cont_sun_m_355_17_alg».proof.Proof.RefRun
import proofs.«112055_g42752104464586_cont_sun_m_355_17_alg».proof.Proof.Bridge
import proofs.«112055_g42752104464586_cont_sun_m_355_17_alg».proof.Proof.PreAdj
import Idealize.ShloMosaic.Adequacy
import Idealize.ShloMosaic.Init

noncomputable section

namespace Cert.Proof

open Idealize.ShloMosaic Idealize.SL.Sem

theorem frame_p : Cert.frame_Kernel := fun m ρ _ => Cert.Kernel.Gen.frame m ρ

theorem frame_pi : Cert.frame_KernelIdeal := fun m ρ _ => Cert.KernelIdeal.Gen.frame m ρ

/-- The reference's frame is its run with the result forgotten. -/
theorem frame_ri : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

/-- Both programs end at the kernel's function of the arguments: the kernel by its value run, the reference by its run
    and the bridge, under the adjacency's entries being `0` or `1`. -/
theorem algebraic : Cert.algebraic_KernelIdeal_ReferenceIdeal := by
  intro m ρ m' ρ' hpre hagree
  refine ⟨_, Cert.KernelIdeal.KValue.run m ρ, ?_⟩
  refine (θ_run Cert.ReferenceIdeal.defs _ _).mono (fun _ h c => ⟨(h c).1.trans ?_, (h c).2⟩)
    (Cert.ReferenceIdeal.RefRun.run (F := Ideal) m' ρ')
  obtain ⟨h0, h1, h2, h3, h4, h5, h6, h7, h8, h9, h10⟩ := hagree c
  rw [h0, h1, h2, h3, h4, h5, h6, h7, h8, h9, h10]
  exact Cert.Bridge.out_eq _ _ (Cert.PreAdj.adj01 _ _ _ _ _ _ _ _ _ _ _ (hpre c)) _ _ _ _ _ _ _ _ _

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
